-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x65536x6 : Shape := ⟨3, ![64, 65536, 6]⟩
abbrev S64x65536 : Shape := ⟨2, ![64, 65536]⟩
abbrev S_ : Shape := ⟨0, ![]⟩

class Facts : Prop where
  bcast_S_S64x65536x6 : S_.BroadcastsInDim S64x65536x6 (![] : Fin 0 → Fin S64x65536x6.rank)
  reducesTo_S64x65536x6_S_d0_1_2 : S64x65536x6.ReducesTo [0, 1, 2] S_
  h_S_ : 0 < S_.numel

variable [Facts]

def fn {F : FTy → Type} [FloatOps F] (main_arg0 : FVec F S64x65536x6 .f32) (main_arg1 : IVec S64x65536 32) (main_arg2 : IVec S64x65536 32) : IVec S_ 1 :=
  let main_v0 : FVec F S64x65536x6 .f32 := Host.absf main_arg0
  let main_cst : FVec F S_ .f32 := constant S_ .f32 0x7F800000#32
  let main_v1 : FVec F S64x65536x6 .f32 := broadcastInDim S64x65536x6 ![] bcast_S_S64x65536x6 main_cst
  let main_v2 : IVec S64x65536x6 1 := cmpf .olt main_v0 main_v1
  let main_c : IVec S_ 1 := constantI S_ 1 1#1
  let main_v3 : IVec S_ 1 := (fun x v => Host.reduce IntOp.andi x v reducesTo_S64x65536x6_S_d0_1_2 h_S_) main_v2 main_c
  main_v3
-- ==== Kernel.lean ====
abbrev S64x65536x6 : Shape := ⟨3, ![64, 65536, 6]⟩
abbrev S64x65536 : Shape := ⟨2, ![64, 65536]⟩
abbrev S_ : Shape := ⟨0, ![]⟩
abbrev S64x65536x1 : Shape := ⟨3, ![64, 65536, 1]⟩
abbrev S1 : Shape := ⟨1, ![1]⟩
abbrev S1x1x1 : Shape := ⟨3, ![1, 1, 1]⟩
abbrev S64x65535 : Shape := ⟨2, ![64, 65535]⟩
abbrev S64x1 : Shape := ⟨2, ![64, 1]⟩
abbrev S64 : Shape := ⟨1, ![64]⟩
abbrev S65536 : Shape := ⟨1, ![65536]⟩
abbrev S1x65536 : Shape := ⟨2, ![1, 65536]⟩
abbrev S64x65537 : Shape := ⟨2, ![64, 65537]⟩
abbrev S64x65536x2 : Shape := ⟨3, ![64, 65536, 2]⟩
abbrev S64x6x65536 : Shape := ⟨3, ![64, 6, 65536]⟩
abbrev S64x1x65536 : Shape := ⟨3, ![64, 1, 65536]⟩
abbrev S64x6x65536x1 : Shape := ⟨4, ![64, 6, 65536, 1]⟩
abbrev S1x1x1x1 : Shape := ⟨4, ![1, 1, 1, 1]⟩
abbrev S1x6x65536 : Shape := ⟨3, ![1, 6, 65536]⟩

abbrev nBuf : Space → Nat
  | .hbm => 110
  | .vmem => 4
  | .smem => 1
  | _ => 0

abbrev bufTy : (tb : Table) → Fin (tcTables nBuf tb) → BufTy
  | .hbm, ⟨0, _⟩ => ⟨S64x65536x6, .f32⟩
  | .hbm, ⟨1, _⟩ => ⟨S64x65536, .i32⟩
  | .hbm, ⟨2, _⟩ => ⟨S64x65536, .i32⟩
  | .hbm, ⟨3, _⟩ => ⟨S_, .i32⟩
  | .hbm, ⟨4, _⟩ => ⟨S64x65536, .i32⟩
  | .hbm, ⟨5, _⟩ => ⟨S64x65536, .i1⟩
  | .hbm, ⟨6, _⟩ => ⟨S_, .i32⟩
  | .hbm, ⟨7, _⟩ => ⟨S64x65536, .i32⟩
  | .hbm, ⟨8, _⟩ => ⟨S64x65536, .i32⟩
  | .hbm, ⟨9, _⟩ => ⟨S64x65536, .i32⟩
  | .hbm, ⟨10, _⟩ => ⟨S64x65536x1, .i32⟩
  | .hbm, ⟨11, _⟩ => ⟨S1, .i32⟩
  | .hbm, ⟨12, _⟩ => ⟨S_, .i32⟩
  | .hbm, ⟨13, _⟩ => ⟨S64x65536x1, .i32⟩
  | .hbm, ⟨14, _⟩ => ⟨S64x65536x1, .i1⟩
  | .hbm, ⟨15, _⟩ => ⟨S1x1x1, .i32⟩
  | .hbm, ⟨16, _⟩ => ⟨S64x65536x1, .i32⟩
  | .hbm, ⟨17, _⟩ => ⟨S64x65536x1, .i1⟩
  | .hbm, ⟨18, _⟩ => ⟨S64x65536x1, .i1⟩
  | .hbm, ⟨19, _⟩ => ⟨S_, .i1⟩
  | .hbm, ⟨20, _⟩ => ⟨S64x65536, .i1⟩
  | .hbm, ⟨21, _⟩ => ⟨S64x65536, .i32⟩
  | .hbm, ⟨22, _⟩ => ⟨S_, .i32⟩
  | .hbm, ⟨23, _⟩ => ⟨S64x65536, .i32⟩
  | .hbm, ⟨24, _⟩ => ⟨S64x65536, .i32⟩
  | .hbm, ⟨25, _⟩ => ⟨S64x65535, .i32⟩
  | .hbm, ⟨26, _⟩ => ⟨S64x65535, .i32⟩
  | .hbm, ⟨27, _⟩ => ⟨S64x65535, .i1⟩
  | .hbm, ⟨28, _⟩ => ⟨S_, .i1⟩
  | .hbm, ⟨29, _⟩ => ⟨S64x1, .i1⟩
  | .hbm, ⟨30, _⟩ => ⟨S64x65536, .i1⟩
  | .hbm, ⟨31, _⟩ => ⟨S_, .i32⟩
  | .hbm, ⟨32, _⟩ => ⟨S64x65536, .i32⟩
  | .hbm, ⟨33, _⟩ => ⟨S64x65536, .i1⟩
  | .hbm, ⟨34, _⟩ => ⟨S64x65536, .i1⟩
  | .hbm, ⟨35, _⟩ => ⟨S64x65536, .i32⟩
  | .hbm, ⟨36, _⟩ => ⟨S_, .i32⟩
  | .hbm, ⟨37, _⟩ => ⟨S_, .i32⟩
  | .hbm, ⟨38, _⟩ => ⟨S64x65536, .i32⟩
  | .hbm, ⟨39, _⟩ => ⟨S_, .i32⟩
  | .hbm, ⟨40, _⟩ => ⟨S64x65536, .i32⟩
  | .hbm, ⟨41, _⟩ => ⟨S64x65536, .i32⟩
  | .hbm, ⟨42, _⟩ => ⟨S_, .i32⟩
  | .hbm, ⟨43, _⟩ => ⟨S_, .i32⟩
  | .hbm, ⟨44, _⟩ => ⟨S64x65536, .i32⟩
  | .hbm, ⟨45, _⟩ => ⟨S64x65536, .i32⟩
  | .hbm, ⟨46, _⟩ => ⟨S64x65536, .i32⟩
  | .hbm, ⟨47, _⟩ => ⟨S_, .i32⟩
  | .hbm, ⟨48, _⟩ => ⟨S65536, .i32⟩
  | .hbm, ⟨49, _⟩ => ⟨S1x65536, .i32⟩
  | .hbm, ⟨50, _⟩ => ⟨S64x1, .i32⟩
  | .hbm, ⟨51, _⟩ => ⟨S64x65536, .i32⟩
  | .hbm, ⟨52, _⟩ => ⟨S64x65536, .i32⟩
  | .hbm, ⟨53, _⟩ => ⟨S64x65536, .i1⟩
  | .hbm, ⟨54, _⟩ => ⟨S65536, .i32⟩
  | .hbm, ⟨55, _⟩ => ⟨S1x65536, .i32⟩
  | .hbm, ⟨56, _⟩ => ⟨S64x65536, .i32⟩
  | .hbm, ⟨57, _⟩ => ⟨S_, .i32⟩
  | .hbm, ⟨58, _⟩ => ⟨S64x65537, .i32⟩
  | .hbm, ⟨59, _⟩ => ⟨S64, .i32⟩
  | .hbm, ⟨60, _⟩ => ⟨S64x1, .i32⟩
  | .hbm, ⟨61, _⟩ => ⟨S_, .i32⟩
  | .hbm, ⟨62, _⟩ => ⟨S64x1, .i32⟩
  | .hbm, ⟨63, _⟩ => ⟨S64x1, .i1⟩
  | .hbm, ⟨64, _⟩ => ⟨S_, .i32⟩
  | .hbm, ⟨65, _⟩ => ⟨S64x1, .i32⟩
  | .hbm, ⟨66, _⟩ => ⟨S64x1, .i32⟩
  | .hbm, ⟨67, _⟩ => ⟨S64x1, .i32⟩
  | .hbm, ⟨68, _⟩ => ⟨S_, .i32⟩
  | .hbm, ⟨69, _⟩ => ⟨S64x65536, .i32⟩
  | .hbm, ⟨70, _⟩ => ⟨S64x65536, .i1⟩
  | .hbm, ⟨71, _⟩ => ⟨S_, .i32⟩
  | .hbm, ⟨72, _⟩ => ⟨S64x65536, .i32⟩
  | .hbm, ⟨73, _⟩ => ⟨S64x65536, .i32⟩
  | .hbm, ⟨74, _⟩ => ⟨S64x65536, .i32⟩
  | .hbm, ⟨75, _⟩ => ⟨S64x65536, .i32⟩
  | .hbm, ⟨76, _⟩ => ⟨S64x65536x1, .i32⟩
  | .hbm, ⟨77, _⟩ => ⟨S64x65536x1, .i32⟩
  | .hbm, ⟨78, _⟩ => ⟨S64x65536x2, .i32⟩
  | .hbm, ⟨79, _⟩ => ⟨S64x65537, .i32⟩
  | .hbm, ⟨80, _⟩ => ⟨S64x65536, .i32⟩
  | .hbm, ⟨81, _⟩ => ⟨S64x6x65536, .f32⟩
  | .hbm, ⟨82, _⟩ => ⟨S64x1x65536, .i32⟩
  | .hbm, ⟨83, _⟩ => ⟨S64x6x65536, .i32⟩
  | .hbm, ⟨84, _⟩ => ⟨S_, .i32⟩
  | .hbm, ⟨85, _⟩ => ⟨S64x6x65536, .i32⟩
  | .hbm, ⟨86, _⟩ => ⟨S64x6x65536, .i1⟩
  | .hbm, ⟨87, _⟩ => ⟨S_, .i32⟩
  | .hbm, ⟨88, _⟩ => ⟨S64x6x65536, .i32⟩
  | .hbm, ⟨89, _⟩ => ⟨S64x6x65536, .i32⟩
  | .hbm, ⟨90, _⟩ => ⟨S64x6x65536, .i32⟩
  | .hbm, ⟨91, _⟩ => ⟨S64x6x65536x1, .i32⟩
  | .hbm, ⟨92, _⟩ => ⟨S1, .i32⟩
  | .hbm, ⟨93, _⟩ => ⟨S_, .i32⟩
  | .hbm, ⟨94, _⟩ => ⟨S64x6x65536x1, .i32⟩
  | .hbm, ⟨95, _⟩ => ⟨S64x6x65536x1, .i1⟩
  | .hbm, ⟨96, _⟩ => ⟨S1x1x1x1, .i32⟩
  | .hbm, ⟨97, _⟩ => ⟨S64x6x65536x1, .i32⟩
  | .hbm, ⟨98, _⟩ => ⟨S64x6x65536x1, .i1⟩
  | .hbm, ⟨99, _⟩ => ⟨S64x6x65536x1, .i1⟩
  | .hbm, ⟨100, _⟩ => ⟨S_, .i1⟩
  | .hbm, ⟨101, _⟩ => ⟨S64x6x65536, .i1⟩
  | .hbm, ⟨102, _⟩ => ⟨S64x6x65536, .f32⟩
  | .hbm, ⟨103, _⟩ => ⟨S_, .f32⟩
  | .hbm, ⟨104, _⟩ => ⟨S64x6x65536, .f32⟩
  | .hbm, ⟨105, _⟩ => ⟨S64x6x65536, .f32⟩
  | .hbm, ⟨106, _⟩ => ⟨S64x6x65536, .f32⟩
  | .hbm, ⟨107, _⟩ => ⟨S64x65536x6, .f32⟩
  | .hbm, ⟨108, _⟩ => ⟨S_, .i32⟩
  | .hbm, ⟨109, _⟩ => ⟨S64, .i32⟩
  | .local _ .vmem, ⟨0, _⟩ => ⟨S1x6x65536, .f32⟩
  | .local _ .vmem, ⟨1, _⟩ => ⟨S1x6x65536, .f32⟩
  | .local _ .vmem, ⟨2, _⟩ => ⟨S1x6x65536, .f32⟩
  | .local _ .vmem, ⟨3, _⟩ => ⟨S1x6x65536, .f32⟩
  | .local _ .smem, ⟨0, _⟩ => ⟨S64, .i32⟩
  | _, _ => ⟨S64x65536x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_v13 : Ref sig .tc := ⟨.hbm, 45, rfl⟩
abbrev main_v14 : Ref sig .tc := ⟨.hbm, 46, rfl⟩
abbrev main_c_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_c_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_cst : Ref sig .tc := ⟨.hbm, 103, rfl⟩
abbrev main_call3_v14 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_c_9 : Ref sig .tc := ⟨.hbm, 108, rfl⟩
abbrev main_v50 : Ref sig .tc := ⟨.hbm, 109, rfl⟩
abbrev main_v15 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S64x65536 : S_.BroadcastsInDim S64x65536 (![] : Fin 0 → Fin S64x65536.rank)
  shapeCasts_S64x65536_S64x65536x1 : S64x65536.ShapeCasts S64x65536x1
  bcast_S_S64x65536x1 : S_.BroadcastsInDim S64x65536x1 (![] : Fin 0 → Fin S64x65536x1.rank)
  bcast_S1_S1x1x1_2 : S1.BroadcastsInDim S1x1x1 (![2] : Fin 1 → Fin S1x1x1.rank)
  bcast_S1x1x1_S64x65536x1_0_1_2 : S1x1x1.BroadcastsInDim S64x65536x1 (![0, 1, 2] : Fin 3 → Fin S64x65536x1.rank)
  reducesTo_S64x65536x1_S64x65536_d2 : S64x65536x1.ReducesTo [2] S64x65536
  h_S_ : 0 < S_.numel
  slices_S64x65536_S64x65535_0_1 : S64x65536.Slices ![0, 1] S64x65535
  slices_S64x65536_S64x65535_0_0 : S64x65536.Slices ![0, 0] S64x65535
  bcast_S_S64x1 : S_.BroadcastsInDim S64x1 (![] : Fin 0 → Fin S64x1.rank)
  concatenates_S64x65535_S64x1_S64x65536_d1 : Shape.Concatenates [S64x65535, S64x1] S64x65536 1
  natLt_1_32 : 1 < 32
  bcast_S_S_ : S_.BroadcastsInDim S_ (![] : Fin 0 → Fin S_.rank)
  reduceWindows_S64x65536_S64x65536_w1s1p0_0_w65536s1p65535_0 : S64x65536.ReduceWindows (![1, 65536] : Fin 2 → Nat) ![1, 1] ![0, 65535] ![0, 0] S64x65536
  reducesTo_S64x65536_S64_d1 : S64x65536.ReducesTo [1] S64
  bcast_S65536_S1x65536_1 : S65536.BroadcastsInDim S1x65536 (![1] : Fin 1 → Fin S1x65536.rank)
  bcast_S64_S64x1_0 : S64.BroadcastsInDim S64x1 (![0] : Fin 1 → Fin S64x1.rank)
  bcast_S1x65536_S64x65536_0_1 : S1x65536.BroadcastsInDim S64x65536 (![0, 1] : Fin 2 → Fin S64x65536.rank)
  bcast_S64x1_S64x65536_0_1 : S64x1.BroadcastsInDim S64x65536 (![0, 1] : Fin 2 → Fin S64x65536.rank)
  bcast_S_S64x65537 : S_.BroadcastsInDim S64x65537 (![] : Fin 0 → Fin S64x65537.rank)
  bcast_S64x65536_S64x65536x1_0_1 : S64x65536.BroadcastsInDim S64x65536x1 (![0, 1] : Fin 2 → Fin S64x65536x1.rank)
  concatenates_S64x65536x1_S64x65536x1_S64x65536x2_d2 : Shape.Concatenates [S64x65536x1, S64x65536x1] S64x65536x2 2
  slices_S64x65537_S64x65536_0_0 : S64x65537.Slices ![0, 0] S64x65536
  transposes_S64x65536x6_S64x6x65536_0_2_1 : S64x65536x6.Transposes [0, 2, 1] S64x6x65536
  bcast_S64x65536_S64x1x65536_0_2 : S64x65536.BroadcastsInDim S64x1x65536 (![0, 2] : Fin 2 → Fin S64x1x65536.rank)
  bcast_S64x1x65536_S64x6x65536_0_1_2 : S64x1x65536.BroadcastsInDim S64x6x65536 (![0, 1, 2] : Fin 3 → Fin S64x6x65536.rank)
  bcast_S_S64x6x65536 : S_.BroadcastsInDim S64x6x65536 (![] : Fin 0 → Fin S64x6x65536.rank)
  shapeCasts_S64x6x65536_S64x6x65536x1 : S64x6x65536.ShapeCasts S64x6x65536x1
  bcast_S_S64x6x65536x1 : S_.BroadcastsInDim S64x6x65536x1 (![] : Fin 0 → Fin S64x6x65536x1.rank)
  bcast_S1_S1x1x1x1_3 : S1.BroadcastsInDim S1x1x1x1 (![3] : Fin 1 → Fin S1x1x1x1.rank)
  bcast_S1x1x1x1_S64x6x65536x1_0_1_2_3 : S1x1x1x1.BroadcastsInDim S64x6x65536x1 (![0, 1, 2, 3] : Fin 4 → Fin S64x6x65536x1.rank)
  reducesTo_S64x6x65536x1_S64x6x65536_d3 : S64x6x65536x1.ReducesTo [3] S64x6x65536
  iota_S1x6x65536_d2_w32 : S1x6x65536.Iotas .tc 32 [2]
  numel1_S1 : S1.numel = 1
  inb_S1x6x65536_S1x6x65536_0_0_0 : ∀ a, (![0, 0, 0] : Fin 3 → Nat) a + S1x6x65536.size a ≤ S1x6x65536.size a
  h_S1x6x65536 : 0 < S1x6x65536.numel
  shapeCasts_S1x6x65536_S1x6x65536 : S1x6x65536.ShapeCasts S1x6x65536
  transposes_S64x6x65536_S64x65536x6_0_2_1 : S64x6x65536.Transposes [0, 2, 1] S64x65536x6
  bcast_S_S64 : S_.BroadcastsInDim S64 (![] : Fin 0 → Fin S64.rank)
  gather_S64x65536_S64x65536x1_S64x65536_n_1_0_0_1_2_11_wf : GatherDims.WF S64x65536 S64x65536x1 S64x65536 [] [1] [0] [1] [0] 2 ![1, 1]
  scatter_S64x65537_S64x65536x2_S64x65536_n_01_01_2_wf : ScatterDims.WF S64x65537 S64x65536x2 S64x65536 [] [0, 1] [0, 1] 2
  gather_S64x6x65536_S64x6x65536x1_S64x6x65536_n_2_01_01_2_3_111_wf : GatherDims.WF S64x6x65536 S64x6x65536x1 S64x6x65536 [] [2] [0, 1] [2] [0, 1] 3 ![1, 1, 1]
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x65536.size a ≤ S64x6x65536.size a
  hwx0_0 : ∀ i : grid0.Coords, EltTy.bits .f32 = 32 ∨ (Rect.block (s := S64x6x65536) S1x6x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x65536.size a ≤ S64x6x65536.size a
  hwx0_1 : ∀ i : grid0.Coords, EltTy.bits .f32 = 32 ∨ (Rect.block (s := S64x6x65536) S1x6x65536.size (cc0_transform_1 i) (hinb0_1 i)).WholeWords (EltTy.packing .f32)

variable [Facts₀]

def gather_S64x65536_S64x65536x1_S64x65536_n_1_0_0_1_2_11 : GatherDims S64x65536 S64x65536x1 S64x65536 where
  offsetDims := []
  collapsedSliceDims := [1]
  operandBatchingDims := [0]
  startIndicesBatchingDims := [0]
  startIndexMap := [1]
  indexVectorDim := 2
  sliceSizes := ![1, 1]
  wf := gather_S64x65536_S64x65536x1_S64x65536_n_1_0_0_1_2_11_wf
def scatter_S64x65537_S64x65536x2_S64x65536_n_01_01_2 : ScatterDims S64x65537 S64x65536x2 S64x65536 where
  updateWindowDims := []
  insertedWindowDims := [0, 1]
  scatterDimsToOperandDims := [0, 1]
  indexVectorDim := 2
  wf := scatter_S64x65537_S64x65536x2_S64x65536_n_01_01_2_wf
def gather_S64x6x65536_S64x6x65536x1_S64x6x65536_n_2_01_01_2_3_111 : GatherDims S64x6x65536 S64x6x65536x1 S64x6x65536 where
  offsetDims := []
  collapsedSliceDims := [2]
  operandBatchingDims := [0, 1]
  startIndicesBatchingDims := [0, 1]
  startIndexMap := [2]
  indexVectorDim := 3
  sliceSizes := ![1, 1, 1]
  wf := gather_S64x6x65536_S64x6x65536x1_S64x6x65536_n_2_01_01_2_3_111_wf

abbrev spec0_0 : Pipeline.WinSpec sig grid0.rank :=
  Pipeline.WinSpec.ofSpec (Memref.whole main_v47) S1x6x65536.size reads0_0 false false 2 stage0_0 sem0_0 nbuf0_0 hstage0_0

abbrev spec0_1 : Pipeline.WinSpec sig grid0.rank :=
  Pipeline.WinSpec.ofSpec (Memref.whole main_v48) S1x6x65536.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x65536x6 : Shape := ⟨3, ![64, 65536, 6]⟩
abbrev S64x65536 : Shape := ⟨2, ![64, 65536]⟩
abbrev S_ : Shape := ⟨0, ![]⟩
abbrev S64x65536x1 : Shape := ⟨3, ![64, 65536, 1]⟩
abbrev S1 : Shape := ⟨1, ![1]⟩
abbrev S1x1x1 : Shape := ⟨3, ![1, 1, 1]⟩
abbrev S64x65535 : Shape := ⟨2, ![64, 65535]⟩
abbrev S64x1 : Shape := ⟨2, ![64, 1]⟩
abbrev S64x65537x6 : Shape := ⟨3, ![64, 65537, 6]⟩
abbrev S64 : Shape := ⟨1, ![64]⟩
abbrev S64x65536x2 : Shape := ⟨3, ![64, 65536, 2]⟩
abbrev S65536 : Shape := ⟨1, ![65536]⟩
abbrev S1x65536 : Shape := ⟨2, ![1, 65536]⟩

abbrev nBuf : Space → Nat
  | .hbm => 81
  | .vmem => 0
  | .smem => 0
  | _ => 0

abbrev bufTy : (tb : Table) → Fin (tcTables nBuf tb) → BufTy
  | .hbm, ⟨0, _⟩ => ⟨S64x65536x6, .f32⟩
  | .hbm, ⟨1, _⟩ => ⟨S64x65536, .i32⟩
  | .hbm, ⟨2, _⟩ => ⟨S64x65536, .i32⟩
  | .hbm, ⟨3, _⟩ => ⟨S_, .i32⟩
  | .hbm, ⟨4, _⟩ => ⟨S64x65536, .i32⟩
  | .hbm, ⟨5, _⟩ => ⟨S64x65536, .i1⟩
  | .hbm, ⟨6, _⟩ => ⟨S_, .i32⟩
  | .hbm, ⟨7, _⟩ => ⟨S64x65536, .i32⟩
  | .hbm, ⟨8, _⟩ => ⟨S64x65536, .i32⟩
  | .hbm, ⟨9, _⟩ => ⟨S64x65536, .i32⟩
  | .hbm, ⟨10, _⟩ => ⟨S64x65536x1, .i32⟩
  | .hbm, ⟨11, _⟩ => ⟨S1, .i32⟩
  | .hbm, ⟨12, _⟩ => ⟨S_, .i32⟩
  | .hbm, ⟨13, _⟩ => ⟨S64x65536x1, .i32⟩
  | .hbm, ⟨14, _⟩ => ⟨S64x65536x1, .i1⟩
  | .hbm, ⟨15, _⟩ => ⟨S1x1x1, .i32⟩
  | .hbm, ⟨16, _⟩ => ⟨S64x65536x1, .i32⟩
  | .hbm, ⟨17, _⟩ => ⟨S64x65536x1, .i1⟩
  | .hbm, ⟨18, _⟩ => ⟨S64x65536x1, .i1⟩
  | .hbm, ⟨19, _⟩ => ⟨S_, .i1⟩
  | .hbm, ⟨20, _⟩ => ⟨S64x65536, .i1⟩
  | .hbm, ⟨21, _⟩ => ⟨S64x65536, .i32⟩
  | .hbm, ⟨22, _⟩ => ⟨S_, .i32⟩
  | .hbm, ⟨23, _⟩ => ⟨S64x65536, .i32⟩
  | .hbm, ⟨24, _⟩ => ⟨S64x65536, .i32⟩
  | .hbm, ⟨25, _⟩ => ⟨S64x65535, .i32⟩
  | .hbm, ⟨26, _⟩ => ⟨S64x65535, .i32⟩
  | .hbm, ⟨27, _⟩ => ⟨S64x65535, .i1⟩
  | .hbm, ⟨28, _⟩ => ⟨S_, .i1⟩
  | .hbm, ⟨29, _⟩ => ⟨S64x1, .i1⟩
  | .hbm, ⟨30, _⟩ => ⟨S64x65536, .i1⟩
  | .hbm, ⟨31, _⟩ => ⟨S_, .i32⟩
  | .hbm, ⟨32, _⟩ => ⟨S64x65536, .i32⟩
  | .hbm, ⟨33, _⟩ => ⟨S64x65536, .i1⟩
  | .hbm, ⟨34, _⟩ => ⟨S64x65536, .i1⟩
  | .hbm, ⟨35, _⟩ => ⟨S64x65536, .i32⟩
  | .hbm, ⟨36, _⟩ => ⟨S_, .i32⟩
  | .hbm, ⟨37, _⟩ => ⟨S_, .i32⟩
  | .hbm, ⟨38, _⟩ => ⟨S64x65536, .i32⟩
  | .hbm, ⟨39, _⟩ => ⟨S_, .i32⟩
  | .hbm, ⟨40, _⟩ => ⟨S64x65536, .i32⟩
  | .hbm, ⟨41, _⟩ => ⟨S64x65536, .i32⟩
  | .hbm, ⟨42, _⟩ => ⟨S_, .i32⟩
  | .hbm, ⟨43, _⟩ => ⟨S_, .i32⟩
  | .hbm, ⟨44, _⟩ => ⟨S64x65536, .i32⟩
  | .hbm, ⟨45, _⟩ => ⟨S64x65536, .i32⟩
  | .hbm, ⟨46, _⟩ => ⟨S_, .f32⟩
  | .hbm, ⟨47, _⟩ => ⟨S64x65537x6, .f32⟩
  | .hbm, ⟨48, _⟩ => ⟨S64, .i32⟩
  | .hbm, ⟨49, _⟩ => ⟨S64x1, .i32⟩
  | .hbm, ⟨50, _⟩ => ⟨S_, .i32⟩
  | .hbm, ⟨51, _⟩ => ⟨S64x1, .i32⟩
  | .hbm, ⟨52, _⟩ => ⟨S64x1, .i1⟩
  | .hbm, ⟨53, _⟩ => ⟨S_, .i32⟩
  | .hbm, ⟨54, _⟩ => ⟨S64x1, .i32⟩
  | .hbm, ⟨55, _⟩ => ⟨S64x1, .i32⟩
  | .hbm, ⟨56, _⟩ => ⟨S64x1, .i32⟩
  | .hbm, ⟨57, _⟩ => ⟨S_, .i32⟩
  | .hbm, ⟨58, _⟩ => ⟨S64x65536, .i32⟩
  | .hbm, ⟨59, _⟩ => ⟨S64x65536, .i1⟩
  | .hbm, ⟨60, _⟩ => ⟨S_, .i32⟩
  | .hbm, ⟨61, _⟩ => ⟨S64x65536, .i32⟩
  | .hbm, ⟨62, _⟩ => ⟨S64x65536, .i32⟩
  | .hbm, ⟨63, _⟩ => ⟨S64x65536, .i32⟩
  | .hbm, ⟨64, _⟩ => ⟨S64x65536, .i32⟩
  | .hbm, ⟨65, _⟩ => ⟨S64x65536x1, .i32⟩
  | .hbm, ⟨66, _⟩ => ⟨S64x65536x1, .i32⟩
  | .hbm, ⟨67, _⟩ => ⟨S64x65536x2, .i32⟩
  | .hbm, ⟨68, _⟩ => ⟨S64x65537x6, .f32⟩
  | .hbm, ⟨69, _⟩ => ⟨S64x65536x6, .f32⟩
  | .hbm, ⟨70, _⟩ => ⟨S64x65536, .i32⟩
  | .hbm, ⟨71, _⟩ => ⟨S_, .i32⟩
  | .hbm, ⟨72, _⟩ => ⟨S64, .i32⟩
  | .hbm, ⟨73, _⟩ => ⟨S65536, .i32⟩
  | .hbm, ⟨74, _⟩ => ⟨S1x65536, .i32⟩
  | .hbm, ⟨75, _⟩ => ⟨S64x1, .i32⟩
  | .hbm, ⟨76, _⟩ => ⟨S64x65536, .i32⟩
  | .hbm, ⟨77, _⟩ => ⟨S64x65536, .i32⟩
  | .hbm, ⟨78, _⟩ => ⟨S64x65536, .i1⟩
  | .hbm, ⟨79, _⟩ => ⟨S_, .i32⟩
  | .hbm, ⟨80, _⟩ => ⟨S64, .i32⟩
  | _, _ => ⟨S64x65536x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_c_4 : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_c_1 : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_call2_v0 : Ref sig .tc := ⟨.hbm, 43, rfl⟩
abbrev main_call2_v1 : Ref sig .tc := ⟨.hbm, 44, rfl⟩
abbrev main_v13 : Ref sig .tc := ⟨.hbm, 45, rfl⟩
abbrev main_cst : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_3 : Ref sig .tc := ⟨.hbm, 50, rfl⟩
abbrev main_v17 : Ref sig .tc := ⟨.hbm, 51, rfl⟩
abbrev main_v18 : Ref sig .tc := ⟨.hbm, 52, rfl⟩
abbrev main_c_4 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_c_5 : Ref sig .tc := ⟨.hbm, 57, rfl⟩
abbrev main_v22 : Ref sig .tc := ⟨.hbm, 58, rfl⟩
abbrev main_v23 : Ref sig .tc := ⟨.hbm, 59, rfl⟩
abbrev main_c_6 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_7 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_c_8 : Ref sig .tc := ⟨.hbm, 79, rfl⟩
abbrev main_v41 : Ref sig .tc := ⟨.hbm, 80, rfl⟩

abbrev nD : Nat := 1
abbrev τ : Topo := Topo.v7x

variable {F : FTy → Type} [FloatOps F]

class Facts₀ : Prop where
  bcast_S_S64x65536 : S_.BroadcastsInDim S64x65536 (![] : Fin 0 → Fin S64x65536.rank)
  shapeCasts_S64x65536_S64x65536x1 : S64x65536.ShapeCasts S64x65536x1
  bcast_S_S64x65536x1 : S_.BroadcastsInDim S64x65536x1 (![] : Fin 0 → Fin S64x65536x1.rank)
  bcast_S1_S1x1x1_2 : S1.BroadcastsInDim S1x1x1 (![2] : Fin 1 → Fin S1x1x1.rank)
  bcast_S1x1x1_S64x65536x1_0_1_2 : S1x1x1.BroadcastsInDim S64x65536x1 (![0, 1, 2] : Fin 3 → Fin S64x65536x1.rank)
  reducesTo_S64x65536x1_S64x65536_d2 : S64x65536x1.ReducesTo [2] S64x65536
  h_S_ : 0 < S_.numel
  slices_S64x65536_S64x65535_0_1 : S64x65536.Slices ![0, 1] S64x65535
  slices_S64x65536_S64x65535_0_0 : S64x65536.Slices ![0, 0] S64x65535
  bcast_S_S64x1 : S_.BroadcastsInDim S64x1 (![] : Fin 0 → Fin S64x1.rank)
  concatenates_S64x65535_S64x1_S64x65536_d1 : Shape.Concatenates [S64x65535, S64x1] S64x65536 1
  natLt_1_32 : 1 < 32
  bcast_S_S_ : S_.BroadcastsInDim S_ (![] : Fin 0 → Fin S_.rank)
  reduceWindows_S64x65536_S64x65536_w1s1p0_0_w65536s1p65535_0 : S64x65536.ReduceWindows (![1, 65536] : Fin 2 → Nat) ![1, 1] ![0, 65535] ![0, 0] S64x65536
  bcast_S_S64x65537x6 : S_.BroadcastsInDim S64x65537x6 (![] : Fin 0 → Fin S64x65537x6.rank)
  bcast_S64_S64x1_0 : S64.BroadcastsInDim S64x1 (![0] : Fin 1 → Fin S64x1.rank)
  bcast_S64x1_S64x65536_0_1 : S64x1.BroadcastsInDim S64x65536 (![0, 1] : Fin 2 → Fin S64x65536.rank)
  bcast_S64x65536_S64x65536x1_0_1 : S64x65536.BroadcastsInDim S64x65536x1 (![0, 1] : Fin 2 → Fin S64x65536x1.rank)
  concatenates_S64x65536x1_S64x65536x1_S64x65536x2_d2 : Shape.Concatenates [S64x65536x1, S64x65536x1] S64x65536x2 2
  slices_S64x65537x6_S64x65536x6_0_0_0 : S64x65537x6.Slices ![0, 0, 0] S64x65536x6
  reducesTo_S64x65536_S64_d1 : S64x65536.ReducesTo [1] S64
  bcast_S65536_S1x65536_1 : S65536.BroadcastsInDim S1x65536 (![1] : Fin 1 → Fin S1x65536.rank)
  bcast_S1x65536_S64x65536_0_1 : S1x65536.BroadcastsInDim S64x65536 (![0, 1] : Fin 2 → Fin S64x65536.rank)
  bcast_S_S64 : S_.BroadcastsInDim S64 (![] : Fin 0 → Fin S64.rank)
  gather_S64x65536_S64x65536x1_S64x65536_n_1_0_0_1_2_11_wf : GatherDims.WF S64x65536 S64x65536x1 S64x65536 [] [1] [0] [1] [0] 2 ![1, 1]
  scatter_S64x65537x6_S64x65536x2_S64x65536x6_2_01_01_2_wf : ScatterDims.WF S64x65537x6 S64x65536x2 S64x65536x6 [2] [0, 1] [0, 1] 2

variable [Facts₀]

def gather_S64x65536_S64x65536x1_S64x65536_n_1_0_0_1_2_11 : GatherDims S64x65536 S64x65536x1 S64x65536 where
  offsetDims := []
  collapsedSliceDims := [1]
  operandBatchingDims := [0]
  startIndicesBatchingDims := [0]
  startIndexMap := [1]
  indexVectorDim := 2
  sliceSizes := ![1, 1]
  wf := gather_S64x65536_S64x65536x1_S64x65536_n_1_0_0_1_2_11_wf
def scatter_S64x65537x6_S64x65536x2_S64x65536x6_2_01_01_2 : ScatterDims S64x65537x6 S64x65536x2 S64x65536x6 where
  updateWindowDims := [2]
  insertedWindowDims := [0, 1]
  scatterDimsToOperandDims := [0, 1]
  indexVectorDim := 2
  wf := scatter_S64x65537x6_S64x65536x2_S64x65536x6_2_01_01_2_wf

class Facts : Prop extends Facts₀ where

variable [Facts]
-- ==== Proof.Spec.lean ====
/-
  The functions both programs compute, stated once over plain arrays (no program imported).

  A row `b` of tokens carries a keep flag per position `s`; the kept positions are compacted to the front of
  the row in order.  `pos` numbers the kept positions (the running count of kept positions minus one, a dropped
  position sent to the dummy slot 65536); `pair` is the scatter index (row, slot) built from it.  One program
  scatters the source rows themselves into a zero array with one dummy slot per row and drops the dummy slot;
  the other scatters the position numbers `s` instead, gathers the source rows through the resulting table and
  zeroes every slot at or beyond the row's count of kept positions.
-/
import Idealize.ShloMosaic.PureOps
import Idealize.ShloMosaic.Lib.ValueIdx

noncomputable section

namespace Cert.Skyline

open Idealize.ShloMosaic

abbrev S64x65536x6 : Shape := ⟨3, ![64, 65536, 6]⟩
abbrev S64x65536 : Shape := ⟨2, ![64, 65536]⟩
abbrev S_ : Shape := ⟨0, ![]⟩
abbrev S64x65536x1 : Shape := ⟨3, ![64, 65536, 1]⟩
abbrev S1 : Shape := ⟨1, ![1]⟩
abbrev S1x1x1 : Shape := ⟨3, ![1, 1, 1]⟩
abbrev S64x65535 : Shape := ⟨2, ![64, 65535]⟩
abbrev S64x1 : Shape := ⟨2, ![64, 1]⟩
abbrev S64x65537x6 : Shape := ⟨3, ![64, 65537, 6]⟩
abbrev S64 : Shape := ⟨1, ![64]⟩
abbrev S64x65536x2 : Shape := ⟨3, ![64, 65536, 2]⟩
abbrev S65536 : Shape := ⟨1, ![65536]⟩
abbrev S1x65536 : Shape := ⟨2, ![1, 65536]⟩
abbrev S64x65537 : Shape := ⟨2, ![64, 65537]⟩
abbrev S64x6x65536 : Shape := ⟨3, ![64, 6, 65536]⟩
abbrev S64x1x65536 : Shape := ⟨3, ![64, 1, 65536]⟩
abbrev S64x6x65536x1 : Shape := ⟨4, ![64, 6, 65536, 1]⟩
abbrev S1x1x1x1 : Shape := ⟨4, ![1, 1, 1, 1]⟩

variable {F : FTy → Type} [FloatOps F]

/-! ## The shape relations the operations take -/

theorem h_S_ : 0 < S_.numel := by decide
theorem reducesTo_unit2 : S64x65536x1.ReducesTo [2] S64x65536 := by decide
theorem reducesTo_row : S64x65536.ReducesTo [1] S64 := by decide
theorem reducesTo_unit3 : S64x6x65536x1.ReducesTo [3] S64x6x65536 := by decide
theorem concatenates_last : Shape.Concatenates [S64x65535, S64x1] S64x65536 1 := by decide
theorem concatenates_pair : Shape.Concatenates [S64x65536x1, S64x65536x1] S64x65536x2 2 := by decide
theorem gatherRow_wf : GatherDims.WF S64x65536 S64x65536x1 S64x65536 [] [1] [0] [1] [0] 2 ![1, 1] := by decide
theorem scatterRows_wf : ScatterDims.WF S64x65537x6 S64x65536x2 S64x65536x6 [2] [0, 1] [0, 1] 2 := by decide
theorem scatterSlots_wf : ScatterDims.WF S64x65537 S64x65536x2 S64x65536 [] [0, 1] [0, 1] 2 := by decide
theorem gatherLane_wf : GatherDims.WF S64x6x65536 S64x6x65536x1 S64x6x65536 [] [2] [0, 1] [2] [0, 1] 3 ![1, 1, 1] := by decide

/-- `take_along_axis` along axis 1 of a [64, 65536] table. -/
def gatherRow : GatherDims S64x65536 S64x65536x1 S64x65536 where
  offsetDims := []
  collapsedSliceDims := [1]
  operandBatchingDims := [0]
  startIndicesBatchingDims := [0]
  startIndexMap := [1]
  indexVectorDim := 2
  sliceSizes := ![1, 1]
  wf := gatherRow_wf
/-- A scatter of rows of six features at (row, slot) pairs. -/
def scatterRows : ScatterDims S64x65537x6 S64x65536x2 S64x65536x6 where
  updateWindowDims := [2]
  insertedWindowDims := [0, 1]
  scatterDimsToOperandDims := [0, 1]
  indexVectorDim := 2
  wf := scatterRows_wf
/-- A scatter of single words at (row, slot) pairs. -/
def scatterSlots : ScatterDims S64x65537 S64x65536x2 S64x65536 where
  updateWindowDims := []
  insertedWindowDims := [0, 1]
  scatterDimsToOperandDims := [0, 1]
  indexVectorDim := 2
  wf := scatterSlots_wf
/-- `take_along_axis` along axis 2 of a [64, 6, 65536] array. -/
def gatherLane : GatherDims S64x6x65536 S64x6x65536x1 S64x6x65536 where
  offsetDims := []
  collapsedSliceDims := [2]
  operandBatchingDims := [0, 1]
  startIndicesBatchingDims := [0, 1]
  startIndexMap := [2]
  indexVectorDim := 3
  sliceSizes := ![1, 1, 1]
  wf := gatherLane_wf

/-! ## Which positions are kept -/

/-- The group flag of each token: `flag` read along a row at the token's group id, a negative id wrapped once,
    an id still outside the row giving the smallest integer. -/
def flagTok (flag gid : IVec S64x65536 32) : IVec S64x65536 32 :=
  let c : IVec S_ 32 := constantI S_ 32 0#32
  let v0 : IVec S64x65536 32 := broadcastInDim S64x65536 ![] (by decide) c
  let v1 : IVec S64x65536 1 := cmpi .slt gid v0
  let c_0 : IVec S_ 32 := constantI S_ 32 65536#32
  let v2 : IVec S64x65536 32 := broadcastInDim S64x65536 ![] (by decide) c_0
  let v3 : IVec S64x65536 32 := addi gid v2
  let v4 : IVec S64x65536 32 := select v1 v3 gid
  let v5 : IVec S64x65536x1 32 := fun i => shapeCast S64x65536x1 v4 (by decide) i
  let c_1 : IVec S1 32 := constantI S1 32 65535#32
  let c_2 : IVec S_ 32 := constantI S_ 32 0#32
  let v6 : IVec S64x65536x1 32 := broadcastInDim S64x65536x1 ![] (by decide) c_2
  let v7 : IVec S64x65536x1 1 := cmpi .sge v5 v6
  let v8 : IVec S1x1x1 32 := broadcastInDim S1x1x1 ![2] (by decide) c_1
  let v9 : IVec S64x65536x1 32 := broadcastInDim S64x65536x1 ![0, 1, 2] (by decide) v8
  let v10 : IVec S64x65536x1 1 := cmpi .sle v5 v9
  let v11 : IVec S64x65536x1 1 := andi v7 v10
  let c_3 : IVec S_ 1 := constantI S_ 1 1#1
  let v12 : IVec S64x65536 1 := Host.reduce IntOp.andi v11 c_3 reducesTo_unit2 h_S_
  let v13 : IVec S64x65536 32 := Host.gather gatherRow flag v5
  let c_4 : IVec S_ 32 := constantI S_ 32 2147483648#32
  let v14 : IVec S64x65536 32 := broadcastInDim S64x65536 ![] (by decide) c_4
  select v12 v13 v14

/-- A token is kept when its group's flag is one or it is the last token of its group (its group id differs
    from the next token's; the last token of a row always). -/
def keepOf (gid flag : IVec S64x65536 32) : IVec S64x65536 1 :=
  let v0 : IVec S64x65536 32 := flagTok flag gid
  let v1 : IVec S64x65535 32 := extractStridedSlice S64x65535 ![0, 1] gid (by decide)
  let v2 : IVec S64x65535 32 := extractStridedSlice S64x65535 ![0, 0] gid (by decide)
  let v3 : IVec S64x65535 1 := cmpi .ne v1 v2
  let c : IVec S_ 1 := constantI S_ 1 1#1
  let v4 : IVec S64x1 1 := broadcastInDim S64x1 ![] (by decide) c
  let v5 : IVec S64x65536 1 := concatenate S64x65536 1 [⟨S64x65535, v3⟩, ⟨S64x1, v4⟩] concatenates_last
  let c_0 : IVec S_ 32 := constantI S_ 32 1#32
  let v6 : IVec S64x65536 32 := broadcastInDim S64x65536 ![] (by decide) c_0
  let v7 : IVec S64x65536 1 := cmpi .eq v0 v6
  ori v7 v5

/-! ## Slots -/

/-- The running count of kept positions along each row (a window of the whole row, padded in front). -/
def runCount (keep : IVec S64x65536 1) : IVec S64x65536 32 :=
  let v9 : IVec S64x65536 32 := extui 32 keep (by decide)
  let c : IVec S_ 32 := constantI S_ 32 0#32
  let v0 : IVec S_ 32 := broadcastInDim S_ ![] (by decide) c
  Host.reduceWindow IntOp.addi ![1, 65536] ![1, 1] ![0, 65535] ![0, 0] v9 v0 (by decide) h_S_

/-- The slot of each position: the running count minus one where the position is kept, the dummy slot 65536
    where it is dropped. -/
def posOf (keep : IVec S64x65536 1) : IVec S64x65536 32 :=
  let v10 : IVec S64x65536 32 := runCount keep
  let c_1 : IVec S_ 32 := constantI S_ 32 1#32
  let v11 : IVec S64x65536 32 := broadcastInDim S64x65536 ![] (by decide) c_1
  let v12 : IVec S64x65536 32 := subi v10 v11
  let c_2 : IVec S_ 32 := constantI S_ 32 65536#32
  let w0 : IVec S_ 32 := id c_2
  let w1 : IVec S64x65536 32 := broadcastInDim S64x65536 ![] (by decide) w0
  select keep v12 w1

/-- The scatter index of each position: (its row, its slot), each wrapped once if negative. -/
def pairOf (pos : IVec S64x65536 32) : IVec S64x65536x2 32 :=
  let v15 : IVec S64 32 := iotaInDim S64 32 0
  let v16 : IVec S64x1 32 := broadcastInDim S64x1 ![0] (by decide) v15
  let c_3 : IVec S_ 32 := constantI S_ 32 0#32
  let v17 : IVec S64x1 32 := broadcastInDim S64x1 ![] (by decide) c_3
  let v18 : IVec S64x1 1 := cmpi .slt v16 v17
  let c_4 : IVec S_ 32 := constantI S_ 32 64#32
  let v19 : IVec S64x1 32 := broadcastInDim S64x1 ![] (by decide) c_4
  let v20 : IVec S64x1 32 := addi v16 v19
  let v21 : IVec S64x1 32 := select v18 v20 v16
  let c_5 : IVec S_ 32 := constantI S_ 32 0#32
  let v22 : IVec S64x65536 32 := broadcastInDim S64x65536 ![] (by decide) c_5
  let v23 : IVec S64x65536 1 := cmpi .slt pos v22
  let c_6 : IVec S_ 32 := constantI S_ 32 65537#32
  let v24 : IVec S64x65536 32 := broadcastInDim S64x65536 ![] (by decide) c_6
  let v25 : IVec S64x65536 32 := addi pos v24
  let v26 : IVec S64x65536 32 := select v23 v25 pos
  let v27 : IVec S64x65536 32 := broadcastInDim S64x65536 ![0, 1] (by decide) v21
  let v28 : IVec S64x65536x1 32 := broadcastInDim S64x65536x1 ![0, 1] (by decide) v27
  let v29 : IVec S64x65536x1 32 := broadcastInDim S64x65536x1 ![0, 1] (by decide) v26
  concatenate S64x65536x2 2 [⟨S64x65536x1, v28⟩, ⟨S64x65536x1, v29⟩] concatenates_pair

/-- How many positions of each row are kept. -/
def lenOf (keep : IVec S64x65536 1) : IVec S64 32 :=
  let v33 : IVec S64x65536 32 := extui 32 keep (by decide)
  let c_7 : IVec S_ 32 := constantI S_ 32 0#32
  Host.reduce IntOp.addi v33 c_7 reducesTo_row h_S_

/-- The mask of the filled slots: slot `d` of row `b` is filled when `d` is below the row's count. -/
def maskOf (len : IVec S64 32) : IVec S64x65536 1 :=
  let v35 : IVec S65536 32 := iotaInDim S65536 32 0
  let v36 : IVec S1x65536 32 := broadcastInDim S1x65536 ![1] (by decide) v35
  let v37 : IVec S64x1 32 := broadcastInDim S64x1 ![0] (by decide) len
  let v38 : IVec S64x65536 32 := broadcastInDim S64x65536 ![0, 1] (by decide) v36
  let v39 : IVec S64x65536 32 := broadcastInDim S64x65536 ![0, 1] (by decide) v37
  cmpi .slt v38 v39

/-- The third result: a zero per row. -/
def zeros64 : IVec S64 32 :=
  let c_8 : IVec S_ 32 := constantI S_ 32 0#32
  broadcastInDim S64 ![] (by decide) c_8

/-! ## The two ways to the compacted rows -/

/-- Scatter the source rows at their (row, slot) pairs into zeros with a dummy slot per row; drop the dummy slot. -/
def scatterOut (src : FVec F S64x65536x6 .f32) (pair : IVec S64x65536x2 32) : FVec F S64x65536x6 .f32 :=
  let cst : FVec F S_ .f32 := constant S_ .f32 0x00000000#32
  let v14 : FVec F S64x65537x6 .f32 := broadcastInDim S64x65537x6 ![] (by decide) cst
  let v31 : FVec F S64x65537x6 .f32 := Host.scatter scatterRows (fun _ b => b) v14 pair src
  extractStridedSlice S64x65536x6 ![0, 0, 0] v31 (by decide)

/-- The table of source positions per slot: scatter each position's own number at its (row, slot) pair into zeros
    with a dummy slot per row; drop the dummy slot. -/
def invOf (pair : IVec S64x65536x2 32) : IVec S64x65536 32 :=
  let v22 : IVec S65536 32 := iotaInDim S65536 32 0
  let v23 : IVec S1x65536 32 := broadcastInDim S1x65536 ![1] (by decide) v22
  let v24 : IVec S64x65536 32 := broadcastInDim S64x65536 ![0, 1] (by decide) v23
  let c_4 : IVec S_ 32 := constantI S_ 32 0#32
  let v25 : IVec S64x65537 32 := broadcastInDim S64x65537 ![] (by decide) c_4
  let v42 : IVec S64x65537 32 := Host.scatter scatterSlots (fun _ b => b) v25 pair v24
  extractStridedSlice S64x65536 ![0, 0] v42 (by decide)

/-- The source transposed to [row, feature, position] and read along the position axis at the table's entries
    (a negative entry wrapped once; an entry still outside giving the NaN pattern). -/
def gatheredOf (src : FVec F S64x65536x6 .f32) (inv : IVec S64x65536 32) : FVec F S64x6x65536 .f32 :=
  let v44 : FVec F S64x6x65536 .f32 := transpose S64x6x65536 [0, 2, 1] src (by decide)
  let v45 : IVec S64x1x65536 32 := broadcastInDim S64x1x65536 ![0, 2] (by decide) inv
  let v46 : IVec S64x6x65536 32 := broadcastInDim S64x6x65536 ![0, 1, 2] (by decide) v45
  let c : IVec S_ 32 := constantI S_ 32 0#32
  let w0 : IVec S64x6x65536 32 := broadcastInDim S64x6x65536 ![] (by decide) c
  let w1 : IVec S64x6x65536 1 := cmpi .slt v46 w0
  let c_0 : IVec S_ 32 := constantI S_ 32 65536#32
  let w2 : IVec S64x6x65536 32 := broadcastInDim S64x6x65536 ![] (by decide) c_0
  let w3 : IVec S64x6x65536 32 := addi v46 w2
  let w4 : IVec S64x6x65536 32 := select w1 w3 v46
  let w5 : IVec S64x6x65536x1 32 := fun i => shapeCast S64x6x65536x1 w4 (by decide) i
  let c_1 : IVec S1 32 := constantI S1 32 65535#32
  let c_2 : IVec S_ 32 := constantI S_ 32 0#32
  let w6 : IVec S64x6x65536x1 32 := broadcastInDim S64x6x65536x1 ![] (by decide) c_2
  let w7 : IVec S64x6x65536x1 1 := cmpi .sge w5 w6
  let w8 : IVec S1x1x1x1 32 := broadcastInDim S1x1x1x1 ![3] (by decide) c_1
  let w9 : IVec S64x6x65536x1 32 := broadcastInDim S64x6x65536x1 ![0, 1, 2, 3] (by decide) w8
  let w10 : IVec S64x6x65536x1 1 := cmpi .sle w5 w9
  let w11 : IVec S64x6x65536x1 1 := andi w7 w10
  let c_3 : IVec S_ 1 := constantI S_ 1 1#1
  let w12 : IVec S64x6x65536 1 := Host.reduce IntOp.andi w11 c_3 reducesTo_unit3 h_S_
  let w13 : FVec F S64x6x65536 .f32 := Host.gather gatherLane v44 w5
  let cst : FVec F S_ .f32 := constant S_ .f32 0x7FC00000#32
  let w14 : FVec F S64x6x65536 .f32 := broadcastInDim S64x6x65536 ![] (by decide) cst
  select w12 w13 w14

/-- The zero padding: slot `d` of row `b` keeps the gathered value when `d` is below the row's count, else zero. -/
def padOf (len : IVec S64 32) (g : FVec F S64x6x65536 .f32) : FVec F S64x6x65536 .f32 :=
  fun j => Scalar.select (IntOp.cmpi .slt (BitVec.ofNat 32 (j 2).val) (len (ValueIdx.ix1 (n := 64) (j 0)))) (g j)
    (FloatOps.ofBits .f32 0x00000000#32)

/-- Gather the source rows through the table of positions, pad with zeros, transpose back. -/
def gatherOut (src : FVec F S64x65536x6 .f32) (len : IVec S64 32) (pair : IVec S64x65536x2 32) :
    FVec F S64x65536x6 .f32 :=
  transpose S64x65536x6 [0, 2, 1] (padOf len (gatheredOf src (invOf pair))) (by decide)

end Cert.Skyline

end
-- ==== Proof.RefRun.lean ====
/-
  The reference program's @main as a list of its 78 host operations — the three outlined functions' bodies
  listed at their call sites over the calls' own buffers — and its run read back: every weakly fair execution
  terminates with each result buffer at the operations' composed pure term of the arguments' launch contents,
  which is the shared specification's term, and the arguments unchanged.
-/
import proofs.«175822_j4002909520703_2_alg».proof.Proof.Gen.ReferenceIdeal
import proofs.«175822_j4002909520703_2_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The neighbour comparisons of a row followed by the row's final one: the two joined along the position axis. -/
def catLast (a : (⟨S64x65535, .i1⟩ : BufTy).Contents (Elt F)) (b : (⟨S64x1, .i1⟩ : BufTy).Contents (Elt F)) :
    (⟨S64x65536, .i1⟩ : BufTy).Contents (Elt F) :=
  concatenate S64x65536 1 [⟨S64x65535, a⟩, ⟨S64x1, b⟩] concatenates_S64x65535_S64x1_S64x65536_d1

/-- The row numbers and the slots joined into (row, slot) pairs along a new last axis. -/
def catPair (a b : (⟨S64x65536x1, .i32⟩ : BufTy).Contents (Elt F)) : (⟨S64x65536x2, .i32⟩ : BufTy).Contents (Elt F) :=
  concatenate S64x65536x2 2 [⟨S64x65536x1, a⟩, ⟨S64x65536x1, b⟩] concatenates_S64x65536x1_S64x65536x1_S64x65536x2_d2

/-- @main's operations in order as the program spells them, the calls unfolded: each outlined function's body
    stands at its call over the call's own buffers, through the typed references of the call's record. -/
abbrev opsT : List (HloOp τ sig (Elt F)) :=
  [
    StableHlo.TRef.nullary main_call0.c (constantI S_ 32 0#32),
    StableHlo.TRef.unary main_call0.c main_call0.v0 (broadcastInDim S64x65536 ![] bcast_S_S64x65536),
    StableHlo.TRef.binary (.of main_arg1) main_call0.v0 main_call0.v1 (cmpi .slt),
    StableHlo.TRef.nullary main_call0.c_0 (constantI S_ 32 65536#32),
    StableHlo.TRef.unary main_call0.c_0 main_call0.v2 (broadcastInDim S64x65536 ![] bcast_S_S64x65536),
    StableHlo.TRef.binary (.of main_arg1) main_call0.v2 main_call0.v3 addi,
    StableHlo.TRef.ternary main_call0.v1 main_call0.v3 (.of main_arg1) main_call0.v4 select,
    StableHlo.TRef.reshape main_call0.v4 main_call0.v5 rfl shapeCasts_S64x65536_S64x65536x1,
    StableHlo.TRef.nullary main_call0.c_1 (constantI S1 32 65535#32),
    StableHlo.TRef.nullary main_call0.c_2 (constantI S_ 32 0#32),
    StableHlo.TRef.unary main_call0.c_2 main_call0.v6 (broadcastInDim S64x65536x1 ![] bcast_S_S64x65536x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S64x65536x1 ![0, 1, 2] bcast_S1x1x1_S64x65536x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S64x65536x1_S64x65536_d2 h_S_),
    StableHlo.TRef.binary (.of main_arg2) main_call0.v5 main_call0.v13 (fun x i => Host.gather gather_S64x65536_S64x65536x1_S64x65536_n_1_0_0_1_2_11 x i),
    StableHlo.TRef.nullary main_call0.c_4 (constantI S_ 32 2147483648#32),
    StableHlo.TRef.unary main_call0.c_4 main_call0.v14 (broadcastInDim S64x65536 ![] bcast_S_S64x65536),
    StableHlo.TRef.ternary main_call0.v12 main_call0.v13 main_call0.v14 main_call0.v15 select,
    StableHlo.unary main_arg1 main_v1 ((extractStridedSlice S64x65535 ![0, 1] · slices_S64x65536_S64x65535_0_1) : (⟨S64x65536, .i32⟩ : BufTy).Contents (Elt F) → (⟨S64x65535, .i32⟩ : BufTy).Contents (Elt F)),
    StableHlo.unary main_arg1 main_v2 ((extractStridedSlice S64x65535 ![0, 0] · slices_S64x65536_S64x65535_0_0) : (⟨S64x65536, .i32⟩ : BufTy).Contents (Elt F) → (⟨S64x65535, .i32⟩ : BufTy).Contents (Elt F)),
    StableHlo.binary main_v1 main_v2 main_v3 (cmpi .ne : (⟨S64x65535, .i32⟩ : BufTy).Contents (Elt F) → (⟨S64x65535, .i32⟩ : BufTy).Contents (Elt F) → (⟨S64x65535, .i1⟩ : BufTy).Contents (Elt F)),
    StableHlo.nullary main_c (constantI S_ 1 1#1),
    StableHlo.unary main_c main_v4 (broadcastInDim S64x1 ![] bcast_S_S64x1 : (⟨S_, .i1⟩ : BufTy).Contents (Elt F) → (⟨S64x1, .i1⟩ : BufTy).Contents (Elt F)),
    StableHlo.binary main_v3 main_v4 main_v5 (catLast : (⟨S64x65535, .i1⟩ : BufTy).Contents (Elt F) → (⟨S64x1, .i1⟩ : BufTy).Contents (Elt F) → (⟨S64x65536, .i1⟩ : BufTy).Contents (Elt F)),
    StableHlo.nullary main_c_0 (constantI S_ 32 1#32),
    StableHlo.unary main_c_0 main_v6 (broadcastInDim S64x65536 ![] bcast_S_S64x65536 : (⟨S_, .i32⟩ : BufTy).Contents (Elt F) → (⟨S64x65536, .i32⟩ : BufTy).Contents (Elt F)),
    StableHlo.binary main_v0 main_v6 main_v7 (cmpi .eq : (⟨S64x65536, .i32⟩ : BufTy).Contents (Elt F) → (⟨S64x65536, .i32⟩ : BufTy).Contents (Elt F) → (⟨S64x65536, .i1⟩ : BufTy).Contents (Elt F)),
    StableHlo.binary main_v7 main_v5 main_v8 (ori : (⟨S64x65536, .i1⟩ : BufTy).Contents (Elt F) → (⟨S64x65536, .i1⟩ : BufTy).Contents (Elt F) → (⟨S64x65536, .i1⟩ : BufTy).Contents (Elt F)),
    StableHlo.unary main_v8 main_v9 ((extui 32 · natLt_1_32) : (⟨S64x65536, .i1⟩ : BufTy).Contents (Elt F) → (⟨S64x65536, .i32⟩ : BufTy).Contents (Elt F)),
    StableHlo.TRef.nullary main_call1.call0.c (constantI S_ 32 0#32),
    StableHlo.TRef.unary main_call1.call0.c main_call1.call0.v0 (broadcastInDim S_ ![] bcast_S_S_),
    StableHlo.TRef.binary (.of main_v9) main_call1.call0.v0 main_call1.call0.v1 (fun x v => Host.reduceWindow IntOp.addi ![1, 65536] ![1, 1] ![0, 65535] ![0, 0] x v reduceWindows_S64x65536_S64x65536_w1s1p0_0_w65536s1p65535_0 h_S_),
    StableHlo.nullary main_c_1 (constantI S_ 32 1#32),
    StableHlo.unary main_c_1 main_v11 (broadcastInDim S64x65536 ![] bcast_S_S64x65536 : (⟨S_, .i32⟩ : BufTy).Contents (Elt F) → (⟨S64x65536, .i32⟩ : BufTy).Contents (Elt F)),
    StableHlo.binary main_v10 main_v11 main_v12 (subi : (⟨S64x65536, .i32⟩ : BufTy).Contents (Elt F) → (⟨S64x65536, .i32⟩ : BufTy).Contents (Elt F) → (⟨S64x65536, .i32⟩ : BufTy).Contents (Elt F)),
    StableHlo.nullary main_c_2 (constantI S_ 32 65536#32),
    StableHlo.TRef.unary (.of main_c_2) main_call2.v0 id,
    StableHlo.TRef.unary main_call2.v0 main_call2.v1 (broadcastInDim S64x65536 ![] bcast_S_S64x65536),
    StableHlo.TRef.ternary (.of main_v8) (.of main_v12) main_call2.v1 main_call2.v2 select,
    StableHlo.nullary main_cst (constant S_ .f32 0x00000000#32),
    StableHlo.unary main_cst main_v14 (broadcastInDim S64x65537x6 ![] bcast_S_S64x65537x6 : (⟨S_, .f32⟩ : BufTy).Contents (Elt F) → (⟨S64x65537x6, .f32⟩ : BufTy).Contents (Elt F)),
    StableHlo.nullary main_v15 (iotaInDim S64 32 0),
    StableHlo.unary main_v15 main_v16 (broadcastInDim S64x1 ![0] bcast_S64_S64x1_0 : (⟨S64, .i32⟩ : BufTy).Contents (Elt F) → (⟨S64x1, .i32⟩ : BufTy).Contents (Elt F)),
    StableHlo.nullary main_c_3 (constantI S_ 32 0#32),
    StableHlo.unary main_c_3 main_v17 (broadcastInDim S64x1 ![] bcast_S_S64x1 : (⟨S_, .i32⟩ : BufTy).Contents (Elt F) → (⟨S64x1, .i32⟩ : BufTy).Contents (Elt F)),
    StableHlo.binary main_v16 main_v17 main_v18 (cmpi .slt : (⟨S64x1, .i32⟩ : BufTy).Contents (Elt F) → (⟨S64x1, .i32⟩ : BufTy).Contents (Elt F) → (⟨S64x1, .i1⟩ : BufTy).Contents (Elt F)),
    StableHlo.nullary main_c_4 (constantI S_ 32 64#32),
    StableHlo.unary main_c_4 main_v19 (broadcastInDim S64x1 ![] bcast_S_S64x1 : (⟨S_, .i32⟩ : BufTy).Contents (Elt F) → (⟨S64x1, .i32⟩ : BufTy).Contents (Elt F)),
    StableHlo.binary main_v16 main_v19 main_v20 (addi : (⟨S64x1, .i32⟩ : BufTy).Contents (Elt F) → (⟨S64x1, .i32⟩ : BufTy).Contents (Elt F) → (⟨S64x1, .i32⟩ : BufTy).Contents (Elt F)),
    StableHlo.ternary main_v18 main_v20 main_v16 main_v21 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_5 (constantI S_ 32 0#32),
    StableHlo.unary main_c_5 main_v22 (broadcastInDim S64x65536 ![] bcast_S_S64x65536 : (⟨S_, .i32⟩ : BufTy).Contents (Elt F) → (⟨S64x65536, .i32⟩ : BufTy).Contents (Elt F)),
    StableHlo.binary main_v13 main_v22 main_v23 (cmpi .slt : (⟨S64x65536, .i32⟩ : BufTy).Contents (Elt F) → (⟨S64x65536, .i32⟩ : BufTy).Contents (Elt F) → (⟨S64x65536, .i1⟩ : BufTy).Contents (Elt F)),
    StableHlo.nullary main_c_6 (constantI S_ 32 65537#32),
    StableHlo.unary main_c_6 main_v24 (broadcastInDim S64x65536 ![] bcast_S_S64x65536 : (⟨S_, .i32⟩ : BufTy).Contents (Elt F) → (⟨S64x65536, .i32⟩ : BufTy).Contents (Elt F)),
    StableHlo.binary main_v13 main_v24 main_v25 (addi : (⟨S64x65536, .i32⟩ : BufTy).Contents (Elt F) → (⟨S64x65536, .i32⟩ : BufTy).Contents (Elt F) → (⟨S64x65536, .i32⟩ : BufTy).Contents (Elt F)),
    StableHlo.ternary main_v23 main_v25 main_v13 main_v26 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.unary main_v21 main_v27 (broadcastInDim S64x65536 ![0, 1] bcast_S64x1_S64x65536_0_1 : (⟨S64x1, .i32⟩ : BufTy).Contents (Elt F) → (⟨S64x65536, .i32⟩ : BufTy).Contents (Elt F)),
    StableHlo.unary main_v27 main_v28 (broadcastInDim S64x65536x1 ![0, 1] bcast_S64x65536_S64x65536x1_0_1 : (⟨S64x65536, .i32⟩ : BufTy).Contents (Elt F) → (⟨S64x65536x1, .i32⟩ : BufTy).Contents (Elt F)),
    StableHlo.unary main_v26 main_v29 (broadcastInDim S64x65536x1 ![0, 1] bcast_S64x65536_S64x65536x1_0_1 : (⟨S64x65536, .i32⟩ : BufTy).Contents (Elt F) → (⟨S64x65536x1, .i32⟩ : BufTy).Contents (Elt F)),
    StableHlo.binary main_v28 main_v29 main_v30 (catPair : (⟨S64x65536x1, .i32⟩ : BufTy).Contents (Elt F) → (⟨S64x65536x1, .i32⟩ : BufTy).Contents (Elt F) → (⟨S64x65536x2, .i32⟩ : BufTy).Contents (Elt F)),
    StableHlo.ternary main_v14 main_v30 main_arg0 main_v31 ((fun x i u => Host.scatter scatter_S64x65537x6_S64x65536x2_S64x65536x6_2_01_01_2 (fun _ b => b) x i u) : (⟨S64x65537x6, .f32⟩ : BufTy).Contents (Elt F) → (⟨S64x65536x2, .i32⟩ : BufTy).Contents (Elt F) → (⟨S64x65536x6, .f32⟩ : BufTy).Contents (Elt F) → (⟨S64x65537x6, .f32⟩ : BufTy).Contents (Elt F)),
    StableHlo.unary main_v31 main_v32 ((extractStridedSlice S64x65536x6 ![0, 0, 0] · slices_S64x65537x6_S64x65536x6_0_0_0) : (⟨S64x65537x6, .f32⟩ : BufTy).Contents (Elt F) → (⟨S64x65536x6, .f32⟩ : BufTy).Contents (Elt F)),
    StableHlo.unary main_v8 main_v33 ((extui 32 · natLt_1_32) : (⟨S64x65536, .i1⟩ : BufTy).Contents (Elt F) → (⟨S64x65536, .i32⟩ : BufTy).Contents (Elt F)),
    StableHlo.nullary main_c_7 (constantI S_ 32 0#32),
    StableHlo.binary main_v33 main_c_7 main_v34 ((fun x v => Host.reduce IntOp.addi x v reducesTo_S64x65536_S64_d1 h_S_) : (⟨S64x65536, .i32⟩ : BufTy).Contents (Elt F) → (⟨S_, .i32⟩ : BufTy).Contents (Elt F) → (⟨S64, .i32⟩ : BufTy).Contents (Elt F)),
    StableHlo.nullary main_v35 (iotaInDim S65536 32 0),
    StableHlo.unary main_v35 main_v36 (broadcastInDim S1x65536 ![1] bcast_S65536_S1x65536_1 : (⟨S65536, .i32⟩ : BufTy).Contents (Elt F) → (⟨S1x65536, .i32⟩ : BufTy).Contents (Elt F)),
    StableHlo.unary main_v34 main_v37 (broadcastInDim S64x1 ![0] bcast_S64_S64x1_0 : (⟨S64, .i32⟩ : BufTy).Contents (Elt F) → (⟨S64x1, .i32⟩ : BufTy).Contents (Elt F)),
    StableHlo.unary main_v36 main_v38 (broadcastInDim S64x65536 ![0, 1] bcast_S1x65536_S64x65536_0_1 : (⟨S1x65536, .i32⟩ : BufTy).Contents (Elt F) → (⟨S64x65536, .i32⟩ : BufTy).Contents (Elt F)),
    StableHlo.unary main_v37 main_v39 (broadcastInDim S64x65536 ![0, 1] bcast_S64x1_S64x65536_0_1 : (⟨S64x1, .i32⟩ : BufTy).Contents (Elt F) → (⟨S64x65536, .i32⟩ : BufTy).Contents (Elt F)),
    StableHlo.binary main_v38 main_v39 main_v40 (cmpi .slt : (⟨S64x65536, .i32⟩ : BufTy).Contents (Elt F) → (⟨S64x65536, .i32⟩ : BufTy).Contents (Elt F) → (⟨S64x65536, .i1⟩ : BufTy).Contents (Elt F)),
    StableHlo.nullary main_c_8 (constantI S_ 32 0#32),
    StableHlo.unary main_c_8 main_v41 (broadcastInDim S64 ![] bcast_S_S64 : (⟨S_, .i32⟩ : BufTy).Contents (Elt F) → (⟨S64, .i32⟩ : BufTy).Contents (Elt F)) ]

/-- The same operations over the buffers themselves, each function at the types of its operands and result: the group flag of each token (twenty-two operations into
    the first call's buffers), the last-of-group test and the keep mask (eleven), the running count (three, the
    inner call's), the slot of each position (four, then the select's three), the scatter of the source rows at
    the (row, slot) pairs and the dropped dummy slot (twenty-four), the kept count per row and the mask of
    filled slots (nine), the zero per row (two). -/
abbrev ops : List (HloOp τ sig (Elt F)) :=
  [
    StableHlo.nullary main_call0_c (constantI S_ 32 0#32),
    StableHlo.unary main_call0_c main_call0_v0 ((broadcastInDim S64x65536 ![] bcast_S_S64x65536) : (⟨S_, .i32⟩ : BufTy).Contents (Elt F) → (⟨S64x65536, .i32⟩ : BufTy).Contents (Elt F)),
    StableHlo.binary main_arg1 main_call0_v0 main_call0_v1 (cmpi .slt : (⟨S64x65536, .i32⟩ : BufTy).Contents (Elt F) → (⟨S64x65536, .i32⟩ : BufTy).Contents (Elt F) → (⟨S64x65536, .i1⟩ : BufTy).Contents (Elt F)),
    StableHlo.nullary main_call0_c_0 (constantI S_ 32 65536#32),
    StableHlo.unary main_call0_c_0 main_call0_v2 ((broadcastInDim S64x65536 ![] bcast_S_S64x65536) : (⟨S_, .i32⟩ : BufTy).Contents (Elt F) → (⟨S64x65536, .i32⟩ : BufTy).Contents (Elt F)),
    StableHlo.binary main_arg1 main_call0_v2 main_call0_v3 (addi : (⟨S64x65536, .i32⟩ : BufTy).Contents (Elt F) → (⟨S64x65536, .i32⟩ : BufTy).Contents (Elt F) → (⟨S64x65536, .i32⟩ : BufTy).Contents (Elt F)),
    StableHlo.ternary main_call0_v1 main_call0_v3 main_arg1 main_call0_v4 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.reshape main_call0_v4 main_call0_v5 rfl shapeCasts_S64x65536_S64x65536x1,
    StableHlo.nullary main_call0_c_1 (constantI S1 32 65535#32),
    StableHlo.nullary main_call0_c_2 (constantI S_ 32 0#32),
    StableHlo.unary main_call0_c_2 main_call0_v6 ((broadcastInDim S64x65536x1 ![] bcast_S_S64x65536x1) : (⟨S_, .i32⟩ : BufTy).Contents (Elt F) → (⟨S64x65536x1, .i32⟩ : BufTy).Contents (Elt F)),
    StableHlo.binary main_call0_v5 main_call0_v6 main_call0_v7 (cmpi .sge : (⟨S64x65536x1, .i32⟩ : BufTy).Contents (Elt F) → (⟨S64x65536x1, .i32⟩ : BufTy).Contents (Elt F) → (⟨S64x65536x1, .i1⟩ : BufTy).Contents (Elt F)),
    StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
    StableHlo.unary main_call0_v8 main_call0_v9 ((broadcastInDim S64x65536x1 ![0, 1, 2] bcast_S1x1x1_S64x65536x1_0_1_2) : (⟨S1x1x1, .i32⟩ : BufTy).Contents (Elt F) → (⟨S64x65536x1, .i32⟩ : BufTy).Contents (Elt F)),
    StableHlo.binary main_call0_v5 main_call0_v9 main_call0_v10 (cmpi .sle : (⟨S64x65536x1, .i32⟩ : BufTy).Contents (Elt F) → (⟨S64x65536x1, .i32⟩ : BufTy).Contents (Elt F) → (⟨S64x65536x1, .i1⟩ : BufTy).Contents (Elt F)),
    StableHlo.binary main_call0_v7 main_call0_v10 main_call0_v11 (andi : (⟨S64x65536x1, .i1⟩ : BufTy).Contents (Elt F) → (⟨S64x65536x1, .i1⟩ : BufTy).Contents (Elt F) → (⟨S64x65536x1, .i1⟩ : BufTy).Contents (Elt F)),
    StableHlo.nullary main_call0_c_3 (constantI S_ 1 1#1),
    StableHlo.binary main_call0_v11 main_call0_c_3 main_call0_v12 ((fun x v => Host.reduce IntOp.andi x v reducesTo_S64x65536x1_S64x65536_d2 h_S_) : (⟨S64x65536x1, .i1⟩ : BufTy).Contents (Elt F) → (⟨S_, .i1⟩ : BufTy).Contents (Elt F) → (⟨S64x65536, .i1⟩ : BufTy).Contents (Elt F)),
    StableHlo.binary main_arg2 main_call0_v5 main_call0_v13 ((fun x i => Host.gather gather_S64x65536_S64x65536x1_S64x65536_n_1_0_0_1_2_11 x i) : (⟨S64x65536, .i32⟩ : BufTy).Contents (Elt F) → (⟨S64x65536x1, .i32⟩ : BufTy).Contents (Elt F) → (⟨S64x65536, .i32⟩ : BufTy).Contents (Elt F)),
    StableHlo.nullary main_call0_c_4 (constantI S_ 32 2147483648#32),
    StableHlo.unary main_call0_c_4 main_call0_v14 ((broadcastInDim S64x65536 ![] bcast_S_S64x65536) : (⟨S_, .i32⟩ : BufTy).Contents (Elt F) → (⟨S64x65536, .i32⟩ : BufTy).Contents (Elt F)),
    StableHlo.ternary main_call0_v12 main_call0_v13 main_call0_v14 main_v0 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.unary main_arg1 main_v1 ((extractStridedSlice S64x65535 ![0, 1] · slices_S64x65536_S64x65535_0_1) : (⟨S64x65536, .i32⟩ : BufTy).Contents (Elt F) → (⟨S64x65535, .i32⟩ : BufTy).Contents (Elt F)),
    StableHlo.unary main_arg1 main_v2 ((extractStridedSlice S64x65535 ![0, 0] · slices_S64x65536_S64x65535_0_0) : (⟨S64x65536, .i32⟩ : BufTy).Contents (Elt F) → (⟨S64x65535, .i32⟩ : BufTy).Contents (Elt F)),
    StableHlo.binary main_v1 main_v2 main_v3 (cmpi .ne : (⟨S64x65535, .i32⟩ : BufTy).Contents (Elt F) → (⟨S64x65535, .i32⟩ : BufTy).Contents (Elt F) → (⟨S64x65535, .i1⟩ : BufTy).Contents (Elt F)),
    StableHlo.nullary main_c (constantI S_ 1 1#1),
    StableHlo.unary main_c main_v4 (broadcastInDim S64x1 ![] bcast_S_S64x1 : (⟨S_, .i1⟩ : BufTy).Contents (Elt F) → (⟨S64x1, .i1⟩ : BufTy).Contents (Elt F)),
    StableHlo.binary main_v3 main_v4 main_v5 (catLast : (⟨S64x65535, .i1⟩ : BufTy).Contents (Elt F) → (⟨S64x1, .i1⟩ : BufTy).Contents (Elt F) → (⟨S64x65536, .i1⟩ : BufTy).Contents (Elt F)),
    StableHlo.nullary main_c_0 (constantI S_ 32 1#32),
    StableHlo.unary main_c_0 main_v6 (broadcastInDim S64x65536 ![] bcast_S_S64x65536 : (⟨S_, .i32⟩ : BufTy).Contents (Elt F) → (⟨S64x65536, .i32⟩ : BufTy).Contents (Elt F)),
    StableHlo.binary main_v0 main_v6 main_v7 (cmpi .eq : (⟨S64x65536, .i32⟩ : BufTy).Contents (Elt F) → (⟨S64x65536, .i32⟩ : BufTy).Contents (Elt F) → (⟨S64x65536, .i1⟩ : BufTy).Contents (Elt F)),
    StableHlo.binary main_v7 main_v5 main_v8 (ori : (⟨S64x65536, .i1⟩ : BufTy).Contents (Elt F) → (⟨S64x65536, .i1⟩ : BufTy).Contents (Elt F) → (⟨S64x65536, .i1⟩ : BufTy).Contents (Elt F)),
    StableHlo.unary main_v8 main_v9 ((extui 32 · natLt_1_32) : (⟨S64x65536, .i1⟩ : BufTy).Contents (Elt F) → (⟨S64x65536, .i32⟩ : BufTy).Contents (Elt F)),
    StableHlo.nullary main_call1_call0_c (constantI S_ 32 0#32),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v9 main_call1_call0_v0 main_v10 ((fun x v => Host.reduceWindow IntOp.addi ![1, 65536] ![1, 1] ![0, 65535] ![0, 0] x v reduceWindows_S64x65536_S64x65536_w1s1p0_0_w65536s1p65535_0 h_S_) : (⟨S64x65536, .i32⟩ : BufTy).Contents (Elt F) → (⟨S_, .i32⟩ : BufTy).Contents (Elt F) → (⟨S64x65536, .i32⟩ : BufTy).Contents (Elt F)),
    StableHlo.nullary main_c_1 (constantI S_ 32 1#32),
    StableHlo.unary main_c_1 main_v11 (broadcastInDim S64x65536 ![] bcast_S_S64x65536 : (⟨S_, .i32⟩ : BufTy).Contents (Elt F) → (⟨S64x65536, .i32⟩ : BufTy).Contents (Elt F)),
    StableHlo.binary main_v10 main_v11 main_v12 (subi : (⟨S64x65536, .i32⟩ : BufTy).Contents (Elt F) → (⟨S64x65536, .i32⟩ : BufTy).Contents (Elt F) → (⟨S64x65536, .i32⟩ : BufTy).Contents (Elt F)),
    StableHlo.nullary main_c_2 (constantI S_ 32 65536#32),
    StableHlo.unary main_c_2 main_call2_v0 (id : (⟨S_, .i32⟩ : BufTy).Contents (Elt F) → (⟨S_, .i32⟩ : BufTy).Contents (Elt F)),
    StableHlo.unary main_call2_v0 main_call2_v1 ((broadcastInDim S64x65536 ![] bcast_S_S64x65536) : (⟨S_, .i32⟩ : BufTy).Contents (Elt F) → (⟨S64x65536, .i32⟩ : BufTy).Contents (Elt F)),
    StableHlo.ternary main_v8 main_v12 main_call2_v1 main_v13 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.nullary main_cst (constant S_ .f32 0x00000000#32),
    StableHlo.unary main_cst main_v14 (broadcastInDim S64x65537x6 ![] bcast_S_S64x65537x6 : (⟨S_, .f32⟩ : BufTy).Contents (Elt F) → (⟨S64x65537x6, .f32⟩ : BufTy).Contents (Elt F)),
    StableHlo.nullary main_v15 (iotaInDim S64 32 0),
    StableHlo.unary main_v15 main_v16 (broadcastInDim S64x1 ![0] bcast_S64_S64x1_0 : (⟨S64, .i32⟩ : BufTy).Contents (Elt F) → (⟨S64x1, .i32⟩ : BufTy).Contents (Elt F)),
    StableHlo.nullary main_c_3 (constantI S_ 32 0#32),
    StableHlo.unary main_c_3 main_v17 (broadcastInDim S64x1 ![] bcast_S_S64x1 : (⟨S_, .i32⟩ : BufTy).Contents (Elt F) → (⟨S64x1, .i32⟩ : BufTy).Contents (Elt F)),
    StableHlo.binary main_v16 main_v17 main_v18 (cmpi .slt : (⟨S64x1, .i32⟩ : BufTy).Contents (Elt F) → (⟨S64x1, .i32⟩ : BufTy).Contents (Elt F) → (⟨S64x1, .i1⟩ : BufTy).Contents (Elt F)),
    StableHlo.nullary main_c_4 (constantI S_ 32 64#32),
    StableHlo.unary main_c_4 main_v19 (broadcastInDim S64x1 ![] bcast_S_S64x1 : (⟨S_, .i32⟩ : BufTy).Contents (Elt F) → (⟨S64x1, .i32⟩ : BufTy).Contents (Elt F)),
    StableHlo.binary main_v16 main_v19 main_v20 (addi : (⟨S64x1, .i32⟩ : BufTy).Contents (Elt F) → (⟨S64x1, .i32⟩ : BufTy).Contents (Elt F) → (⟨S64x1, .i32⟩ : BufTy).Contents (Elt F)),
    StableHlo.ternary main_v18 main_v20 main_v16 main_v21 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    StableHlo.nullary main_c_5 (constantI S_ 32 0#32),
    StableHlo.unary main_c_5 main_v22 (broadcastInDim S64x65536 ![] bcast_S_S64x65536 : (⟨S_, .i32⟩ : BufTy).Contents (Elt F) → (⟨S64x65536, .i32⟩ : BufTy).Contents (Elt F)),
    StableHlo.binary main_v13 main_v22 main_v23 (cmpi .slt : (⟨S64x65536, .i32⟩ : BufTy).Contents (Elt F) → (⟨S64x65536, .i32⟩ : BufTy).Contents (Elt F) → (⟨S64x65536, .i1⟩ : BufTy).Contents (Elt F)),
    StableHlo.nullary main_c_6 (constantI S_ 32 65537#32),
    StableHlo.unary main_c_6 main_v24 (broadcastInDim S64x65536 ![] bcast_S_S64x65536 : (⟨S_, .i32⟩ : BufTy).Contents (Elt F) → (⟨S64x65536, .i32⟩ : BufTy).Contents (Elt F)),
    StableHlo.binary main_v13 main_v24 main_v25 (addi : (⟨S64x65536, .i32⟩ : BufTy).Contents (Elt F) → (⟨S64x65536, .i32⟩ : BufTy).Contents (Elt F) → (⟨S64x65536, .i32⟩ : BufTy).Contents (Elt F)),
    StableHlo.ternary main_v23 main_v25 main_v13 main_v26 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.unary main_v21 main_v27 (broadcastInDim S64x65536 ![0, 1] bcast_S64x1_S64x65536_0_1 : (⟨S64x1, .i32⟩ : BufTy).Contents (Elt F) → (⟨S64x65536, .i32⟩ : BufTy).Contents (Elt F)),
    StableHlo.unary main_v27 main_v28 (broadcastInDim S64x65536x1 ![0, 1] bcast_S64x65536_S64x65536x1_0_1 : (⟨S64x65536, .i32⟩ : BufTy).Contents (Elt F) → (⟨S64x65536x1, .i32⟩ : BufTy).Contents (Elt F)),
    StableHlo.unary main_v26 main_v29 (broadcastInDim S64x65536x1 ![0, 1] bcast_S64x65536_S64x65536x1_0_1 : (⟨S64x65536, .i32⟩ : BufTy).Contents (Elt F) → (⟨S64x65536x1, .i32⟩ : BufTy).Contents (Elt F)),
    StableHlo.binary main_v28 main_v29 main_v30 (catPair : (⟨S64x65536x1, .i32⟩ : BufTy).Contents (Elt F) → (⟨S64x65536x1, .i32⟩ : BufTy).Contents (Elt F) → (⟨S64x65536x2, .i32⟩ : BufTy).Contents (Elt F)),
    StableHlo.ternary main_v14 main_v30 main_arg0 main_v31 ((fun x i u => Host.scatter scatter_S64x65537x6_S64x65536x2_S64x65536x6_2_01_01_2 (fun _ b => b) x i u) : (⟨S64x65537x6, .f32⟩ : BufTy).Contents (Elt F) → (⟨S64x65536x2, .i32⟩ : BufTy).Contents (Elt F) → (⟨S64x65536x6, .f32⟩ : BufTy).Contents (Elt F) → (⟨S64x65537x6, .f32⟩ : BufTy).Contents (Elt F)),
    StableHlo.unary main_v31 main_v32 ((extractStridedSlice S64x65536x6 ![0, 0, 0] · slices_S64x65537x6_S64x65536x6_0_0_0) : (⟨S64x65537x6, .f32⟩ : BufTy).Contents (Elt F) → (⟨S64x65536x6, .f32⟩ : BufTy).Contents (Elt F)),
    StableHlo.unary main_v8 main_v33 ((extui 32 · natLt_1_32) : (⟨S64x65536, .i1⟩ : BufTy).Contents (Elt F) → (⟨S64x65536, .i32⟩ : BufTy).Contents (Elt F)),
    StableHlo.nullary main_c_7 (constantI S_ 32 0#32),
    StableHlo.binary main_v33 main_c_7 main_v34 ((fun x v => Host.reduce IntOp.addi x v reducesTo_S64x65536_S64_d1 h_S_) : (⟨S64x65536, .i32⟩ : BufTy).Contents (Elt F) → (⟨S_, .i32⟩ : BufTy).Contents (Elt F) → (⟨S64, .i32⟩ : BufTy).Contents (Elt F)),
    StableHlo.nullary main_v35 (iotaInDim S65536 32 0),
    StableHlo.unary main_v35 main_v36 (broadcastInDim S1x65536 ![1] bcast_S65536_S1x65536_1 : (⟨S65536, .i32⟩ : BufTy).Contents (Elt F) → (⟨S1x65536, .i32⟩ : BufTy).Contents (Elt F)),
    StableHlo.unary main_v34 main_v37 (broadcastInDim S64x1 ![0] bcast_S64_S64x1_0 : (⟨S64, .i32⟩ : BufTy).Contents (Elt F) → (⟨S64x1, .i32⟩ : BufTy).Contents (Elt F)),
    StableHlo.unary main_v36 main_v38 (broadcastInDim S64x65536 ![0, 1] bcast_S1x65536_S64x65536_0_1 : (⟨S1x65536, .i32⟩ : BufTy).Contents (Elt F) → (⟨S64x65536, .i32⟩ : BufTy).Contents (Elt F)),
    StableHlo.unary main_v37 main_v39 (broadcastInDim S64x65536 ![0, 1] bcast_S64x1_S64x65536_0_1 : (⟨S64x1, .i32⟩ : BufTy).Contents (Elt F) → (⟨S64x65536, .i32⟩ : BufTy).Contents (Elt F)),
    StableHlo.binary main_v38 main_v39 main_v40 (cmpi .slt : (⟨S64x65536, .i32⟩ : BufTy).Contents (Elt F) → (⟨S64x65536, .i32⟩ : BufTy).Contents (Elt F) → (⟨S64x65536, .i1⟩ : BufTy).Contents (Elt F)),
    StableHlo.nullary main_c_8 (constantI S_ 32 0#32),
    StableHlo.unary main_c_8 main_v41 (broadcastInDim S64 ![] bcast_S_S64 : (⟨S_, .i32⟩ : BufTy).Contents (Elt F) → (⟨S64, .i32⟩ : BufTy).Contents (Elt F)) ]

/-- @main is the straight line of the operations as the program spells them: each call is its function's body. -/
theorem mainT_eq (c : Dev nD) : main (F := F) c = seq opsT := rfl

attribute [local irreducible] Host.reduce Host.reduceWindow Host.gather Host.scatter in
/-- The two spellings are the same list: a typed reference made of a literal buffer is that buffer, and the
    transport of a value along its buffer's own type is the identity. -/
theorem opsT_eq : (opsT : List (HloOp τ sig (Elt F))) = ops := by
  delta opsT ops
  iterate 78 (refine congrArg₂ List.cons (by rfl) ?_)
  rfl

/-- @main is that straight line. -/
theorem main_eq (c : Dev nD) : main (F := F) c = seq ops := (mainT_eq c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., unary_bufs_sub .., unary_bufs_sub ..,
    binary_bufs_sub .., nullary_bufs_sub .., unary_bufs_sub .., binary_bufs_sub .., nullary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., ternary_bufs_sub ..,
    unary_bufs_sub .., unary_bufs_sub .., nullary_bufs_sub .., binary_bufs_sub .., nullary_bufs_sub .., unary_bufs_sub ..,
    unary_bufs_sub .., unary_bufs_sub .., unary_bufs_sub .., binary_bufs_sub .., nullary_bufs_sub .., unary_bufs_sub ..⟩

/-- At the compiled mesh, for any float values, from any memory with zero counters: every weakly fair execution
    of @main terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves at the results and at the arguments

Each result buffer's contents after the line is the composition of the operations that lead to it, applied to the
arguments' contents; that composition is the shared specification's term, operation for operation: the same
operations on the same operands in the same order, the keep mask feeding the running count, the select of the slots
and the count per row alike. -/

section Values

variable (V : Valuation τ sig (Elt F))

/-- No operation writes the source rows. -/
theorem arg0_eq : after ops V (main_arg0 : DevRef τ sig) = V (main_arg0 : DevRef τ sig) := by
  after_results_simp

/-- No operation writes the group ids. -/
theorem arg1_eq : after ops V (main_arg1 : DevRef τ sig) = V (main_arg1 : DevRef τ sig) := by
  after_results_simp

/-- No operation writes the flags. -/
theorem arg2_eq : after ops V (main_arg2 : DevRef τ sig) = V (main_arg2 : DevRef τ sig) := by
  after_results_simp

attribute [local irreducible] Host.reduce Host.reduceWindow Host.gather Host.scatter in
set_option maxRecDepth 8192 in
/-- The keep mask: a token is kept when its group's flag is one or it is the last of its group. -/
theorem keep_eq : after ops V (main_v8 : DevRef τ sig)
    = Cert.Skyline.keepOf (V (main_arg1 : DevRef τ sig)) (V (main_arg2 : DevRef τ sig)) := by
  after_results_simp
  rfl

attribute [local irreducible] Host.reduce Host.reduceWindow Host.gather Host.scatter in
set_option maxRecDepth 8192 in
/-- The first result: the source rows scattered at their (row, slot) pairs, the dummy slot dropped. -/
theorem out_eq : after ops V (main_v32 : DevRef τ sig)
    = Cert.Skyline.scatterOut (F := F) (V (main_arg0 : DevRef τ sig)) (Cert.Skyline.pairOf (Cert.Skyline.posOf (Cert.Skyline.keepOf (V (main_arg1 : DevRef τ sig)) (V (main_arg2 : DevRef τ sig))))) := by
  after_results_simp
  rfl

attribute [local irreducible] Host.reduce Host.reduceWindow Host.gather Host.scatter in
set_option maxRecDepth 8192 in
/-- The second result: the mask of the slots below each row's count of kept tokens. -/
theorem mask_eq : after ops V (main_v40 : DevRef τ sig)
    = Cert.Skyline.maskOf (Cert.Skyline.lenOf (Cert.Skyline.keepOf (V (main_arg1 : DevRef τ sig)) (V (main_arg2 : DevRef τ sig)))) := by
  after_results_simp
  rfl

/-- The third result: a zero per row. -/
theorem zeros_eq : after ops V (main_v41 : DevRef τ sig) = Cert.Skyline.zeros64 := by
  after_results_simp
  rfl

end Values

/-- On every device, for any float values, from any memory with zero counters: every weakly fair execution of
    @main terminates with the three results at the specification's terms of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v32)
          = Cert.Skyline.scatterOut (F := F) (m ((c.tc : Thread nD τ).loc main_arg0)) (Cert.Skyline.pairOf (Cert.Skyline.posOf (Cert.Skyline.keepOf (m ((c.tc : Thread nD τ).loc main_arg1)) (m ((c.tc : Thread nD τ).loc main_arg2)))))
      ∧ r.2.mem ((c.tc : Thread nD τ).loc main_v40) = Cert.Skyline.maskOf (Cert.Skyline.lenOf (Cert.Skyline.keepOf (m ((c.tc : Thread nD τ).loc main_arg1)) (m ((c.tc : Thread nD τ).loc main_arg2))))
      ∧ r.2.mem ((c.tc : Thread nD τ).loc main_v41) = Cert.Skyline.zeros64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v32).trans (out_eq (launchContents m c)),
      (h c main_v40).trans (mask_eq (launchContents m c)),
      (h c main_v41).trans (zeros_eq (launchContents m c)),
      (h c main_arg0).trans (arg0_eq (launchContents m c)),
      (h c main_arg1).trans (arg1_eq (launchContents m c)),
      (h c main_arg2).trans (arg2_eq (launchContents m c))⟩)
    (run_after m ρ)

/-- The same run read at the arguments only: it terminates and leaves the three argument arrays as they were. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2.2.2) (run m ρ)

end Cert.ReferenceIdeal.RefValue

end
-- ==== Proof.KerHost.lean ====
/-
  What the kernel's program finds when its one pallas_call is entered, as the shared specification's terms.

  Before the region the program runs 104 host operations in seven stretches (four of them outlined calls).  Read
  backwards from a buffer, stretch by stretch over an opaque earlier valuation, they compose to: the count of kept
  positions per row (the prefetched table), the mask of the filled slots (the second result), and the transposed
  source gathered through the table of source positions per slot (the window the kernel pads).
-/
import proofs.«175822_j4002909520703_2_alg».proof.Proof.Gen.KernelIdeal.Frame.Runs
import proofs.«175822_j4002909520703_2_alg».proof.Proof.Spec
import Idealize.ShloMosaic.Lib.StableHlo.Run
import Idealize.ShloMosaic.Lib.Pipeline.Frame
import Idealize.ShloMosaic.Lib.Tactic

noncomputable section

namespace Cert.KernelIdeal.KerValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The keep mask of core `c`'s launch arguments: which positions of each row are kept. -/
abbrev keep (c : Dev nD) : IVec Cert.Skyline.S64x65536 1 :=
  Cert.Skyline.keepOf (m ((c.tc : Thread nD τ).loc main_arg1)) (m ((c.tc : Thread nD τ).loc main_arg2))

/-- The neighbour comparisons of a row followed by the row's final flag: the two joined along the position axis. -/
def catLast (a : (⟨S64x65535, .i1⟩ : BufTy).Contents (Elt F)) (b : (⟨S64x1, .i1⟩ : BufTy).Contents (Elt F)) :
    (⟨S64x65536, .i1⟩ : BufTy).Contents (Elt F) :=
  concatenate S64x65536 1 [⟨S64x65535, a⟩, ⟨S64x1, b⟩] concatenates_S64x65535_S64x1_S64x65536_d1

/-- The row numbers and the slots joined into (row, slot) pairs along a new last axis. -/
def catPair (a b : (⟨S64x65536x1, .i32⟩ : BufTy).Contents (Elt F)) : (⟨S64x65536x2, .i32⟩ : BufTy).Contents (Elt F) :=
  concatenate S64x65536x2 2 [⟨S64x65536x1, a⟩, ⟨S64x65536x1, b⟩] concatenates_S64x65536x1_S64x65536x1_S64x65536x2_d2
/-- The operations that read each token's group flag (the first outlined call), over the buffers themselves. -/
abbrev flagOps : List (HloOp τ sig (Elt F)) :=
  [ StableHlo.nullary main_call0_c ((constantI S_ 32 0#32) : (⟨S_, .i32⟩ : BufTy).Contents (Elt F)),
    StableHlo.unary main_call0_c main_call0_v0 ((broadcastInDim S64x65536 ![] bcast_S_S64x65536) : (⟨S_, .i32⟩ : BufTy).Contents (Elt F) → (⟨S64x65536, .i32⟩ : BufTy).Contents (Elt F)),
    StableHlo.binary main_arg1 main_call0_v0 main_call0_v1 ((cmpi .slt) : (⟨S64x65536, .i32⟩ : BufTy).Contents (Elt F) → (⟨S64x65536, .i32⟩ : BufTy).Contents (Elt F) → (⟨S64x65536, .i1⟩ : BufTy).Contents (Elt F)),
    StableHlo.nullary main_call0_c_0 ((constantI S_ 32 65536#32) : (⟨S_, .i32⟩ : BufTy).Contents (Elt F)),
    StableHlo.unary main_call0_c_0 main_call0_v2 ((broadcastInDim S64x65536 ![] bcast_S_S64x65536) : (⟨S_, .i32⟩ : BufTy).Contents (Elt F) → (⟨S64x65536, .i32⟩ : BufTy).Contents (Elt F)),
    StableHlo.binary main_arg1 main_call0_v2 main_call0_v3 (addi : (⟨S64x65536, .i32⟩ : BufTy).Contents (Elt F) → (⟨S64x65536, .i32⟩ : BufTy).Contents (Elt F) → (⟨S64x65536, .i32⟩ : BufTy).Contents (Elt F)),
    StableHlo.ternary main_call0_v1 main_call0_v3 main_arg1 main_call0_v4 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.reshape main_call0_v4 main_call0_v5 rfl shapeCasts_S64x65536_S64x65536x1,
    StableHlo.nullary main_call0_c_1 ((constantI S1 32 65535#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S64x65536x1 ![] bcast_S_S64x65536x1) : (⟨S_, .i32⟩ : BufTy).Contents (Elt F) → (⟨S64x65536x1, .i32⟩ : BufTy).Contents (Elt F)),
    StableHlo.binary main_call0_v5 main_call0_v6 main_call0_v7 ((cmpi .sge) : (⟨S64x65536x1, .i32⟩ : BufTy).Contents (Elt F) → (⟨S64x65536x1, .i32⟩ : BufTy).Contents (Elt F) → (⟨S64x65536x1, .i1⟩ : BufTy).Contents (Elt F)),
    StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
    StableHlo.unary main_call0_v8 main_call0_v9 ((broadcastInDim S64x65536x1 ![0, 1, 2] bcast_S1x1x1_S64x65536x1_0_1_2) : (⟨S1x1x1, .i32⟩ : BufTy).Contents (Elt F) → (⟨S64x65536x1, .i32⟩ : BufTy).Contents (Elt F)),
    StableHlo.binary main_call0_v5 main_call0_v9 main_call0_v10 ((cmpi .sle) : (⟨S64x65536x1, .i32⟩ : BufTy).Contents (Elt F) → (⟨S64x65536x1, .i32⟩ : BufTy).Contents (Elt F) → (⟨S64x65536x1, .i1⟩ : BufTy).Contents (Elt F)),
    StableHlo.binary main_call0_v7 main_call0_v10 main_call0_v11 (andi : (⟨S64x65536x1, .i1⟩ : BufTy).Contents (Elt F) → (⟨S64x65536x1, .i1⟩ : BufTy).Contents (Elt F) → (⟨S64x65536x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S64x65536x1_S64x65536_d2 h_S_) : (⟨S64x65536x1, .i1⟩ : BufTy).Contents (Elt F) → (⟨S_, .i1⟩ : BufTy).Contents (Elt F) → (⟨S64x65536, .i1⟩ : BufTy).Contents (Elt F)),
    StableHlo.binary main_arg2 main_call0_v5 main_call0_v13 ((fun x i => Host.gather gather_S64x65536_S64x65536x1_S64x65536_n_1_0_0_1_2_11 x i) : (⟨S64x65536, .i32⟩ : BufTy).Contents (Elt F) → (⟨S64x65536x1, .i32⟩ : BufTy).Contents (Elt F) → (⟨S64x65536, .i32⟩ : BufTy).Contents (Elt F)),
    StableHlo.nullary main_call0_c_4 ((constantI S_ 32 2147483648#32) : (⟨S_, .i32⟩ : BufTy).Contents (Elt F)),
    StableHlo.unary main_call0_c_4 main_call0_v14 ((broadcastInDim S64x65536 ![] bcast_S_S64x65536) : (⟨S_, .i32⟩ : BufTy).Contents (Elt F) → (⟨S64x65536, .i32⟩ : BufTy).Contents (Elt F)),
    StableHlo.ternary main_call0_v12 main_call0_v13 main_call0_v14 main_v0 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)) ]

/-- The operations of the running count (the second outlined call), over the buffers themselves. -/
abbrev countOps : List (HloOp τ sig (Elt F)) :=
  [ StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v9 main_call1_call0_v0 main_v10 ((fun x v => Host.reduceWindow IntOp.addi ![1, 65536] ![1, 1] ![0, 65535] ![0, 0] x v reduceWindows_S64x65536_S64x65536_w1s1p0_0_w65536s1p65535_0 h_S_) : (⟨S64x65536, .i32⟩ : BufTy).Contents (Elt F) → (⟨S_, .i32⟩ : BufTy).Contents (Elt F) → (⟨S64x65536, .i32⟩ : BufTy).Contents (Elt F)) ]

/-- The operations that send a dropped position to the dummy slot (the third outlined call), over the buffers themselves. -/
abbrev slotOps : List (HloOp τ sig (Elt F)) :=
  [ StableHlo.unary main_c_2 main_call2_v0 (id : (⟨S_, .i32⟩ : BufTy).Contents (Elt F) → (⟨S_, .i32⟩ : BufTy).Contents (Elt F)),
    StableHlo.unary main_call2_v0 main_call2_v1 ((broadcastInDim S64x65536 ![] bcast_S_S64x65536) : (⟨S_, .i32⟩ : BufTy).Contents (Elt F) → (⟨S64x65536, .i32⟩ : BufTy).Contents (Elt F)),
    StableHlo.ternary main_v8 main_v12 main_call2_v1 main_v13 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)) ]

/-- The operations that read the transposed source along the position axis (the fourth outlined call), over the buffers themselves. -/
abbrev gatherOps : List (HloOp τ sig (Elt F)) :=
  [ StableHlo.nullary main_call3_c ((constantI S_ 32 0#32) : (⟨S_, .i32⟩ : BufTy).Contents (Elt F)),
    StableHlo.unary main_call3_c main_call3_v0 ((broadcastInDim S64x6x65536 ![] bcast_S_S64x6x65536) : (⟨S_, .i32⟩ : BufTy).Contents (Elt F) → (⟨S64x6x65536, .i32⟩ : BufTy).Contents (Elt F)),
    StableHlo.binary main_v46 main_call3_v0 main_call3_v1 ((cmpi .slt) : (⟨S64x6x65536, .i32⟩ : BufTy).Contents (Elt F) → (⟨S64x6x65536, .i32⟩ : BufTy).Contents (Elt F) → (⟨S64x6x65536, .i1⟩ : BufTy).Contents (Elt F)),
    StableHlo.nullary main_call3_c_0 ((constantI S_ 32 65536#32) : (⟨S_, .i32⟩ : BufTy).Contents (Elt F)),
    StableHlo.unary main_call3_c_0 main_call3_v2 ((broadcastInDim S64x6x65536 ![] bcast_S_S64x6x65536) : (⟨S_, .i32⟩ : BufTy).Contents (Elt F) → (⟨S64x6x65536, .i32⟩ : BufTy).Contents (Elt F)),
    StableHlo.binary main_v46 main_call3_v2 main_call3_v3 (addi : (⟨S64x6x65536, .i32⟩ : BufTy).Contents (Elt F) → (⟨S64x6x65536, .i32⟩ : BufTy).Contents (Elt F) → (⟨S64x6x65536, .i32⟩ : BufTy).Contents (Elt F)),
    StableHlo.ternary main_call3_v1 main_call3_v3 main_v46 main_call3_v4 (select : (⟨S64x6x65536, .i1⟩ : BufTy).Contents (Elt F) → (⟨S64x6x65536, .i32⟩ : BufTy).Contents (Elt F) → (⟨S64x6x65536, .i32⟩ : BufTy).Contents (Elt F) → (⟨S64x6x65536, .i32⟩ : BufTy).Contents (Elt F)),
    StableHlo.reshape main_call3_v4 main_call3_v5 rfl shapeCasts_S64x6x65536_S64x6x65536x1,
    StableHlo.nullary main_call3_c_1 ((constantI S1 32 65535#32) : (⟨S1, .i32⟩ : BufTy).Contents (Elt F)),
    StableHlo.nullary main_call3_c_2 ((constantI S_ 32 0#32) : (⟨S_, .i32⟩ : BufTy).Contents (Elt F)),
    StableHlo.unary main_call3_c_2 main_call3_v6 ((broadcastInDim S64x6x65536x1 ![] bcast_S_S64x6x65536x1) : (⟨S_, .i32⟩ : BufTy).Contents (Elt F) → (⟨S64x6x65536x1, .i32⟩ : BufTy).Contents (Elt F)),
    StableHlo.binary main_call3_v5 main_call3_v6 main_call3_v7 ((cmpi .sge) : (⟨S64x6x65536x1, .i32⟩ : BufTy).Contents (Elt F) → (⟨S64x6x65536x1, .i32⟩ : BufTy).Contents (Elt F) → (⟨S64x6x65536x1, .i1⟩ : BufTy).Contents (Elt F)),
    StableHlo.unary main_call3_c_1 main_call3_v8 ((broadcastInDim S1x1x1x1 ![3] bcast_S1_S1x1x1x1_3) : (⟨S1, .i32⟩ : BufTy).Contents (Elt F) → (⟨S1x1x1x1, .i32⟩ : BufTy).Contents (Elt F)),
    StableHlo.unary main_call3_v8 main_call3_v9 ((broadcastInDim S64x6x65536x1 ![0, 1, 2, 3] bcast_S1x1x1x1_S64x6x65536x1_0_1_2_3) : (⟨S1x1x1x1, .i32⟩ : BufTy).Contents (Elt F) → (⟨S64x6x65536x1, .i32⟩ : BufTy).Contents (Elt F)),
    StableHlo.binary main_call3_v5 main_call3_v9 main_call3_v10 ((cmpi .sle) : (⟨S64x6x65536x1, .i32⟩ : BufTy).Contents (Elt F) → (⟨S64x6x65536x1, .i32⟩ : BufTy).Contents (Elt F) → (⟨S64x6x65536x1, .i1⟩ : BufTy).Contents (Elt F)),
    StableHlo.binary main_call3_v7 main_call3_v10 main_call3_v11 (andi : (⟨S64x6x65536x1, .i1⟩ : BufTy).Contents (Elt F) → (⟨S64x6x65536x1, .i1⟩ : BufTy).Contents (Elt F) → (⟨S64x6x65536x1, .i1⟩ : BufTy).Contents (Elt F)),
    StableHlo.nullary main_call3_c_3 ((constantI S_ 1 1#1) : (⟨S_, .i1⟩ : BufTy).Contents (Elt F)),
    StableHlo.binary main_call3_v11 main_call3_c_3 main_call3_v12 ((fun x v => Host.reduce IntOp.andi x v reducesTo_S64x6x65536x1_S64x6x65536_d3 h_S_) : (⟨S64x6x65536x1, .i1⟩ : BufTy).Contents (Elt F) → (⟨S_, .i1⟩ : BufTy).Contents (Elt F) → (⟨S64x6x65536, .i1⟩ : BufTy).Contents (Elt F)),
    StableHlo.binary main_v44 main_call3_v5 main_call3_v13 ((fun x i => Host.gather gather_S64x6x65536_S64x6x65536x1_S64x6x65536_n_2_01_01_2_3_111 x i) : (⟨S64x6x65536, .f32⟩ : BufTy).Contents (Elt F) → (⟨S64x6x65536x1, .i32⟩ : BufTy).Contents (Elt F) → (⟨S64x6x65536, .f32⟩ : BufTy).Contents (Elt F)),
    StableHlo.nullary main_call3_cst ((constant S_ .f32 0x7FC00000#32) : (⟨S_, .f32⟩ : BufTy).Contents (Elt F)),
    StableHlo.unary main_call3_cst main_call3_v14 ((broadcastInDim S64x6x65536 ![] bcast_S_S64x6x65536) : (⟨S_, .f32⟩ : BufTy).Contents (Elt F) → (⟨S64x6x65536, .f32⟩ : BufTy).Contents (Elt F)),
    StableHlo.ternary main_call3_v12 main_call3_v13 main_call3_v14 main_v47 (select : (⟨S64x6x65536, .i1⟩ : BufTy).Contents (Elt F) → (⟨S64x6x65536, .f32⟩ : BufTy).Contents (Elt F) → (⟨S64x6x65536, .f32⟩ : BufTy).Contents (Elt F) → (⟨S64x6x65536, .f32⟩ : BufTy).Contents (Elt F)) ]
/-- The second stretch: the keep mask and its widening, the join of the neighbour comparisons named. -/
abbrev keepOps : List (HloOp τ sig (Elt F)) :=
  [ StableHlo.unary main_arg1 main_v1 ((extractStridedSlice S64x65535 ![0, 1] · slices_S64x65536_S64x65535_0_1) : (⟨S64x65536, .i32⟩ : BufTy).Contents (Elt F) → (⟨S64x65535, .i32⟩ : BufTy).Contents (Elt F)),
    StableHlo.unary main_arg1 main_v2 ((extractStridedSlice S64x65535 ![0, 0] · slices_S64x65536_S64x65535_0_0) : (⟨S64x65536, .i32⟩ : BufTy).Contents (Elt F) → (⟨S64x65535, .i32⟩ : BufTy).Contents (Elt F)),
    StableHlo.binary main_v1 main_v2 main_v3 (cmpi .ne : (⟨S64x65535, .i32⟩ : BufTy).Contents (Elt F) → (⟨S64x65535, .i32⟩ : BufTy).Contents (Elt F) → (⟨S64x65535, .i1⟩ : BufTy).Contents (Elt F)),
    StableHlo.nullary main_c (constantI S_ 1 1#1),
    StableHlo.unary main_c main_v4 (broadcastInDim S64x1 ![] bcast_S_S64x1 : (⟨S_, .i1⟩ : BufTy).Contents (Elt F) → (⟨S64x1, .i1⟩ : BufTy).Contents (Elt F)),
    StableHlo.binary main_v3 main_v4 main_v5 (catLast : (⟨S64x65535, .i1⟩ : BufTy).Contents (Elt F) → (⟨S64x1, .i1⟩ : BufTy).Contents (Elt F) → (⟨S64x65536, .i1⟩ : BufTy).Contents (Elt F)),
    StableHlo.nullary main_c_0 (constantI S_ 32 1#32),
    StableHlo.unary main_c_0 main_v6 (broadcastInDim S64x65536 ![] bcast_S_S64x65536 : (⟨S_, .i32⟩ : BufTy).Contents (Elt F) → (⟨S64x65536, .i32⟩ : BufTy).Contents (Elt F)),
    StableHlo.binary main_v0 main_v6 main_v7 (cmpi .eq : (⟨S64x65536, .i32⟩ : BufTy).Contents (Elt F) → (⟨S64x65536, .i32⟩ : BufTy).Contents (Elt F) → (⟨S64x65536, .i1⟩ : BufTy).Contents (Elt F)),
    StableHlo.binary main_v7 main_v5 main_v8 (ori : (⟨S64x65536, .i1⟩ : BufTy).Contents (Elt F) → (⟨S64x65536, .i1⟩ : BufTy).Contents (Elt F) → (⟨S64x65536, .i1⟩ : BufTy).Contents (Elt F)),
    StableHlo.unary main_v8 main_v9 ((extui 32 · natLt_1_32) : (⟨S64x65536, .i1⟩ : BufTy).Contents (Elt F) → (⟨S64x65536, .i32⟩ : BufTy).Contents (Elt F)) ]

/-- The sixth stretch, first part: the count of kept positions per row and the mask of the filled slots. -/
abbrev lenOps : List (HloOp τ sig (Elt F)) :=
  [ StableHlo.unary main_v8 main_v14 ((extui 32 · natLt_1_32) : (⟨S64x65536, .i1⟩ : BufTy).Contents (Elt F) → (⟨S64x65536, .i32⟩ : BufTy).Contents (Elt F)),
    StableHlo.nullary main_c_3 (constantI S_ 32 0#32),
    StableHlo.binary main_v14 main_c_3 main_v15 ((fun x v => Host.reduce IntOp.addi x v reducesTo_S64x65536_S64_d1 h_S_) : (⟨S64x65536, .i32⟩ : BufTy).Contents (Elt F) → (⟨S_, .i32⟩ : BufTy).Contents (Elt F) → (⟨S64, .i32⟩ : BufTy).Contents (Elt F)),
    StableHlo.nullary main_v16 (iotaInDim S65536 32 0),
    StableHlo.unary main_v16 main_v17 (broadcastInDim S1x65536 ![1] bcast_S65536_S1x65536_1 : (⟨S65536, .i32⟩ : BufTy).Contents (Elt F) → (⟨S1x65536, .i32⟩ : BufTy).Contents (Elt F)),
    StableHlo.unary main_v15 main_v18 (broadcastInDim S64x1 ![0] bcast_S64_S64x1_0 : (⟨S64, .i32⟩ : BufTy).Contents (Elt F) → (⟨S64x1, .i32⟩ : BufTy).Contents (Elt F)),
    StableHlo.unary main_v17 main_v19 (broadcastInDim S64x65536 ![0, 1] bcast_S1x65536_S64x65536_0_1 : (⟨S1x65536, .i32⟩ : BufTy).Contents (Elt F) → (⟨S64x65536, .i32⟩ : BufTy).Contents (Elt F)),
    StableHlo.unary main_v18 main_v20 (broadcastInDim S64x65536 ![0, 1] bcast_S64x1_S64x65536_0_1 : (⟨S64x1, .i32⟩ : BufTy).Contents (Elt F) → (⟨S64x65536, .i32⟩ : BufTy).Contents (Elt F)),
    StableHlo.binary main_v19 main_v20 main_v21 (cmpi .slt : (⟨S64x65536, .i32⟩ : BufTy).Contents (Elt F) → (⟨S64x65536, .i32⟩ : BufTy).Contents (Elt F) → (⟨S64x65536, .i1⟩ : BufTy).Contents (Elt F)) ]

/-- Second part: the position numbers to scatter, the zero table with a dummy slot per row, the row numbers. -/
abbrev rowOps : List (HloOp τ sig (Elt F)) :=
  [ StableHlo.nullary main_v22 (iotaInDim S65536 32 0),
    StableHlo.unary main_v22 main_v23 (broadcastInDim S1x65536 ![1] bcast_S65536_S1x65536_1 : (⟨S65536, .i32⟩ : BufTy).Contents (Elt F) → (⟨S1x65536, .i32⟩ : BufTy).Contents (Elt F)),
    StableHlo.unary main_v23 main_v24 (broadcastInDim S64x65536 ![0, 1] bcast_S1x65536_S64x65536_0_1 : (⟨S1x65536, .i32⟩ : BufTy).Contents (Elt F) → (⟨S64x65536, .i32⟩ : BufTy).Contents (Elt F)),
    StableHlo.nullary main_c_4 (constantI S_ 32 0#32),
    StableHlo.unary main_c_4 main_v25 (broadcastInDim S64x65537 ![] bcast_S_S64x65537 : (⟨S_, .i32⟩ : BufTy).Contents (Elt F) → (⟨S64x65537, .i32⟩ : BufTy).Contents (Elt F)),
    StableHlo.nullary main_v26 (iotaInDim S64 32 0),
    StableHlo.unary main_v26 main_v27 (broadcastInDim S64x1 ![0] bcast_S64_S64x1_0 : (⟨S64, .i32⟩ : BufTy).Contents (Elt F) → (⟨S64x1, .i32⟩ : BufTy).Contents (Elt F)),
    StableHlo.nullary main_c_5 (constantI S_ 32 0#32),
    StableHlo.unary main_c_5 main_v28 (broadcastInDim S64x1 ![] bcast_S_S64x1 : (⟨S_, .i32⟩ : BufTy).Contents (Elt F) → (⟨S64x1, .i32⟩ : BufTy).Contents (Elt F)),
    StableHlo.binary main_v27 main_v28 main_v29 (cmpi .slt : (⟨S64x1, .i32⟩ : BufTy).Contents (Elt F) → (⟨S64x1, .i32⟩ : BufTy).Contents (Elt F) → (⟨S64x1, .i1⟩ : BufTy).Contents (Elt F)),
    StableHlo.nullary main_c_6 (constantI S_ 32 64#32),
    StableHlo.unary main_c_6 main_v30 (broadcastInDim S64x1 ![] bcast_S_S64x1 : (⟨S_, .i32⟩ : BufTy).Contents (Elt F) → (⟨S64x1, .i32⟩ : BufTy).Contents (Elt F)),
    StableHlo.binary main_v27 main_v30 main_v31 (addi : (⟨S64x1, .i32⟩ : BufTy).Contents (Elt F) → (⟨S64x1, .i32⟩ : BufTy).Contents (Elt F) → (⟨S64x1, .i32⟩ : BufTy).Contents (Elt F)),
    StableHlo.ternary main_v29 main_v31 main_v27 main_v32 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)) ]

/-- Third part: the slots wrapped once if negative and joined with the row numbers into (row, slot) pairs. -/
abbrev pairOps : List (HloOp τ sig (Elt F)) :=
  [ StableHlo.nullary main_c_7 (constantI S_ 32 0#32),
    StableHlo.unary main_c_7 main_v33 (broadcastInDim S64x65536 ![] bcast_S_S64x65536 : (⟨S_, .i32⟩ : BufTy).Contents (Elt F) → (⟨S64x65536, .i32⟩ : BufTy).Contents (Elt F)),
    StableHlo.binary main_v13 main_v33 main_v34 (cmpi .slt : (⟨S64x65536, .i32⟩ : BufTy).Contents (Elt F) → (⟨S64x65536, .i32⟩ : BufTy).Contents (Elt F) → (⟨S64x65536, .i1⟩ : BufTy).Contents (Elt F)),
    StableHlo.nullary main_c_8 (constantI S_ 32 65537#32),
    StableHlo.unary main_c_8 main_v35 (broadcastInDim S64x65536 ![] bcast_S_S64x65536 : (⟨S_, .i32⟩ : BufTy).Contents (Elt F) → (⟨S64x65536, .i32⟩ : BufTy).Contents (Elt F)),
    StableHlo.binary main_v13 main_v35 main_v36 (addi : (⟨S64x65536, .i32⟩ : BufTy).Contents (Elt F) → (⟨S64x65536, .i32⟩ : BufTy).Contents (Elt F) → (⟨S64x65536, .i32⟩ : BufTy).Contents (Elt F)),
    StableHlo.ternary main_v34 main_v36 main_v13 main_v37 (select : (⟨S64x65536, .i1⟩ : BufTy).Contents (Elt F) → (⟨S64x65536, .i32⟩ : BufTy).Contents (Elt F) → (⟨S64x65536, .i32⟩ : BufTy).Contents (Elt F) → (⟨S64x65536, .i32⟩ : BufTy).Contents (Elt F)),
    StableHlo.unary main_v32 main_v38 (broadcastInDim S64x65536 ![0, 1] bcast_S64x1_S64x65536_0_1 : (⟨S64x1, .i32⟩ : BufTy).Contents (Elt F) → (⟨S64x65536, .i32⟩ : BufTy).Contents (Elt F)),
    StableHlo.unary main_v38 main_v39 (broadcastInDim S64x65536x1 ![0, 1] bcast_S64x65536_S64x65536x1_0_1 : (⟨S64x65536, .i32⟩ : BufTy).Contents (Elt F) → (⟨S64x65536x1, .i32⟩ : BufTy).Contents (Elt F)),
    StableHlo.unary main_v37 main_v40 (broadcastInDim S64x65536x1 ![0, 1] bcast_S64x65536_S64x65536x1_0_1 : (⟨S64x65536, .i32⟩ : BufTy).Contents (Elt F) → (⟨S64x65536x1, .i32⟩ : BufTy).Contents (Elt F)),
    StableHlo.binary main_v39 main_v40 main_v41 (catPair : (⟨S64x65536x1, .i32⟩ : BufTy).Contents (Elt F) → (⟨S64x65536x1, .i32⟩ : BufTy).Contents (Elt F) → (⟨S64x65536x2, .i32⟩ : BufTy).Contents (Elt F)) ]

/-- Fourth part: the scatter of the position numbers, the dummy slot dropped, the source transposed, the table broadcast over the features. -/
abbrev invOps : List (HloOp τ sig (Elt F)) :=
  [ StableHlo.ternary main_v25 main_v41 main_v24 main_v42 ((fun x i u => Host.scatter scatter_S64x65537_S64x65536x2_S64x65536_n_01_01_2 (fun _ b => b) x i u) : (⟨S64x65537, .i32⟩ : BufTy).Contents (Elt F) → (⟨S64x65536x2, .i32⟩ : BufTy).Contents (Elt F) → (⟨S64x65536, .i32⟩ : BufTy).Contents (Elt F) → (⟨S64x65537, .i32⟩ : BufTy).Contents (Elt F)),
    StableHlo.unary main_v42 main_v43 ((extractStridedSlice S64x65536 ![0, 0] · slices_S64x65537_S64x65536_0_0) : (⟨S64x65537, .i32⟩ : BufTy).Contents (Elt F) → (⟨S64x65536, .i32⟩ : BufTy).Contents (Elt F)),
    StableHlo.unary main_arg0 main_v44 ((transpose S64x6x65536 [0, 2, 1] · transposes_S64x65536x6_S64x6x65536_0_2_1) : (⟨S64x65536x6, .f32⟩ : BufTy).Contents (Elt F) → (⟨S64x6x65536, .f32⟩ : BufTy).Contents (Elt F)),
    StableHlo.unary main_v43 main_v45 (broadcastInDim S64x1x65536 ![0, 2] bcast_S64x65536_S64x1x65536_0_2 : (⟨S64x65536, .i32⟩ : BufTy).Contents (Elt F) → (⟨S64x1x65536, .i32⟩ : BufTy).Contents (Elt F)),
    StableHlo.unary main_v45 main_v46 (broadcastInDim S64x6x65536 ![0, 1, 2] bcast_S64x1x65536_S64x6x65536_0_1_2 : (⟨S64x1x65536, .i32⟩ : BufTy).Contents (Elt F) → (⟨S64x6x65536, .i32⟩ : BufTy).Contents (Elt F)) ]

attribute [local irreducible] Host.reduce Host.reduceWindow Host.gather Host.scatter in
/-- A typed reference made of a literal buffer is that buffer, and moving a value along its buffer's own type is the
    identity: the first outlined call's operations are the plain ones. -/
theorem flagOps_eq : (hostOps0 : List (HloOp τ sig (Elt F))) = flagOps := by
  delta hostOps0 flagOps
  iterate 22 (refine congrArg₂ List.cons (by rfl) ?_)
  rfl

attribute [local irreducible] Host.reduce Host.reduceWindow Host.gather Host.scatter in
/-- Likewise the second call's. -/
theorem countOps_eq : (hostOps0_2 : List (HloOp τ sig (Elt F))) = countOps := by
  delta hostOps0_2 countOps
  iterate 3 (refine congrArg₂ List.cons (by rfl) ?_)
  rfl

attribute [local irreducible] Host.reduce Host.reduceWindow Host.gather Host.scatter in
/-- Likewise the third call's. -/
theorem slotOps_eq : (hostOps0_4 : List (HloOp τ sig (Elt F))) = slotOps := by
  delta hostOps0_4 slotOps
  iterate 3 (refine congrArg₂ List.cons (by rfl) ?_)
  rfl

attribute [local irreducible] Host.reduce Host.reduceWindow Host.gather Host.scatter in
/-- Likewise the fourth call's. -/
theorem gatherOps_eq : (hostOps0_6 : List (HloOp τ sig (Elt F))) = gatherOps := by
  delta hostOps0_6 gatherOps
  iterate 22 (refine congrArg₂ List.cons (by rfl) ?_)
  rfl

/-- The second stretch with the join named. -/
theorem keepOps_eq : (hostOps0_1 : List (HloOp τ sig (Elt F))) = keepOps := rfl

/-- The sixth stretch is its four parts in order, the join named. -/
theorem sixth_split : (hostOps0_5 : List (HloOp τ sig (Elt F))) = lenOps ++ (rowOps ++ (pairOps ++ invOps)) := rfl

/-! Core `c`'s buffer contents after each stretch, from the launch contents on: each a definition, so that reading one
    stretch leaves the earlier ones folded. -/

/-- After the flags are read. -/
def W1 (c : Dev nD) : Valuation τ sig (Elt F) := StableHlo.after flagOps (fun b => m (c, b))
/-- After the keep mask. -/
def W2 (c : Dev nD) : Valuation τ sig (Elt F) := StableHlo.after keepOps (W1 m c)
/-- After the running count. -/
def W3 (c : Dev nD) : Valuation τ sig (Elt F) := StableHlo.after countOps (W2 m c)
/-- After the count minus one. -/
def W4 (c : Dev nD) : Valuation τ sig (Elt F) := StableHlo.after hostOps0_3 (W3 m c)
/-- After the slots. -/
def W5 (c : Dev nD) : Valuation τ sig (Elt F) := StableHlo.after slotOps (W4 m c)
/-- After the counts per row and the mask. -/
def W6 (c : Dev nD) : Valuation τ sig (Elt F) := StableHlo.after lenOps (W5 m c)
/-- After the position numbers and the row numbers. -/
def W7 (c : Dev nD) : Valuation τ sig (Elt F) := StableHlo.after rowOps (W6 m c)
/-- After the (row, slot) pairs. -/
def W8 (c : Dev nD) : Valuation τ sig (Elt F) := StableHlo.after pairOps (W7 m c)
/-- After the table of source positions and the transposed source. -/
def W9 (c : Dev nD) : Valuation τ sig (Elt F) := StableHlo.after invOps (W8 m c)

/-- The region-entry valuation: the last stretch over those contents. -/
theorem V0_split (c : Dev nD) : V0 m c = StableHlo.after gatherOps (W9 m c) := by
  unfold V0 W9 W8 W7 W6 W5 W4 W3 W2 W1
  simp only [List.flatten_cons, List.flatten_nil, List.append_nil, StableHlo.after_append]
  rw [flagOps_eq, keepOps_eq, countOps_eq, slotOps_eq, gatherOps_eq, sixth_split]
  simp only [StableHlo.after_append]

/-- One stretch of host operations read at the buffers the goal mentions, over the folded earlier contents. -/
macro "read_stretch" : tactic =>
  `(tactic| (simp only [flagOps, keepOps, countOps, hostOps0_3, slotOps, lenOps, rowOps, pairOps, invOps, gatherOps]; after_results_simp))

attribute [local irreducible] Host.reduce Host.reduceWindow Host.gather Host.scatter in
set_option maxRecDepth 8192 in
set_option maxHeartbeats 1000000 in
/-- The slot of each position, after the first five stretches: the running count minus one where the position is
    kept, the dummy slot where it is dropped. -/
theorem W5_pos (c : Dev nD) : (W5 m c (Proc.devRef .tc main_v13) : IVec S64x65536 32) = Cert.Skyline.posOf (keep m c) := by
  unfold W5
  read_stretch
  unfold W4
  read_stretch
  unfold W3
  read_stretch
  unfold W2
  read_stretch
  unfold W1
  read_stretch
  rfl

/-- No operation of the first five stretches writes the source rows. -/
theorem W5_src (c : Dev nD) : W5 m c (Proc.devRef .tc main_arg0) = m ((c.tc : Thread nD τ).loc main_arg0) := by
  unfold W5
  read_stretch
  unfold W4
  read_stretch
  unfold W3
  read_stretch
  unfold W2
  read_stretch
  unfold W1
  read_stretch

attribute [local irreducible] Host.reduce Host.reduceWindow Host.gather Host.scatter in
set_option maxRecDepth 8192 in
set_option maxHeartbeats 1000000 in
/-- The prefetched table the region finds: the count of kept positions of each row. -/
theorem V_len (c : Dev nD) : (V m c main_v15 : IVec S64 32) = Cert.Skyline.lenOf (keep m c) := by
  show V0 m c (Proc.devRef .tc main_v15) = _
  rw [V0_split]
  read_stretch
  unfold W9
  read_stretch
  unfold W8
  read_stretch
  unfold W7
  read_stretch
  unfold W6
  read_stretch
  unfold W5
  read_stretch
  unfold W4
  read_stretch
  unfold W3
  read_stretch
  unfold W2
  read_stretch
  unfold W1
  read_stretch
  rfl

attribute [local irreducible] Host.reduce Host.reduceWindow Host.gather Host.scatter in
set_option maxRecDepth 8192 in
set_option maxHeartbeats 1000000 in
/-- The second result, written before the region: slot `d` of row `b` is filled when `d` is below the row's count. -/
theorem V_mask (c : Dev nD) : (V m c main_v21 : IVec S64x65536 1) = Cert.Skyline.maskOf (Cert.Skyline.lenOf (keep m c)) := by
  show V0 m c (Proc.devRef .tc main_v21) = _
  rw [V0_split]
  read_stretch
  unfold W9
  read_stretch
  unfold W8
  read_stretch
  unfold W7
  read_stretch
  unfold W6
  read_stretch
  unfold W5
  read_stretch
  unfold W4
  read_stretch
  unfold W3
  read_stretch
  unfold W2
  read_stretch
  unfold W1
  read_stretch
  rfl

attribute [local irreducible] Host.reduce Host.reduceWindow Host.gather Host.scatter in
set_option maxRecDepth 8192 in
set_option maxHeartbeats 1000000 in
/-- The array the kernel's input window reads: the source transposed to [row, feature, position] and read along the
    position axis at the table of source positions per slot. -/
theorem V_gathered (c : Dev nD) : (V m c main_v47 : FVec F S64x6x65536 .f32)
    = Cert.Skyline.gatheredOf (m ((c.tc : Thread nD τ).loc main_arg0))
        (Cert.Skyline.invOf (Cert.Skyline.pairOf (Cert.Skyline.posOf (keep m c)))) := by
  show V0 m c (Proc.devRef .tc main_v47) = _
  rw [V0_split]
  read_stretch
  unfold W9
  read_stretch
  unfold W8
  read_stretch
  unfold W7
  read_stretch
  unfold W6
  read_stretch
  rw [W5_pos, W5_src]
  generalize Cert.Skyline.posOf (keep m c) = pos
  generalize m ((c.tc : Thread nD τ).loc main_arg0) = src
  rfl

/-- The table as the pipeline holds it (read on the one device) is that count. -/
theorem tbl_len : (tbl m 0 : IVec S64 32) = Cert.Skyline.lenOf (keep m 0) := V_len m 0

end Cert.KernelIdeal.KerValue

end
-- ==== Proof.KerBlock.lean ====
/-
  The array the pipeline's output window ends holding.

  Grid point `b` loads block `b` of the gathered array (one row: six features by 65536 slots) and the row's count
  from the prefetched table, and stores the block with every slot at or beyond the count replaced by zero.  Each
  block is written back once and the blocks tile the array, so the array ends as the gathered array padded with
  zeros beyond each row's count.  The gathered array and the table are kept as the names the region finds them by.
-/
import proofs.«175822_j4002909520703_2_alg».proof.Proof.KernelIdealFrameP
import proofs.«175822_j4002909520703_2_alg».proof.Proof.Spec
import Idealize.ShloMosaic.Lib.Pipeline.Value
import Idealize.ShloMosaic.Lib.Tactic
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.Tactic

variable {F : FTy → Type} [FloatOps F]
variable (m : (ℓ : Loc nD τ sig) → Buf (Elt F) ℓ)

theorem hz3 : (![0, 0, 0] : Fin 3 → Nat) = fun _ => 0 := funext fun a => by fin_cases a <;> rfl

/-- The row-count word the body reads at grid point `i`: the prefetched table at the point's own number. -/
abbrev rowWord (c : Dev nD) (i : grid0.Coords) (xt0 : TbBuf0 (F := F) c tbM0_0) : Elt F .i32 :=
  View.ld (View.read (Elt F) (View.whole main_v15) xt0)
    (Rect.unit (s := S64) ![BitVec.toNat (Scalar.indexCast (BitVec.ofNat 32 (i 0).val))] ![1] (k0_off1_inb i)) (Shape.Idx.first (by show 0 < (⟨1, ![1]⟩ : Shape).numel; decide))

/-- What the body leaves in the output block: its one store's value, the select of the loaded block against zero by
    the lane number compared with the row's count. -/
theorem out_A (c : Dev nD) (i : grid0.Coords) (a2 : Memref sig .tc .vmem S1x6x65536 .f32) (h2 : a2.IsWhole)
    (a3 : Memref sig .tc .vmem S1x6x65536 .f32) (h3 : a3.IsWhole)
    (x0 : Vec F S1x6x65536 .f32) (xt0 : TbBuf0 (F := F) c tbM0_0) :
    GenP.out0_A_1 c i a2 h2 a3 h3 x0 xt0 = k0_pay1 (rowWord c i xt0) x0 := by
  unfold GenP.out0_A_1
  rw [View.read_writes_eq_canon _ _ _ (GenP.cover0_A_1 c i a2 h2 a3 h3 x0 xt0)]
  unfold kernelRun0_A
  dsimp only
  sl_unfold_words
  rw [View.canon_unit_zero hz3]
  simp only [View.readAt_eq_ld, h2.read_unread, View.ld_unit_zero (S := S1x6x65536) hz3]

/-- The store's value at an element of the block. -/
theorem pay_apply (v2 : Elt F .i32) (v5 : Vec F S1x6x65536 .f32) (y : S1x6x65536.Idx) :
    k0_pay1 v2 v5 y = Scalar.select (IntOp.cmpi .slt (BitVec.ofNat 32 (y 2).val) v2) (v5 y) (FloatOps.ofBits .f32 0x00000000#32) := by
  unfold k0_pay1
  show Scalar.select (IntOp.cmpi .slt (iota .tc S1x6x65536 32 [2] iota_S1x6x65536_d2_w32 y) v2)
    (shapeCast S1x6x65536 v5 shapeCasts_S1x6x65536_S1x6x65536 y) _ = _
  rw [shapeCast_self]
  show Scalar.select (IntOp.cmpi .slt (BitVec.ofNat 32 (0 * 65536 + (y 2).val)) v2) (v5 y)
    (FloatOps.ofBits .f32 0x00000000#32) = _
  rw [Nat.zero_mul, Nat.zero_add]

/-- The row-count word is the table's entry at the point's number (the table a variable: its contents are never opened). -/
theorem rowWord_eq (c : Dev nD) (i : grid0.Coords) (xt0 : TbBuf0 (F := F) c tbM0_0) (q : Fin 64)
    (hq : q.val = (BitVec.ofNat 32 (i 0).val).toNat) :
    rowWord c i xt0 = (xt0 : IVec S64 32) (ValueIdx.ix1 (n := 64) q) := by
  show (xt0 : IVec S64 32) _ = _
  refine congrArg _ (funext fun a => Fin.ext ?_)
  match a with
  | ⟨0, _⟩ =>
    show (BitVec.ofNat 32 (i 0).val).toNat + 1 * 0 = q.val
    omega

set_option backward.isDefEq.respectTransparency.types false in
/-- An input block read at an element is the array at the element's place (the array's contents a variable). -/
theorem read_blk0 (hO : Ok m) (c : Dev nD) (t : Fin (cfgM m hO).N)
    (X : (b : Ref sig .tc) → Buf (Elt F) ((c : Thread nD τ).loc b))
    (y : (((cfgM m hO).win 0).xblock ((cfgM m hO).grid.coords t)).Idx) :
    View.read (Elt F) (((cfgM m hO).win 0).blk t).view (X (Pipeline.arrRef spec0 0)) y
      = (X main_v47 : FVec F S64x6x65536 .f32) ((((cfgM m hO).win 0).blk t).view.emb y) := by
  rfl

/-- The padded array at an index, from its three ingredients. -/
theorem pad_at (T : IVec S64 32) (X : FVec F S64x6x65536 .f32) (e : S64x6x65536.Idx) (w : BitVec 32) (l : ℕ) (v : F .f32)
    (hw : w = T (ValueIdx.ix1 (n := 64) (e 0))) (hl : l = (e 2).val) (hv : v = X e) :
    Scalar.select (IntOp.cmpi .slt (BitVec.ofNat 32 l) w) v (FloatOps.ofBits .f32 0x00000000#32)
      = Cert.Skyline.padOf T X e := by
  subst hw hl hv; rfl

/-- The array the pipeline's output window ends holding, as one function of the region-entry contents: the gathered
    array padded with zeros beyond each row's prefetched count. -/
abbrev G1 (hO : Ok m) (c : Dev nD) : S64x6x65536.Idx → Elt F .f32 :=
  Cert.Skyline.padOf (F := F) (tbl m 0 : IVec S64 32) (V m c main_v47 : FVec F S64x6x65536 .f32)

set_option maxHeartbeats 200000 in
set_option backward.isDefEq.respectTransparency.types false in
/-- WHAT POINT `t` WRITES BACK is block `t` of that array. -/
theorem flushed_eq (hO : Ok m) (c : Dev nD) (t : Fin (cfgM m hO).N) :
    (GenP.dats m hO 0 c).flushed 1 t = (((cfgM m hO).win 1).blk t).view.read (Elt F) (G1 m hO c) := by
  show ((cfgM m hO).win 1).cut (grid0.coords t) ((GenP.dats m hO 0 c).after 1 t) = _
  rw [GenP.after0_1]
  unfold GenP.outsAt0
  rw [out_A]
  funext y
  refine (pay_apply _ _ (((cfgM m hO).win 1).xinj (grid0.coords t) y)).trans ?_
  rw [View.read_apply]
  -- the element inside the block, and its place in the array
  obtain ⟨y3, hy3⟩ : ∃ y3 : S1x6x65536.Idx, y3 = ((cfgM m hO).win 1).xinj (grid0.coords t) y := ⟨_, rfl⟩
  obtain ⟨e, he⟩ : ∃ e : S64x6x65536.Idx, e = (((cfgM m hO).win 1).blk t).view.emb y := ⟨_, rfl⟩
  have h0 : (e 0 : ℕ) = (BitVec.ofNat 32 (grid0.coords t 0).val).toNat * 1 + 1 * (y3 0).val := by rw [he, hy3]; rfl
  have h1 : (e 1 : ℕ) = 0 * 6 + 1 * (y3 1).val := by rw [he, hy3]; rfl
  have h2 : (e 2 : ℕ) = 0 * 65536 + 1 * (y3 2).val := by rw [he, hy3]; rfl
  have hb : (((cfgM m hO).win 0).blk t).view.emb (((cfgM m hO).win 1).xinj (grid0.coords t) y) = e := by
    rw [he]
    funext a; apply Fin.ext
    match a with
    | ⟨0, _⟩ => rfl
    | ⟨1, _⟩ => rfl
    | ⟨2, _⟩ => rfl
  have hy0 : (y3 0).val = 0 := by have : (y3 0).val < 1 := (y3 0).isLt; omega
  have hw : rowWord c (grid0.coords t) (tbl m 0) = (tbl m 0 : IVec S64 32) (ValueIdx.ix1 (n := 64) (e 0)) :=
    rowWord_eq c (grid0.coords t) (tbl m 0) (e 0) (by rw [h0, hy0]; omega)
  have hl : (y3 2).val = (e 2).val := by rw [h2]; omega
  have hv : iblk m hO c 0 t (((cfgM m hO).win 1).xinj (grid0.coords t) y) = (V m c main_v47 : FVec F S64x6x65536 .f32) e := by
    rw [← hb]
    exact read_blk0 m hO c t (V m c) _
  have key := pad_at (F := F) (tbl m 0 : IVec S64 32) (V m c main_v47) e _ _ _ hw hl hv
  rw [hy3, he] at key
  exact key.trans (cast_eq _ _).symm

/-- Every row of the array is the block of some grid point. -/
theorem idx_onto : ∀ (q0 : Fin 64), ∃ t : Fin grid0.N, cc0_transform_1 (grid0.coords t) = ![q0.val, 0, 0] := by
  decide +kernel

set_option backward.isDefEq.respectTransparency.types false in
/-- An index of the array is in point `t`'s block iff each coordinate is in the block's range on its axis. -/
theorem mem_blk (hO : Ok m) (t : Fin (cfgM m hO).N) (i : S64x6x65536.Idx) :
    i ∈ (((cfgM m hO).win 1).blk t).view.set ↔ ∀ a : Fin 3, ((cfgM m hO).win 1).index t a * S1x6x65536.size a ≤ (i a).val
      ∧ (i a).val < ((cfgM m hO).win 1).index t a * S1x6x65536.size a + S1x6x65536.size a := by
  show i ∈ ((View.whole main_v48).slice (((cfgM m hO).win 1).rect t)).set ↔ _
  rw [View.set_slice_whole]
  exact Rect.mem_set_unit

/-- Every index of the array is in the block of a point that writes its block back: the point of the index's row. -/
theorem cover (hO : Ok m) (i : S64x6x65536.Idx) :
    ∃ t : Fin (cfgM m hO).N, ((cfgM m hO).win 1).flush t = true ∧ i ∈ (((cfgM m hO).win 1).blk t).view.set := by
  obtain ⟨t, ht⟩ := idx_onto (i 0)
  have hi0 : (i 0).val < 64 := (i 0).isLt
  have hi1 : (i 1).val < 6 := (i 1).isLt
  have hi2 : (i 2).val < 65536 := (i 2).isLt
  have q0 : ((cfgM m hO).win 1).index t (0 : Fin 3) = (i 0).val := congrFun ht 0
  have q1 : ((cfgM m hO).win 1).index t (1 : Fin 3) = 0 := congrFun ht 1
  have q2 : ((cfgM m hO).win 1).index t (2 : Fin 3) = 0 := congrFun ht 2
  refine ⟨t, flush0_1 (adm m hO) t, ?_⟩
  rw [mem_blk]
  intro a
  match a with
  | ⟨0, _⟩ =>
    show ((cfgM m hO).win 1).index t (0 : Fin 3) * 1 ≤ (i 0).val ∧ (i 0).val < ((cfgM m hO).win 1).index t (0 : Fin 3) * 1 + 1
    omega
  | ⟨1, _⟩ =>
    show ((cfgM m hO).win 1).index t (1 : Fin 3) * 6 ≤ (i 1).val ∧ (i 1).val < ((cfgM m hO).win 1).index t (1 : Fin 3) * 6 + 6
    omega
  | ⟨2, _⟩ =>
    show ((cfgM m hO).win 1).index t (2 : Fin 3) * 65536 ≤ (i 2).val ∧ (i 2).val < ((cfgM m hO).win 1).index t (2 : Fin 3) * 65536 + 65536
    omega

/-- THE ARRAY after the run: the gathered array as the region finds it, padded with zeros beyond each row's
    prefetched count. -/
theorem arr1_final (hO : Ok m) (c : Dev nD) :
    (GenP.dats m hO 0 c).arrAt 1 (cfgM m hO).N = Cert.Skyline.padOf (F := F) (tbl m 0 : IVec S64 32) (V m c main_v47) :=
  (GenP.dats m hO 0 c).arrAt_eq_of_cover 1 (G1 m hO c) (fun t _ => flushed_eq m hO c t) (cover m hO)

end Cert.KernelIdeal.KerValue
end
-- ==== Proof.KerRun.lean ====
/-
  The kernel's program at the ideal instance, read off its frame run.

  The one pallas_call zero-pads, row by row, the transposed source gathered through the table of source positions
  per slot; its output window's blocks (one row each) tile the output array, so after the run that array is the
  padded array as a whole.  The three lines after the region transpose it back into the first result and write a
  zero per row into the third; the second result, the mask of the filled slots, was written before the region and
  is no array of the pipeline, so it ends as the region found it.  With the region-entry contents read as the
  shared specification's terms, the three results are the specification's.
-/
import proofs.«175822_j4002909520703_2_alg».proof.Proof.KernelIdealFrameP
import proofs.«175822_j4002909520703_2_alg».proof.Proof.KerHost
import proofs.«175822_j4002909520703_2_alg».proof.Proof.KerBlock
import Idealize.ShloMosaic.Lib.Pipeline.Value
import Idealize.ShloMosaic.Lib.Tactic

noncomputable section

namespace Cert.KernelIdeal.KerValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The output window's array after the run, at its literal shape. -/
abbrev outArr (hO : Ok m) (c : Dev nD) : FVec F S64x6x65536 .f32 := (GenP.dats m hO 0 c).arrAt 1 (cfgM m hO).N

/-! ## The lines after the region -/

/-- They leave in the first result's buffer the transpose of the output window's final array. -/
theorem tail_out (hO : Ok m) (c : Dev nD) :
    Pipeline.afterTail pcfgs (fun _ => adm m hO) (GenP.dats m hO) 0 (V0 m) [hostOps1] c main_v49
      = transpose S64x65536x6 [0, 2, 1] (outArr m hO c) transposes_S64x6x65536_S64x65536x6_0_2_1 := by
  unfold Pipeline.afterTail
  show StableHlo.after hostOps1 _ (Proc.devRef .tc main_v49) = _
  after_results
  exact congrArg (fun X : FVec F S64x6x65536 .f32 => transpose S64x65536x6 [0, 2, 1] X transposes_S64x6x65536_S64x65536x6_0_2_1)
    (Pipeline.withArrays_arr spec0 winFacts0.arr_inj c _ _ (1 : Fin 2))

/-- They leave a zero per row in the third result's buffer. -/
theorem tail_zeros (hO : Ok m) (c : Dev nD) :
    Pipeline.afterTail pcfgs (fun _ => adm m hO) (GenP.dats m hO) 0 (V0 m) [hostOps1] c main_v50 = Cert.Skyline.zeros64 := by
  unfold Pipeline.afterTail
  show StableHlo.after hostOps1 _ (Proc.devRef .tc main_v50) = _
  after_results
  rfl

/-- They do not touch the second result's buffer, written before the region and no array of the pipeline. -/
theorem tail_mask (hO : Ok m) (c : Dev nD) :
    Pipeline.afterTail pcfgs (fun _ => adm m hO) (GenP.dats m hO) 0 (V0 m) [hostOps1] c main_v21 = V m c main_v21 := by
  unfold Pipeline.afterTail
  rw [StableHlo.after_of_forall_not_mem (b := Proc.devRef .tc main_v21) _ _ (List.forall_iff_forall_mem.mp (by
      simp only [hostOps1, List.flatten_cons, List.flatten_nil, List.append_nil, List.cons_append,
        List.nil_append, List.Forall, StableHlo.nullary_writes, StableHlo.unary_writes, Finset.mem_singleton]
      repeat' apply And.intro
      all_goals exact StableHlo.devRef_ne_of_ne (by decide))),
    Pipeline.withArrays_of_ne _ c (V0 m c) _ main_v21 (by exact (by decide : ∀ w, Pipeline.arrRef spec0 w ≠ main_v21))]

/-! ## The output window's final array, in the specification's terms -/

/-- After the run the output array holds, whole, the gathered rows zero-padded from each row's count on. -/
theorem arr1_spec (hO : Ok m) (c : Dev nD) :
    outArr m hO c
      = Cert.Skyline.padOf (F := F) (Cert.Skyline.lenOf (keep m c))
          (Cert.Skyline.gatheredOf (m ((c.tc : Thread nD τ).loc main_arg0))
            (Cert.Skyline.invOf (Cert.Skyline.pairOf (Cert.Skyline.posOf (keep m c))))) := by
  obtain rfl : c = 0 := Subsingleton.elim _ _
  exact (arr1_final m hO 0).trans (congrArg₂ (Cert.Skyline.padOf (F := F)) (tbl_len m) (V_gathered m 0))

/-! ## The run, read -/

/-- At the ideal instance, for any contents of the arguments, from any memory with zero counters: every weakly fair
    execution of the kernel's program terminates with the first result the rows gathered through the table of source
    positions, zero-padded and transposed back, the second the mask of the filled slots, the third a zero per row,
    and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v49)
        = Cert.Skyline.gatherOut (F := Ideal) (m ((c.tc : Thread nD τ).loc main_arg0)) (Cert.Skyline.lenOf (keep m c))
            (Cert.Skyline.pairOf (Cert.Skyline.posOf (keep m c)))
      ∧ r.2.mem ((c.tc : Thread nD τ).loc main_v21) = Cert.Skyline.maskOf (Cert.Skyline.lenOf (keep m c))
      ∧ r.2.mem ((c.tc : Thread nD τ).loc main_v50) = Cert.Skyline.zeros64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(((h c).2 main_v49 (by decide : main_v49 ∈ Pipeline.restRefs sig spec0)).trans (tail_out m trivial c)).trans
        (congrArg (fun X : FVec Ideal S64x6x65536 .f32 => transpose S64x65536x6 [0, 2, 1] X transposes_S64x6x65536_S64x65536x6_0_2_1)
          (arr1_spec m trivial c)),
      (((h c).2 main_v21 (by decide : main_v21 ∈ Pipeline.restRefs sig spec0)).trans (tail_mask m trivial c)).trans (V_mask m c),
      ((h c).2 main_v50 (by decide : main_v50 ∈ Pipeline.restRefs sig spec0)).trans (tail_zeros m trivial c),
      ((h c).2 main_arg0 (by decide : main_arg0 ∈ Pipeline.restRefs sig spec0)).trans (W_main_arg0 m trivial (GenP.dats m trivial) c),
      ((h c).2 main_arg1 (by decide : main_arg1 ∈ Pipeline.restRefs sig spec0)).trans (W_main_arg1 m trivial (GenP.dats m trivial) c),
      ((h c).2 main_arg2 (by decide : main_arg2 ∈ Pipeline.restRefs sig spec0)).trans (W_main_arg2 m trivial (GenP.dats m trivial) c)⟩)
    (GenP.run_main m ρ trivial)

end Cert.KernelIdeal.KerValue

end
-- ==== Proof.Counting.lean ====
/-
  Counting the kept positions of a row.

  `Kept keep b s` says position `s` of row `b` carries the keep flag; `cnt keep b n` counts the kept positions below
  `n`.  The count grows by one exactly at a kept position, so among kept positions the count is injective, and every
  value below the count at `n` is taken at exactly one kept position below `n`.
-/
import Mathlib.Data.Nat.Count
import Idealize.ShloMosaic.Lib.ValueIdx
import proofs.«175822_j4002909520703_2_alg».proof.Proof.Spec

noncomputable section

namespace Cert.Skyline

open Idealize.ShloMosaic Idealize.ShloMosaic.ValueIdx

/-- Position `s` of row `b` is kept. -/
def Kept (keep : IVec S64x65536 1) (b : Fin 64) (s : ℕ) : Prop :=
  ∃ h : s < 65536, keep (ix2 b (⟨s, h⟩ : Fin 65536)) = 1#1

instance (keep : IVec S64x65536 1) (b : Fin 64) : DecidablePred (Kept keep b) := fun s => by
  unfold Kept; infer_instance

/-- The number of kept positions of row `b` below `n`. -/
def cnt (keep : IVec S64x65536 1) (b : Fin 64) (n : ℕ) : ℕ := Nat.count (Kept keep b) n

variable (keep : IVec S64x65536 1) (b : Fin 64)

theorem cnt_zero : cnt keep b 0 = 0 := Nat.count_zero _

theorem cnt_succ (n : ℕ) : cnt keep b (n + 1) = cnt keep b n + if Kept keep b n then 1 else 0 :=
  Nat.count_succ _ _

theorem cnt_le (n : ℕ) : cnt keep b n ≤ n := Nat.count_le _

theorem cnt_mono {m n : ℕ} (h : m ≤ n) : cnt keep b m ≤ cnt keep b n := Nat.count_monotone _ h

/-- At a kept position the count steps up. -/
theorem cnt_succ_of_kept {s : ℕ} (h : Kept keep b s) : cnt keep b (s + 1) = cnt keep b s + 1 := by
  rw [cnt_succ, if_pos h]

/-- A kept position's count (itself included) is positive. -/
theorem cnt_pos_of_kept {s : ℕ} (h : Kept keep b s) : 0 < cnt keep b (s + 1) := by
  rw [cnt_succ_of_kept keep b h]; exact Nat.succ_pos _

/-- Two kept positions with one count are one position. -/
theorem cnt_inj {s s' : ℕ} (h : Kept keep b s) (h' : Kept keep b s')
    (e : cnt keep b (s + 1) = cnt keep b (s' + 1)) : s = s' := by
  rw [cnt_succ_of_kept keep b h, cnt_succ_of_kept keep b h'] at e
  exact Nat.count_injective h h' (Nat.add_right_cancel e)

/-- Every value below the count at `n` is the count, less one, of a kept position below `n`. -/
theorem exists_kept_of_lt_cnt : ∀ (n d : ℕ), d < cnt keep b n → ∃ s, s < n ∧ Kept keep b s ∧ cnt keep b (s + 1) = d + 1
  | 0, d, h => by rw [cnt_zero] at h; exact absurd h (Nat.not_lt_zero _)
  | n + 1, d, h => by
    by_cases hd : d < cnt keep b n
    · obtain ⟨s, hs, hk, hc⟩ := exists_kept_of_lt_cnt n d hd
      exact ⟨s, Nat.lt_succ_of_lt hs, hk, hc⟩
    · rw [cnt_succ] at h
      by_cases hk : Kept keep b n
      · rw [if_pos hk] at h
        refine ⟨n, Nat.lt_succ_self n, hk, ?_⟩
        rw [cnt_succ_of_kept keep b hk]; omega
      · rw [if_neg hk] at h; omega

end Cert.Skyline

end
-- ==== Proof.LibFoldCount.lean ====
/-
  Word sums as natural-number sums.

  A left fold of 32-bit (or any width) word addition over a list, or a fold over a finite set, is the starting word
  plus the word of the natural-number sum of the terms' values: no overflow reasoning is needed in this form, since
  taking the word of a natural number is additive.  Two array operations open to such folds: a running sum along the
  rows of a two-axis array written as a window of the whole row padded in front (the term at window position n of
  result column s is the operand's column s + n - L, or nothing when that is negative), and a row sum written as a
  reduction over the second axis.  Both are stated over general extents R and N.
-/
import Mathlib.Data.Nat.Count
import Mathlib.Algebra.BigOperators.Fin
import Idealize.ShloMosaic.PureOps.Reduce
import Idealize.ShloMosaic.Lib.ValueIdx

namespace Cert.FoldCount

open Idealize.ShloMosaic Idealize.ShloMosaic.ValueIdx

/-- A left fold of word addition over a list is the start plus the word of the sum of the terms' values. -/
theorem foldl_addi_eq {ι : Type} {w : ℕ} (g : ι → BitVec w) :
    ∀ (l : List ι) (init : BitVec w),
      l.foldl (fun r n => IntOp.addi r (g n)) init = init + BitVec.ofNat w ((l.map fun n => (g n).toNat).sum)
  | [], init => by simp
  | a :: l, init => by
    rw [List.foldl_cons, foldl_addi_eq g l, List.map_cons, List.sum_cons, BitVec.ofNat_add, BitVec.ofNat_toNat,
      BitVec.setWidth_eq]
    show init + g a + _ = _
    rw [BitVec.add_assoc]

/-- A fold of word addition over a finite set is the start plus the word of the sum of the terms' values. -/
theorem fold_addi_eq {ι : Type} {w : ℕ} (g : ι → BitVec w) (init : BitVec w) (S : Finset ι) :
    S.fold IntOp.addi init g = init + BitVec.ofNat w (∑ i ∈ S, (g i).toNat) := by
  induction S using Finset.cons_induction with
  | empty => simp
  | cons a S ha ih =>
    rw [Finset.fold_cons, Finset.sum_cons, ih, BitVec.ofNat_add, BitVec.ofNat_toNat, BitVec.setWidth_eq]
    show g a + (init + _) = _
    rw [← BitVec.add_assoc, BitVec.add_comm (g a) init, BitVec.add_assoc]

/-- A sum of indicators below n is the count. -/
theorem sum_range_ite_eq_count (P : ℕ → Prop) [DecidablePred P] (n : ℕ) :
    (∑ k ∈ Finset.range n, if P k then 1 else 0) = Nat.count P n := by
  rw [Nat.count_eq_card_filter_range, Finset.card_filter]

/-- The element count of a two-axis shape. -/
theorem numel_two (d : Fin 2 → ℕ) : (⟨2, d⟩ : Shape).numel = d 0 * d 1 := Fin.prod_univ_two d

/-- The window index at flat position n of a one-row window has row 0 and column n. -/
theorem window_coord {N : ℕ} (n : Fin (⟨2, ![1, N]⟩ : Shape).numel) :
    (((⟨2, ![1, N]⟩ : Shape).rowMajor.symm n 0 : ℕ) = 0) ∧ (((⟨2, ![1, N]⟩ : Shape).rowMajor.symm n 1 : ℕ) = n.val) := by
  have h2 := Shape.rowMajor_val_two ((⟨2, ![1, N]⟩ : Shape).rowMajor.symm n)
  rw [Equiv.apply_symm_apply] at h2
  have h0 : (((⟨2, ![1, N]⟩ : Shape).rowMajor.symm n 0 : ℕ)) < 1 := ((⟨2, ![1, N]⟩ : Shape).rowMajor.symm n 0).isLt
  have h0' : (((⟨2, ![1, N]⟩ : Shape).rowMajor.symm n 0 : ℕ)) = 0 := by omega
  rw [h0', Nat.zero_mul, Nat.zero_add] at h2
  exact ⟨h0', h2.symm⟩

/-- A running sum along the rows, written as a window of the whole row padded by L = N - 1 in front: the element at
    row b, column s is the word of the sum of the values of columns 0..s of row b. -/
theorem reduceWindow_cumsum_apply {R N L : ℕ} (hL : L + 1 = N) (x : IVec ⟨2, ![R, N]⟩ 32) (init : IVec ⟨0, ![]⟩ 32)
    (h : (⟨2, ![R, N]⟩ : Shape).ReduceWindows ![1, N] ![1, 1] ![0, L] ![0, 0] ⟨2, ![R, N]⟩)
    (hu : 0 < (⟨0, ![]⟩ : Shape).numel) (hinit : init (Shape.Idx.first hu) = 0#32) (b : Fin R) (s : Fin N) :
    Host.reduceWindow IntOp.addi ![1, N] ![1, 1] ![0, L] ![0, 0] x init h hu (ix2 b s)
      = BitVec.ofNat 32 (∑ k ∈ Finset.range (s.val + 1), if hk : k < N then (x (ix2 b ⟨k, hk⟩)).toNat else 0) := by
  have hnum : (⟨2, ![1, N]⟩ : Shape).numel = N := by rw [numel_two]; simp
  have hs := s.isLt
  have hb := b.isLt
  unfold Host.reduceWindow
  dsimp only
  rw [foldl_addi_eq, hinit, BitVec.zero_add, ← Fin.sum_univ_def]
  congr 1
  trans ∑ n : Fin (⟨2, ![1, N]⟩ : Shape).numel,
      (if L ≤ s.val + n.val then (if hk : s.val + n.val - L < N then (x (ix2 b ⟨s.val + n.val - L, hk⟩)).toNat else 0) else 0)
  · refine Finset.sum_congr rfl fun n _ => ?_
    obtain ⟨h0, h1⟩ := window_coord n
    have hn : n.val < N := lt_of_lt_of_eq n.isLt hnum
    by_cases hc : L ≤ s.val + n.val
    · rw [if_pos hc, dif_pos (by omega : s.val + n.val - L < N), dif_pos]
      · congr 2
        funext a
        refine Fin.ext ?_
        match a with
        | ⟨0, _⟩ =>
          show b.val * 1 + ((⟨2, ![1, N]⟩ : Shape).rowMajor.symm n 0).val - 0 = b.val
          omega
        | ⟨1, _⟩ =>
          show s.val * 1 + ((⟨2, ![1, N]⟩ : Shape).rowMajor.symm n 1).val - L = s.val + n.val - L
          omega
      · intro a
        match a with
        | ⟨0, _⟩ =>
          show 0 ≤ b.val * 1 + ((⟨2, ![1, N]⟩ : Shape).rowMajor.symm n 0).val
            ∧ b.val * 1 + ((⟨2, ![1, N]⟩ : Shape).rowMajor.symm n 0).val - 0 < R
          omega
        | ⟨1, _⟩ =>
          show L ≤ s.val * 1 + ((⟨2, ![1, N]⟩ : Shape).rowMajor.symm n 1).val
            ∧ s.val * 1 + ((⟨2, ![1, N]⟩ : Shape).rowMajor.symm n 1).val - L < N
          omega
    · rw [if_neg hc, dif_neg]
      · rfl
      · intro hin
        have h1' := (hin ⟨1, by decide⟩).1
        have : L ≤ s.val * 1 + ((⟨2, ![1, N]⟩ : Shape).rowMajor.symm n 1).val := h1'
        omega
  · rw [Fin.sum_univ_eq_sum_range
      (fun k => if L ≤ s.val + k then (if hk : s.val + k - L < N then (x (ix2 b ⟨s.val + k - L, hk⟩)).toNat else 0) else 0),
      hnum, ← Finset.sum_filter]
    refine Finset.sum_nbij' (fun k => s.val + k - L) (fun k => k + L - s.val) ?_ ?_ ?_ ?_ ?_
    · intro k hk
      simp only [Finset.mem_filter, Finset.mem_range] at hk ⊢
      omega
    · intro k hk
      simp only [Finset.mem_filter, Finset.mem_range] at hk ⊢
      omega
    · intro k hk
      simp only [Finset.mem_filter, Finset.mem_range] at hk
      show s.val + k - L + L - s.val = k
      omega
    · intro k hk
      simp only [Finset.mem_range] at hk
      show s.val + (k + L - s.val) - L = k
      omega
    · intro k hk
      rfl

/-- Dropping the second axis of a two-axis index leaves its row. -/
theorem drop_row_eq_iff {R N : ℕ} (h : (⟨2, ![R, N]⟩ : Shape).ReducesTo [1] ⟨1, ![R]⟩) (i : (⟨2, ![R, N]⟩ : Shape).Idx)
    (b : Fin R) : h.drop i = ix1 b ↔ (i 0).val = b.val := by
  have hv : (h.drop i 0 : ℕ) = (i 0).val := rfl
  constructor
  · intro e
    rw [← hv, e]
    rfl
  · intro e
    funext a
    match a with
    | ⟨0, _⟩ => exact Fin.ext (hv.trans e)

/-- A row sum written as a reduction over the second axis from the start 0: the element at row b is the word of the
    sum of the values of the row's columns. -/
theorem reduce_rowsum_apply {R N : ℕ} (x : IVec ⟨2, ![R, N]⟩ 32) {u : Shape} (init : IVec u 32)
    (h : (⟨2, ![R, N]⟩ : Shape).ReducesTo [1] ⟨1, ![R]⟩) (hu : 0 < u.numel)
    (hinit : init (Shape.Idx.first hu) = 0#32) (b : Fin R) :
    Host.reduce IntOp.addi x init h hu (ix1 b)
      = BitVec.ofNat 32 (∑ k ∈ Finset.range N, if hk : k < N then (x (ix2 b ⟨k, hk⟩)).toNat else 0) := by
  rw [Host.reduce_eq_fold, fold_addi_eq, hinit, BitVec.zero_add]
  congr 1
  refine Finset.sum_bij (fun i _ => (i 1).val) ?_ ?_ ?_ ?_
  · intro i _
    exact Finset.mem_range.2 (idx2_lt1 i)
  · intro i hi i' hi' e
    rw [Finset.mem_filter, drop_row_eq_iff] at hi hi'
    rw [eq_ix2 i, eq_ix2 i']
    have e0 : i 0 = i' 0 := Fin.ext (hi.2.trans hi'.2.symm)
    have e1 : i 1 = i' 1 := Fin.ext e
    rw [e0, e1]
  · intro k hk
    have hk' := Finset.mem_range.1 hk
    refine ⟨ix2 b ⟨k, hk'⟩, ?_, rfl⟩
    rw [Finset.mem_filter, drop_row_eq_iff]
    exact ⟨Finset.mem_univ _, rfl⟩
  · intro i hi
    rw [Finset.mem_filter, drop_row_eq_iff] at hi
    rw [dif_pos (idx2_lt1 i)]
    congr 2
    funext a
    match a with
    | ⟨0, _⟩ => exact Fin.ext hi.2
    | ⟨1, _⟩ => rfl

end Cert.FoldCount
-- ==== Proof.CountWords.lean ====
/-
  The running count and the row count of kept positions, as words.

  The running count of a row is a window sum of the widened keep flags, the row count their sum over the whole row.
  Each widened flag is worth one at a kept position and nothing elsewhere, so the running count at position s is the
  word of the number of kept positions among 0..s, and the row count the word of the number of kept positions of the
  row.
-/
import proofs.«175822_j4002909520703_2_alg».proof.Proof.Spec
import proofs.«175822_j4002909520703_2_alg».proof.Proof.Counting
import proofs.«175822_j4002909520703_2_alg».proof.Proof.LibFoldCount

namespace Cert.Skyline

open Idealize.ShloMosaic Idealize.ShloMosaic.ValueIdx

/-- The widened keep flag of a position is worth one when the position is kept and nothing otherwise (a position
    beyond the row counting for nothing). -/
theorem keepWord_toNat (keep : IVec S64x65536 1) (b : Fin 64) (k : ℕ) :
    (if hk : k < 65536 then ((extui 32 keep (by decide) : IVec S64x65536 32) (ix2 b ⟨k, hk⟩)).toNat else 0)
      = if Kept keep b k then 1 else 0 := by
  by_cases hk : k < 65536
  · rw [dif_pos hk]
    show ((keep (ix2 b ⟨k, hk⟩)).setWidth 32).toNat = _
    rcases BitVec.eq_zero_or_eq_one (keep (ix2 b ⟨k, hk⟩)) with h0 | h1
    · have hnk : ¬ Kept keep b k := fun ⟨_, e⟩ => by
        rw [h0] at e
        exact absurd e (by decide)
      rw [if_neg hnk, h0]
      rfl
    · rw [if_pos ⟨hk, h1⟩, h1]
      rfl
  · rw [dif_neg hk, if_neg (fun ⟨h, _⟩ => hk h)]

/-- The running count at position s of row b is the word of the number of kept positions among 0..s. -/
theorem runCount_apply (keep : IVec S64x65536 1) (b : Fin 64) (s : Fin 65536) :
    runCount keep (ix2 b s) = BitVec.ofNat 32 (cnt keep b (s.val + 1)) := by
  unfold runCount
  refine (Cert.FoldCount.reduceWindow_cumsum_apply (R := 64) (N := 65536) (L := 65535) rfl
    (extui 32 keep (by decide)) _ _ h_S_ rfl b s).trans ?_
  rw [Finset.sum_congr rfl (fun k _ => keepWord_toNat keep b k), Cert.FoldCount.sum_range_ite_eq_count]
  rfl

/-- The row count of row b is the word of the number of kept positions of the row. -/
theorem lenOf_apply (keep : IVec S64x65536 1) (b : Fin 64) :
    lenOf keep (ix1 b) = BitVec.ofNat 32 (cnt keep b 65536) := by
  unfold lenOf
  refine (Cert.FoldCount.reduce_rowsum_apply (R := 64) (N := 65536) (extui 32 keep (by decide)) _ reducesTo_row h_S_
    rfl b).trans ?_
  rw [Finset.sum_congr rfl (fun k _ => keepWord_toNat keep b k), Cert.FoldCount.sum_range_ite_eq_count]
  rfl

end Cert.Skyline
-- ==== Proof.LibLayout.lean ====
/-
  LAYOUT OPERATIONS READ AT AN INDEX GIVEN BY COORDINATES, at the shapes a hash-grid embedding lookup meets.
  Each lemma reads one layout operation (a broadcast along named axes, a concatenation of two unit pieces, a gather
  of table rows, a reshape, a transpose) applied at an index written by its coordinates as the operand at the index
  the operation's definition names, with the coordinate arithmetic already discharged. The side-condition proof of
  every operation is an explicit argument of arbitrary proof term, so a lemma applies whatever proof a term carries.
-/
import Idealize.ShloMosaic.Lib.ValueIdx
import Idealize.ShloMosaic.Lib.Pipeline.Value
import Idealize.ShloMosaic.Lib.ValueLayout
import Idealize.ShloMosaic.PureOps

noncomputable section

namespace Cert.LibLayout

open Idealize.ShloMosaic Idealize.ShloMosaic.ValueIdx

variable {α : Type}

/-! ## A broadcast along named axes, read at an index -/

/-- A scalar broadcast to any shape reads the scalar at every index. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector `[n]` viewed as a column `[n, 1]` (its axis sent to axis 0) reads, at `(a, z)`, the vector at `a`. -/
theorem bcast_n_n1 {n : Nat} (h : (⟨1, ![n]⟩ : Shape).BroadcastsInDim ⟨2, ![n, 1]⟩ ![0])
    (u : (⟨1, ![n]⟩ : Shape).Idx → α) (a : Fin n) (z : Fin 1) :
    broadcastInDim ⟨2, ![n, 1]⟩ ![0] h u (ix2 a z) = u (ix1 a) :=
  broadcastInDim_apply _ h u _ _ (fun ax => by
    match ax with
    | ⟨0, _⟩ =>
      show a.val = if n = 1 then 0 else a.val
      split
      · have := a.isLt; omega
      · rfl)

/-- A vector `[n]` viewed as a row `[1, n]` (its axis sent to axis 1) reads, at `(z, a)`, the vector at `a`. -/
theorem bcast_n_1n {n : Nat} (h : (⟨1, ![n]⟩ : Shape).BroadcastsInDim ⟨2, ![1, n]⟩ ![1])
    (u : (⟨1, ![n]⟩ : Shape).Idx → α) (z : Fin 1) (a : Fin n) :
    broadcastInDim ⟨2, ![1, n]⟩ ![1] h u (ix2 z a) = u (ix1 a) :=
  broadcastInDim_apply _ h u _ _ (fun ax => by
    match ax with
    | ⟨0, _⟩ =>
      show a.val = if n = 1 then 0 else a.val
      split
      · have := a.isLt; omega
      · rfl)

/-- A column `[n, 1]` repeated along its unit axis to `[n, m]` reads, at `(a, b)`, the column at `(a, 0)`. -/
theorem bcast_n1_nm {n m : Nat} (h : (⟨2, ![n, 1]⟩ : Shape).BroadcastsInDim ⟨2, ![n, m]⟩ ![0, 1])
    (w : (⟨2, ![n, 1]⟩ : Shape).Idx → α) (a : Fin n) (b : Fin m) :
    broadcastInDim ⟨2, ![n, m]⟩ ![0, 1] h w (ix2 a b) = w (ix2 a (0 : Fin 1)) :=
  broadcastInDim_apply _ h w _ _ (fun ax => by
    match ax with
    | ⟨0, _⟩ =>
      show a.val = if n = 1 then 0 else a.val
      split
      · have := a.isLt; omega
      · rfl
    | ⟨1, _⟩ => rfl)

/-- A row `[1, n]` repeated along its unit axis to `[m, n]` reads, at `(b, a)`, the row at `(0, a)`. -/
theorem bcast_1n_mn {n m : Nat} (h : (⟨2, ![1, n]⟩ : Shape).BroadcastsInDim ⟨2, ![m, n]⟩ ![0, 1])
    (w : (⟨2, ![1, n]⟩ : Shape).Idx → α) (b : Fin m) (a : Fin n) :
    broadcastInDim ⟨2, ![m, n]⟩ ![0, 1] h w (ix2 b a) = w (ix2 (0 : Fin 1) a) :=
  broadcastInDim_apply _ h w _ _ (fun ax => by
    match ax with
    | ⟨0, _⟩ => rfl
    | ⟨1, _⟩ =>
      show a.val = if n = 1 then 0 else a.val
      split
      · have := a.isLt; omega
      · rfl)

/-- A matrix `[A, B]` given a trailing unit axis, `[A, B, 1]`, reads, at `(a, b, z)`, the matrix at `(a, b)`. -/
theorem bcast_ab_ab1 {A B : Nat} (h : (⟨2, ![A, B]⟩ : Shape).BroadcastsInDim ⟨3, ![A, B, 1]⟩ ![0, 1])
    (w : (⟨2, ![A, B]⟩ : Shape).Idx → α) (a : Fin A) (b : Fin B) (z : Fin 1) :
    broadcastInDim ⟨3, ![A, B, 1]⟩ ![0, 1] h w (ix3 a b z) = w (ix2 a b) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl)

/-- An array `[A, B, 1]` repeated along its trailing unit axis to `[A, B, m]` reads, at `(a, b, f)`, the array at
    `(a, b, 0)`. -/
theorem bcast_ab1_abm {A B m : Nat} (h : (⟨3, ![A, B, 1]⟩ : Shape).BroadcastsInDim ⟨3, ![A, B, m]⟩ ![0, 1, 2])
    (w : (⟨3, ![A, B, 1]⟩ : Shape).Idx → α) (a : Fin A) (b : Fin B) (f : Fin m) :
    broadcastInDim ⟨3, ![A, B, m]⟩ ![0, 1, 2] h w (ix3 a b f) = w (ix3 a b (0 : Fin 1)) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl)

/-! ## Two unit pieces concatenated along the last axis -/

/-- Two `[A, B, 1]` pieces concatenated along the last axis read, at `(a, b, 0)`, the first piece at `(a, b, 0)`. -/
theorem concat_ab1_left {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (0 : Fin 2))
      = p (ix3 a b (0 : Fin 1)) :=
  concatenate_pair_apply_left 2 p q h _ rfl _ (fun ax => by
    match ax with
    | ⟨0, _⟩ => rfl
    | ⟨1, _⟩ => rfl
    | ⟨2, _⟩ => rfl)

/-- Two `[A, B, 1]` pieces concatenated along the last axis read, at `(a, b, 1)`, the second piece at `(a, b, 0)`. -/
theorem concat_ab1_right {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (1 : Fin 2))
      = q (ix3 a b (0 : Fin 1)) :=
  concatenate_pair_apply_right 2 p q h _ rfl rfl _ (fun ax hax => by
    match ax, hax with
    | ⟨0, _⟩, _ => rfl
    | ⟨1, _⟩, _ => rfl
    | ⟨2, _⟩, hax => exact absurd rfl hax) rfl

/-- Two `[A, B, 1]` pieces concatenated along the last axis read, at `(a, b, c)`, the first piece when `c = 0` and
    the second otherwise, each at `(a, b, 0)`. -/
theorem concat_ab1_apply {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B)
    (c : Fin 2) :
    concatenate ⟨3, ![A, B, 2]⟩ 2 [⟨⟨3, ![A, B, 1]⟩, p⟩, ⟨⟨3, ![A, B, 1]⟩, q⟩] h (ix3 a b c)
      = if c.val = 0 then p (ix3 a b (0 : Fin 1)) else q (ix3 a b (0 : Fin 1)) := by
  match c with
  | ⟨0, _⟩ => exact concat_ab1_left p q h a b
  | ⟨1, _⟩ => exact concat_ab1_right p q h a b

/-! ## The gather of table rows: operand `[16, 524288, 4]` at start indices `[A, B, 2]`

What `table[level, slot]` of a table `[16, 524288, 4]` at two integer arrays of one shape `[A, B]`, stacked on a last
axis, lowers to: the start index's two components name the first two operand axes (both collapsed), the third operand
axis is read whole as the result's last axis. Result element `(a, b, f)` is the table at the two components
`idx[a, b, 0]`, `idx[a, b, 1]`, each read signed and clamped into its axis, and at `f`. -/

/-- Those dimension numbers for start indices `[A, B, 2]` and result `[A, B, 4]`; their conditions `wf` are decided
    on a program's literal shapes. -/
abbrev rowDims (A B : Nat)
    (wf : GatherDims.WF ⟨3, ![16, 524288, 4]⟩ ⟨3, ![A, B, 2]⟩ ⟨3, ![A, B, 4]⟩ [2] [0, 1] [] [0, 1] [] 2 ![1, 1, 4]) :
    GatherDims ⟨3, ![16, 524288, 4]⟩ ⟨3, ![A, B, 2]⟩ ⟨3, ![A, B, 4]⟩ where
  offsetDims := [2]
  collapsedSliceDims := [0, 1]
  operandBatchingDims := []
  startIndicesBatchingDims := []
  startIndexMap := [0, 1]
  indexVectorDim := 2
  sliceSizes := ![1, 1, 4]
  wf := wf

/-- The table index a pair of start-index words and a feature name: each word read signed and clamped into its axis.
    It mentions neither extent of the index arrays. -/
def rowAt {w : Nat} (i0 i1 : BitVec w) (f : Fin 4) : (⟨3, ![16, 524288, 4]⟩ : Shape).Idx :=
  ix3 (⟨min i0.toInt.toNat 15, by omega⟩ : Fin 16) (⟨min i1.toInt.toNat 524287, by omega⟩ : Fin 524288) f

/-- THE GATHER READ AT `(a, b, f)`: the table at the clamped start-index components `idx[a, b, 0]`, `idx[a, b, 1]` and
    at `f`. -/
theorem gather_row_apply {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (ix3 (⟨min (idx (ix3 a b (0 : Fin 2))).toInt.toNat 15, by omega⟩ : Fin 16)
          (⟨min (idx (ix3 a b (1 : Fin 2))).toInt.toNat 524287, by omega⟩ : Fin 524288) f) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  -- the start-indices index of component `c` of the start index of `(a, b, f)` is `(a, b, c)`
  have hsi : ∀ (c : Fin 2) (hc : c.val < (rowDims A B wf).startIndexMap.length),
      (rowDims A B wf).siIdx (ix3 a b f) ⟨c.val, hc⟩ = ix3 a b c := by
    intro c hc
    funext d; refine Fin.ext ?_
    match d with
    | ⟨0, _⟩ => rfl
    | ⟨1, _⟩ => rfl
    | ⟨2, _⟩ => rfl
  -- axis 0: the clamped first component, no offset
  have e0 : (rowDims A B wf).start (ix3 a b f) idx 0 + (rowDims A B wf).offCoord (ix3 a b f) 0
      = min (idx (ix3 a b (0 : Fin 2))).toInt.toNat 15 := by
    rw [GatherDims.offCoord_eq_zero _ _ _ (fun hm => ((GatherDims.mem_sKept _ _).mp hm).1 m0), Nat.add_zero]
    unfold GatherDims.start
    rw [dif_pos (show (0 : Fin 3) ∈ (rowDims A B wf).startIndexMap from m0)]
    exact congrArg (fun k => min (idx k).toInt.toNat 15) (hsi 0 Nat.zero_lt_two)
  -- axis 1: the clamped second component, no offset
  have e1 : (rowDims A B wf).start (ix3 a b f) idx 1 + (rowDims A B wf).offCoord (ix3 a b f) 1
      = min (idx (ix3 a b (1 : Fin 2))).toInt.toNat 524287 := by
    rw [GatherDims.offCoord_eq_zero _ _ _ (fun hm => ((GatherDims.mem_sKept _ _).mp hm).1 m1), Nat.add_zero]
    unfold GatherDims.start
    rw [dif_pos (show (1 : Fin 3) ∈ (rowDims A B wf).startIndexMap from m1)]
    exact congrArg (fun k => min (idx k).toInt.toNat 524287) (hsi 1 Nat.one_lt_two)
  -- axis 2: no start, the offset is the result's last coordinate
  have e2 : (rowDims A B wf).start (ix3 a b f) idx 2 + (rowDims A B wf).offCoord (ix3 a b f) 2 = f.val := by
    unfold GatherDims.start
    rw [dif_neg (show (2 : Fin 3) ∉ (rowDims A B wf).startIndexMap from n2), Nat.zero_add]
    unfold GatherDims.offCoord
    rw [dif_pos ((GatherDims.mem_sKept _ _).mpr ⟨n2, List.not_mem_nil⟩)]
    rfl
  unfold Host.gather
  congr 1
  funext ax
  refine Fin.ext ?_
  show (rowDims A B wf).start (ix3 a b f) idx ax + (rowDims A B wf).batchCoord (ix3 a b f) ax
    + (rowDims A B wf).offCoord (ix3 a b f) ax = _
  rw [GatherDims.batchCoord_eq_zero _ _ _ List.not_mem_nil, Nat.add_zero]
  match ax with
  | ⟨0, _⟩ => exact e0
  | ⟨1, _⟩ => exact e1
  | ⟨2, _⟩ => exact e2

/-- The gather read at `(a, b, f)` through `rowAt`: one function of the two start-index words and `f`. -/
theorem gather_row_apply_rowAt {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (rowAt (idx (ix3 a b (0 : Fin 2))) (idx (ix3 a b (1 : Fin 2))) f) :=
  gather_row_apply wf x idx a b f

/-! ## Reshapes and a transpose, read at an index -/

/-- `[2097152, 16, 4]` flattened to `[2097152, 64]` reads, at `(b, j)`, the operand at `(b, j / 4, j % 4)`. -/
theorem reshape_Bx16x4_Bx64 (x : (⟨3, ![2097152, 16, 4]⟩ : Shape).Idx → α)
    (h : (⟨3, ![2097152, 16, 4]⟩ : Shape).ShapeCasts ⟨2, ![2097152, 64]⟩) (b : Fin 2097152) (j : Fin 64) :
    shapeCast ⟨2, ![2097152, 64]⟩ x h (ix2 b j)
      = x (ix3 b (⟨j.val / 4, by have := j.isLt; omega⟩ : Fin 16) (⟨j.val % 4, by omega⟩ : Fin 4)) :=
  shapeCast_apply x h _ _ (by
    rw [Shape.rowMajor_val_three, Shape.rowMajor_val_two]
    show (b.val * 16 + j.val / 4) * 4 + j.val % 4 = b.val * 64 + j.val
    omega)

/-- `[2097152, 64]` regrouped as `[1048576, 128]` (two rows per row) reads, at `(n, q)`, the operand at
    `(2 n + q / 64, q % 64)`. -/
theorem reshape_Bx64_Hx128 (x : (⟨2, ![2097152, 64]⟩ : Shape).Idx → α)
    (h : (⟨2, ![2097152, 64]⟩ : Shape).ShapeCasts ⟨2, ![1048576, 128]⟩) (n : Fin 1048576) (q : Fin 128) :
    shapeCast ⟨2, ![1048576, 128]⟩ x h (ix2 n q)
      = x (ix2 (⟨2 * n.val + q.val / 64, by have := n.isLt; have := q.isLt; omega⟩ : Fin 2097152)
          (⟨q.val % 64, by omega⟩ : Fin 64)) :=
  shapeCast_apply x h _ _ (by
    rw [Shape.rowMajor_val_two, Shape.rowMajor_val_two]
    show (2 * n.val + q.val / 64) * 64 + q.val % 64 = n.val * 128 + q.val
    omega)

/-- `[2097152, 16]` regrouped as `[1048576, 32]` (two rows per row) reads, at `(n, k)`, the operand at
    `(2 n + k / 16, k % 16)`. -/
theorem reshape_Bx16_Hx32 (x : (⟨2, ![2097152, 16]⟩ : Shape).Idx → α)
    (h : (⟨2, ![2097152, 16]⟩ : Shape).ShapeCasts ⟨2, ![1048576, 32]⟩) (n : Fin 1048576) (k : Fin 32) :
    shapeCast ⟨2, ![1048576, 32]⟩ x h (ix2 n k)
      = x (ix2 (⟨2 * n.val + k.val / 16, by have := n.isLt; have := k.isLt; omega⟩ : Fin 2097152)
          (⟨k.val % 16, by omega⟩ : Fin 16)) :=
  shapeCast_apply x h _ _ (by
    rw [Shape.rowMajor_val_two, Shape.rowMajor_val_two]
    show (2 * n.val + k.val / 16) * 16 + k.val % 16 = n.val * 32 + k.val
    omega)

/-- `[1048576, 128]` split back into `[2097152, 64]` (each row in two halves) reads, at `(b, j)`, the operand at
    `(b / 2, (b % 2) * 64 + j)`. -/
theorem reshape_Hx128_Bx64 (x : (⟨2, ![1048576, 128]⟩ : Shape).Idx → α)
    (h : (⟨2, ![1048576, 128]⟩ : Shape).ShapeCasts ⟨2, ![2097152, 64]⟩) (b : Fin 2097152) (j : Fin 64) :
    shapeCast ⟨2, ![2097152, 64]⟩ x h (ix2 b j)
      = x (ix2 (⟨b.val / 2, by have := b.isLt; omega⟩ : Fin 1048576)
          (⟨(b.val % 2) * 64 + j.val, by have := j.isLt; omega⟩ : Fin 128)) :=
  shapeCast_apply x h _ _ (by
    rw [Shape.rowMajor_val_two, Shape.rowMajor_val_two]
    show b.val / 2 * 128 + ((b.val % 2) * 64 + j.val) = b.val * 64 + j.val
    omega)

/-- `[16, 2097152, 4]` with its first two axes swapped reads, at `(b, l, f)`, the operand at `(l, b, f)`. -/
theorem transpose_102_apply {A B C : Nat} (x : (⟨3, ![A, B, C]⟩ : Shape).Idx → α)
    (h : (⟨3, ![A, B, C]⟩ : Shape).Transposes [1, 0, 2] ⟨3, ![B, A, C]⟩) (b : Fin B) (l : Fin A) (f : Fin C) :
    transpose ⟨3, ![B, A, C]⟩ [1, 0, 2] x h (ix3 b l f) = x (ix3 l b f) :=
  transpose_apply _ x h _ _ fun c => match c with | ⟨0, _⟩ => rfl | ⟨1, _⟩ => rfl | ⟨2, _⟩ => rfl

/-! ## Composites both programs meet -/

/-- The gather of table rows at a PAIR of index arrays `[A, B]`, each given a trailing unit axis and the two stacked on
    it: result element `(a, b, f)` is the table at the clamped words `i0[a, b]`, `i1[a, b]` and at `f`. -/
theorem gather_pair_apply {A B w : Nat}
    (wf : GatherDims.WF ⟨3, ![16, 524288, 4]⟩ ⟨3, ![A, B, 2]⟩ ⟨3, ![A, B, 4]⟩ [2] [0, 1] [] [0, 1] [] 2 ![1, 1, 4])
    (h0 h1 : (⟨2, ![A, B]⟩ : Shape).BroadcastsInDim ⟨3, ![A, B, 1]⟩ ![0, 1])
    (hc : Shape.Concatenates [(⟨3, ![A, B, 1]⟩ : Shape), ⟨3, ![A, B, 1]⟩] ⟨3, ![A, B, 2]⟩ 2)
    (x : (⟨3, ![16, 524288, 4]⟩ : Shape).Idx → α) (i0 i1 : IVec ⟨2, ![A, B]⟩ w) (a : Fin A) (b : Fin B) (f : Fin 4) :
    Host.gather (rowDims A B wf) x
        (concatenate ⟨3, ![A, B, 2]⟩ 2 [⟨⟨3, ![A, B, 1]⟩, broadcastInDim ⟨3, ![A, B, 1]⟩ ![0, 1] h0 i0⟩,
          ⟨⟨3, ![A, B, 1]⟩, broadcastInDim ⟨3, ![A, B, 1]⟩ ![0, 1] h1 i1⟩] hc) (ix3 a b f)
      = x (rowAt (i0 (ix2 a b)) (i1 (ix2 a b)) f) := by
  rw [gather_row_apply_rowAt, concat_ab1_left, concat_ab1_right, bcast_ab_ab1, bcast_ab_ab1]

/-- `[A, B, 4]` with its first two axes swapped and then its last two axes merged, `[B, 4 A]`, at the literal extents
    `A = 16`, `B = 2097152`: reads, at `(b, j)`, the operand at `(j / 4, b, j % 4)`. -/
theorem reshape_transpose_apply (x : (⟨3, ![16, 2097152, 4]⟩ : Shape).Idx → α)
    (ht : (⟨3, ![16, 2097152, 4]⟩ : Shape).Transposes [1, 0, 2] ⟨3, ![2097152, 16, 4]⟩)
    (hs : (⟨3, ![2097152, 16, 4]⟩ : Shape).ShapeCasts ⟨2, ![2097152, 64]⟩) (b : Fin 2097152) (j : Fin 64) :
    shapeCast ⟨2, ![2097152, 64]⟩ (transpose ⟨3, ![2097152, 16, 4]⟩ [1, 0, 2] x ht) hs (ix2 b j)
      = x (ix3 (⟨j.val / 4, by have := j.isLt; omega⟩ : Fin 16) b (⟨j.val % 4, by omega⟩ : Fin 4)) := by
  rw [reshape_Bx16x4_Bx64, transpose_102_apply]

end Cert.LibLayout

end
-- ==== Proof.Slots.lean ====
/-
  The scatter index pairs and where each update lands.
-/
import proofs.«175822_j4002909520703_2_alg».proof.Proof.Spec
import proofs.«175822_j4002909520703_2_alg».proof.Proof.Counting
import proofs.«175822_j4002909520703_2_alg».proof.Proof.LibLayout
import Idealize.ShloMosaic.Lib.ValueIdx

noncomputable section

namespace Cert.Skyline

open Idealize.ShloMosaic Idealize.ShloMosaic.ValueIdx

/-! ## Words -/

/-- A small natural number, as a 32-bit word read signed, is itself. -/
theorem toInt_ofNat_small (n : ℕ) (h : n < 2147483648) : (BitVec.ofNat 32 n).toInt = (n : Int) := by
  rw [BitVec.toInt_eq_toNat_of_lt (by simp; omega)]
  simp
  omega

/-- The signed comparison of two small natural numbers' words is the comparison of the numbers. -/
theorem slt_ofNat (a b : ℕ) (ha : a < 2147483648) (hb : b < 2147483648) :
    IntOp.cmpi .slt (BitVec.ofNat 32 a) (BitVec.ofNat 32 b) = if a < b then 1#1 else 0#1 := by
  unfold IntOp.cmpi
  simp only [BitVec.slt, toInt_ofNat_small a ha, toInt_ofNat_small b hb]
  split
  · rename_i h; simp [h]
  · rename_i h; simp [h]

/-- A successor's word less one is the number's word. -/
theorem subi_succ_one (n : ℕ) : IntOp.subi (BitVec.ofNat 32 (n + 1)) 1#32 = BitVec.ofNat 32 n := by
  unfold IntOp.subi
  apply BitVec.eq_of_toNat_eq
  simp
  omega

/-! ## The pair at a position -/

/-- The pair's first component is the row's number. -/
theorem pairOf_row (pos : IVec S64x65536 32) (b : Fin 64) (s : Fin 65536) :
    pairOf pos (ix3 b s (0 : Fin 2)) = BitVec.ofNat 32 b.val := by
  unfold pairOf
  dsimp only
  rw [Cert.LibLayout.concat_ab1_left, Cert.LibLayout.bcast_ab_ab1, Cert.LibLayout.bcast_n1_nm]
  simp only [select, cmpi, addi]
  rw [Cert.LibLayout.bcast_n_n1, Cert.LibLayout.bcast_scalar, Cert.LibLayout.bcast_scalar]
  show Scalar.select (IntOp.cmpi .slt (BitVec.ofNat 32 b.val) (BitVec.ofNat 32 0))
    (IntOp.addi (BitVec.ofNat 32 b.val) 64#32) (BitVec.ofNat 32 b.val) = _
  rw [slt_ofNat _ _ (by omega) (by omega), if_neg (Nat.not_lt_zero _)]
  rfl

/-- The pair's second component is the position's slot, wrapped once if negative. -/
theorem pairOf_slot (pos : IVec S64x65536 32) (b : Fin 64) (s : Fin 65536) :
    pairOf pos (ix3 b s (1 : Fin 2))
      = Scalar.select (IntOp.cmpi .slt (pos (ix2 b s)) 0#32) (IntOp.addi (pos (ix2 b s)) 65537#32) (pos (ix2 b s)) := by
  unfold pairOf
  dsimp only
  rw [Cert.LibLayout.concat_ab1_right, Cert.LibLayout.bcast_ab_ab1]
  simp only [select, cmpi, addi]
  rw [Cert.LibLayout.bcast_scalar, Cert.LibLayout.bcast_scalar]
  rfl

/-- A position's slot word: the running count less one where the position is kept, else the dummy slot. -/
theorem posOf_apply (keep : IVec S64x65536 1) (b : Fin 64) (s : Fin 65536) :
    posOf keep (ix2 b s)
      = Scalar.select (keep (ix2 b s)) (IntOp.subi (runCount keep (ix2 b s)) 1#32) 65536#32 := by
  unfold posOf
  dsimp only
  simp only [select, subi]
  rw [Cert.LibLayout.bcast_scalar, Cert.LibLayout.bcast_scalar]
  rfl

/-! ## Where an update lands -/

/-- The slot of position `s` of row `b` as a number: the count of kept positions up to `s`, less one, where `s` is
    kept; the dummy slot 65536 where it is dropped. -/
def slotNat (keep : IVec S64x65536 1) (b : Fin 64) (s : ℕ) : ℕ :=
  if Kept keep b s then cnt keep b (s + 1) - 1 else 65536

theorem kept_iff (keep : IVec S64x65536 1) (b : Fin 64) (s : Fin 65536) :
    Kept keep b s.val ↔ keep (ix2 b s) = 1#1 :=
  ⟨fun ⟨_, h⟩ => h, fun h => ⟨s.isLt, h⟩⟩

/-- The pair's second component, read signed, is the position's slot number (given the running count as a count). -/
theorem pair_slot_toInt (keep : IVec S64x65536 1) (b : Fin 64) (s : Fin 65536)
    (hrc : runCount keep (ix2 b s) = BitVec.ofNat 32 (cnt keep b (s.val + 1))) :
    (pairOf (posOf keep) (ix3 b s (1 : Fin 2))).toInt = (slotNat keep b s.val : Int) := by
  rw [pairOf_slot, posOf_apply, hrc]
  unfold slotNat
  by_cases hk : Kept keep b s.val
  · have h1 : keep (ix2 b s) = 1#1 := (kept_iff keep b s).mp hk
    have hpos := cnt_pos_of_kept keep b hk
    have hle := cnt_le keep b (s.val + 1)
    have hs := s.isLt
    obtain ⟨c, hc⟩ : ∃ c, cnt keep b (s.val + 1) = c + 1 := ⟨cnt keep b (s.val + 1) - 1, by omega⟩
    rw [if_pos hk, h1, hc, subi_succ_one]
    show (Scalar.select (IntOp.cmpi .slt (BitVec.ofNat 32 c) (BitVec.ofNat 32 0)) _ (BitVec.ofNat 32 c)).toInt = _
    rw [slt_ofNat _ _ (by omega) (by omega), if_neg (Nat.not_lt_zero _)]
    show (BitVec.ofNat 32 c).toInt = _
    rw [toInt_ofNat_small _ (by omega)]
    simp
  · have h0 : keep (ix2 b s) = 0#1 := by
      rcases BitVec.eq_zero_or_eq_one (keep (ix2 b s)) with h | h
      · exact h
      · exact absurd ((kept_iff keep b s).mpr h) hk
    rw [if_neg hk, h0]
    show (Scalar.select (IntOp.cmpi .slt (BitVec.ofNat 32 65536) (BitVec.ofNat 32 0)) _ (BitVec.ofNat 32 65536)).toInt = _
    rw [slt_ofNat _ _ (by omega) (by omega), if_neg (Nat.not_lt_zero _)]
    show (BitVec.ofNat 32 65536).toInt = _
    rw [toInt_ofNat_small _ (by omega)]

/-- An update of the row scatter, the one of position `s` of row `b0` and feature `f0`, lands on `i` exactly when the
    pair's two components, read signed, are `i`'s first two coordinates and `f0` is its third. -/
theorem rows_lands (pair : IVec S64x65536x2 32) (b0 : Fin 64) (s : Fin 65536) (f0 : Fin 6) (i : S64x65537x6.Idx) :
    scatterRows.resultIdx? (ix3 b0 s f0) pair = some i
      ↔ ((pair (ix3 b0 s (0 : Fin 2))).toInt = ((i 0).val : Int) ∧ (pair (ix3 b0 s (1 : Fin 2))).toInt = ((i 1).val : Int)
          ∧ f0.val = (i 2).val) := by
  have hsi : ∀ (c : Fin 2) (hc : c.val < scatterRows.scatterDimsToOperandDims.length),
      scatterRows.siIdx (ix3 b0 s f0) ⟨c.val, hc⟩ = ix3 b0 s c := by
    intro c hc
    funext d; refine Fin.ext ?_
    match d with
    | ⟨0, _⟩ => rfl
    | ⟨1, _⟩ => rfl
    | ⟨2, _⟩ => rfl
  have hs0 : scatterRows.start (ix3 b0 s f0) pair 0 = (pair (ix3 b0 s (0 : Fin 2))).toInt := by
    unfold ScatterDims.start
    rw [dif_pos (show (0 : Fin 3) ∈ scatterRows.scatterDimsToOperandDims from by decide)]
    exact congrArg (fun k => (pair k).toInt) (hsi 0 Nat.zero_lt_two)
  have hs1 : scatterRows.start (ix3 b0 s f0) pair 1 = (pair (ix3 b0 s (1 : Fin 2))).toInt := by
    unfold ScatterDims.start
    rw [dif_pos (show (1 : Fin 3) ∈ scatterRows.scatterDimsToOperandDims from by decide)]
    exact congrArg (fun k => (pair k).toInt) (hsi 1 Nat.one_lt_two)
  have hs2 : scatterRows.start (ix3 b0 s f0) pair 2 = 0 := by
    unfold ScatterDims.start
    rw [dif_neg (show (2 : Fin 3) ∉ scatterRows.scatterDimsToOperandDims from by decide)]
  have hw0 : scatterRows.window (ix3 b0 s f0) 0 = 0 := by
    unfold ScatterDims.window
    rw [dif_neg (show (0 : Fin 3) ∉ scatterRows.sKept from by decide)]
  have hw1 : scatterRows.window (ix3 b0 s f0) 1 = 0 := by
    unfold ScatterDims.window
    rw [dif_neg (show (1 : Fin 3) ∉ scatterRows.sKept from by decide)]
  have hw2 : scatterRows.window (ix3 b0 s f0) 2 = f0.val := by
    unfold ScatterDims.window
    rw [dif_pos (show (2 : Fin 3) ∈ scatterRows.sKept from by decide)]
    rfl
  have l0 : (i 0).val < 64 := (i 0).isLt
  have l1 : (i 1).val < 65537 := (i 1).isLt
  have l2 : (i 2).val < 6 := (i 2).isLt
  unfold ScatterDims.resultIdx?
  constructor
  · intro h
    split at h
    · rename_i hin
      have hi := Option.some.inj h
      have e0 : (scatterRows.start (ix3 b0 s f0) pair 0 + (scatterRows.window (ix3 b0 s f0) 0 : Int)).toNat = (i 0).val :=
        congrArg (fun g : S64x65537x6.Idx => (g 0).val) hi
      have e1 : (scatterRows.start (ix3 b0 s f0) pair 1 + (scatterRows.window (ix3 b0 s f0) 1 : Int)).toNat = (i 1).val :=
        congrArg (fun g : S64x65537x6.Idx => (g 1).val) hi
      have e2 : (scatterRows.start (ix3 b0 s f0) pair 2 + (scatterRows.window (ix3 b0 s f0) 2 : Int)).toNat = (i 2).val :=
        congrArg (fun g : S64x65537x6.Idx => (g 2).val) hi
      have b0' := (hin 0).1
      have b1' := (hin 1).1
      rw [hs0, hw0] at e0 b0'
      rw [hs1, hw1] at e1 b1'
      rw [hs2, hw2] at e2
      refine ⟨by omega, by omega, by omega⟩
    · exact absurd h (by simp)
  · rintro ⟨e0, e1, e2⟩
    have hin : ∀ a, 0 ≤ scatterRows.start (ix3 b0 s f0) pair a + (scatterRows.window (ix3 b0 s f0) a : Int)
        ∧ scatterRows.start (ix3 b0 s f0) pair a + (scatterRows.window (ix3 b0 s f0) a : Int) < (S64x65537x6.size a : Int) := by
      intro a
      match a with
      | ⟨0, _⟩ =>
        show (0 : Int) ≤ scatterRows.start (ix3 b0 s f0) pair 0 + (scatterRows.window (ix3 b0 s f0) 0 : Int)
          ∧ scatterRows.start (ix3 b0 s f0) pair 0 + (scatterRows.window (ix3 b0 s f0) 0 : Int) < ((64 : ℕ) : Int)
        rw [hs0, hw0, e0]; omega
      | ⟨1, _⟩ =>
        show (0 : Int) ≤ scatterRows.start (ix3 b0 s f0) pair 1 + (scatterRows.window (ix3 b0 s f0) 1 : Int)
          ∧ scatterRows.start (ix3 b0 s f0) pair 1 + (scatterRows.window (ix3 b0 s f0) 1 : Int) < ((65537 : ℕ) : Int)
        rw [hs1, hw1, e1]; omega
      | ⟨2, _⟩ =>
        show (0 : Int) ≤ scatterRows.start (ix3 b0 s f0) pair 2 + (scatterRows.window (ix3 b0 s f0) 2 : Int)
          ∧ scatterRows.start (ix3 b0 s f0) pair 2 + (scatterRows.window (ix3 b0 s f0) 2 : Int) < ((6 : ℕ) : Int)
        rw [hs2, hw2, e2]; omega
    rw [dif_pos hin]
    refine congrArg some (funext fun a => Fin.ext ?_)
    match a with
    | ⟨0, _⟩ =>
      show (scatterRows.start (ix3 b0 s f0) pair 0 + (scatterRows.window (ix3 b0 s f0) 0 : Int)).toNat = (i 0).val
      rw [hs0, hw0, e0]; omega
    | ⟨1, _⟩ =>
      show (scatterRows.start (ix3 b0 s f0) pair 1 + (scatterRows.window (ix3 b0 s f0) 1 : Int)).toNat = (i 1).val
      rw [hs1, hw1, e1]; omega
    | ⟨2, _⟩ =>
      show (scatterRows.start (ix3 b0 s f0) pair 2 + (scatterRows.window (ix3 b0 s f0) 2 : Int)).toNat = (i 2).val
      rw [hs2, hw2, e2]; omega

/-- An update of the slot scatter, the one of position `s` of row `b0`, lands on `i` exactly when the pair's two
    components, read signed, are `i`'s two coordinates. -/
theorem slots_lands (pair : IVec S64x65536x2 32) (b0 : Fin 64) (s : Fin 65536) (i : S64x65537.Idx) :
    scatterSlots.resultIdx? (ix2 b0 s) pair = some i
      ↔ ((pair (ix3 b0 s (0 : Fin 2))).toInt = ((i 0).val : Int) ∧ (pair (ix3 b0 s (1 : Fin 2))).toInt = ((i 1).val : Int)) := by
  have hsi : ∀ (c : Fin 2) (hc : c.val < scatterSlots.scatterDimsToOperandDims.length),
      scatterSlots.siIdx (ix2 b0 s) ⟨c.val, hc⟩ = ix3 b0 s c := by
    intro c hc
    funext d; refine Fin.ext ?_
    match d with
    | ⟨0, _⟩ => rfl
    | ⟨1, _⟩ => rfl
    | ⟨2, _⟩ => rfl
  have hs0 : scatterSlots.start (ix2 b0 s) pair 0 = (pair (ix3 b0 s (0 : Fin 2))).toInt := by
    unfold ScatterDims.start
    rw [dif_pos (show (0 : Fin 2) ∈ scatterSlots.scatterDimsToOperandDims from by decide)]
    exact congrArg (fun k => (pair k).toInt) (hsi 0 Nat.zero_lt_two)
  have hs1 : scatterSlots.start (ix2 b0 s) pair 1 = (pair (ix3 b0 s (1 : Fin 2))).toInt := by
    unfold ScatterDims.start
    rw [dif_pos (show (1 : Fin 2) ∈ scatterSlots.scatterDimsToOperandDims from by decide)]
    exact congrArg (fun k => (pair k).toInt) (hsi 1 Nat.one_lt_two)
  have hw0 : scatterSlots.window (ix2 b0 s) 0 = 0 := by
    unfold ScatterDims.window
    rw [dif_neg (show (0 : Fin 2) ∉ scatterSlots.sKept from by decide)]
  have hw1 : scatterSlots.window (ix2 b0 s) 1 = 0 := by
    unfold ScatterDims.window
    rw [dif_neg (show (1 : Fin 2) ∉ scatterSlots.sKept from by decide)]
  have l0 : (i 0).val < 64 := (i 0).isLt
  have l1 : (i 1).val < 65537 := (i 1).isLt
  unfold ScatterDims.resultIdx?
  constructor
  · intro h
    split at h
    · rename_i hin
      have hi := Option.some.inj h
      have e0 : (scatterSlots.start (ix2 b0 s) pair 0 + (scatterSlots.window (ix2 b0 s) 0 : Int)).toNat = (i 0).val :=
        congrArg (fun g : S64x65537.Idx => (g 0).val) hi
      have e1 : (scatterSlots.start (ix2 b0 s) pair 1 + (scatterSlots.window (ix2 b0 s) 1 : Int)).toNat = (i 1).val :=
        congrArg (fun g : S64x65537.Idx => (g 1).val) hi
      have b0' := (hin 0).1
      have b1' := (hin 1).1
      rw [hs0, hw0] at e0 b0'
      rw [hs1, hw1] at e1 b1'
      refine ⟨by omega, by omega⟩
    · exact absurd h (by simp)
  · rintro ⟨e0, e1⟩
    have hin : ∀ a, 0 ≤ scatterSlots.start (ix2 b0 s) pair a + (scatterSlots.window (ix2 b0 s) a : Int)
        ∧ scatterSlots.start (ix2 b0 s) pair a + (scatterSlots.window (ix2 b0 s) a : Int) < (S64x65537.size a : Int) := by
      intro a
      match a with
      | ⟨0, _⟩ =>
        show (0 : Int) ≤ scatterSlots.start (ix2 b0 s) pair 0 + (scatterSlots.window (ix2 b0 s) 0 : Int)
          ∧ scatterSlots.start (ix2 b0 s) pair 0 + (scatterSlots.window (ix2 b0 s) 0 : Int) < ((64 : ℕ) : Int)
        rw [hs0, hw0, e0]; omega
      | ⟨1, _⟩ =>
        show (0 : Int) ≤ scatterSlots.start (ix2 b0 s) pair 1 + (scatterSlots.window (ix2 b0 s) 1 : Int)
          ∧ scatterSlots.start (ix2 b0 s) pair 1 + (scatterSlots.window (ix2 b0 s) 1 : Int) < ((65537 : ℕ) : Int)
        rw [hs1, hw1, e1]; omega
    rw [dif_pos hin]
    refine congrArg some (funext fun a => Fin.ext ?_)
    match a with
    | ⟨0, _⟩ =>
      show (scatterSlots.start (ix2 b0 s) pair 0 + (scatterSlots.window (ix2 b0 s) 0 : Int)).toNat = (i 0).val
      rw [hs0, hw0, e0]; omega
    | ⟨1, _⟩ =>
      show (scatterSlots.start (ix2 b0 s) pair 1 + (scatterSlots.window (ix2 b0 s) 1 : Int)).toNat = (i 1).val
      rw [hs1, hw1, e1]; omega

end Cert.Skyline

end
-- ==== Proof.Gather.lean ====
/-
  The gather along the position axis, read at an index.
-/
import proofs.«175822_j4002909520703_2_alg».proof.Proof.Spec
import proofs.«175822_j4002909520703_2_alg».proof.Proof.Slots
import proofs.«175822_j4002909520703_2_alg».proof.Proof.LibLayout
import Idealize.ShloMosaic.Lib.ValueIdx
import Idealize.ShloMosaic.Lib.Pipeline.Value
import Idealize.ShloMosaic.Lib.ReduceAll

noncomputable section

namespace Cert.Skyline

open Idealize.ShloMosaic Idealize.ShloMosaic.ValueIdx

variable {α : Type}

/-- THE GATHER ALONG THE LAST AXIS READ AT `(b, f, d)`: the operand at `(b, f, p)` with `p` the start index
    `idx[b, f, d, 0]` read signed and clamped into the axis. -/
theorem gatherLane_apply {w : Nat} (x : S64x6x65536.Idx → α) (idx : IVec S64x6x65536x1 w) (b : Fin 64) (f : Fin 6)
    (d : Fin 65536) :
    Host.gather gatherLane x idx (ix3 b f d)
      = x (ix3 b f (⟨min (idx (ix4 b f d (0 : Fin 1))).toInt.toNat 65535, by omega⟩ : Fin 65536)) := by
  have hsi : ∀ (hc : 0 < gatherLane.startIndexMap.length), gatherLane.siIdx (ix3 b f d) ⟨0, hc⟩ = ix4 b f d (0 : Fin 1) := by
    intro hc
    funext a; refine Fin.ext ?_
    match a with
    | ⟨0, _⟩ => rfl
    | ⟨1, _⟩ => rfl
    | ⟨2, _⟩ => rfl
    | ⟨3, _⟩ => rfl
  have m0 : (0 : Fin 3) ∈ gatherLane.operandBatchingDims := by decide
  have m1 : (1 : Fin 3) ∈ gatherLane.operandBatchingDims := by decide
  have n2 : (2 : Fin 3) ∉ gatherLane.operandBatchingDims := by decide
  have c2 : (2 : Fin 3) ∈ gatherLane.collapsedSliceDims := by decide
  have e0 : gatherLane.start (ix3 b f d) idx 0 + gatherLane.batchCoord (ix3 b f d) 0 + gatherLane.offCoord (ix3 b f d) 0 = b.val := by
    rw [GatherDims.start_batching _ _ _ _ m0, GatherDims.offCoord_eq_zero _ _ _ (fun hm => ((GatherDims.mem_sKept _ _).mp hm).2 m0)]
    unfold GatherDims.batchCoord
    rw [dif_pos m0, Nat.zero_add, Nat.add_zero]
    rfl
  have e1 : gatherLane.start (ix3 b f d) idx 1 + gatherLane.batchCoord (ix3 b f d) 1 + gatherLane.offCoord (ix3 b f d) 1 = f.val := by
    rw [GatherDims.start_batching _ _ _ _ m1, GatherDims.offCoord_eq_zero _ _ _ (fun hm => ((GatherDims.mem_sKept _ _).mp hm).2 m1)]
    unfold GatherDims.batchCoord
    rw [dif_pos m1, Nat.zero_add, Nat.add_zero]
    rfl
  have e2 : gatherLane.start (ix3 b f d) idx 2 + gatherLane.batchCoord (ix3 b f d) 2 + gatherLane.offCoord (ix3 b f d) 2
      = min (idx (ix4 b f d (0 : Fin 1))).toInt.toNat 65535 := by
    rw [GatherDims.batchCoord_eq_zero _ _ _ n2, GatherDims.offCoord_eq_zero _ _ _ (fun hm => ((GatherDims.mem_sKept _ _).mp hm).1 c2),
      Nat.add_zero]
    unfold GatherDims.start
    rw [dif_pos (show (2 : Fin 3) ∈ gatherLane.startIndexMap from by decide)]
    exact congrArg (fun k => min (idx k).toInt.toNat 65535) (hsi Nat.zero_lt_one)
  unfold Host.gather
  congr 1
  funext ax
  refine Fin.ext ?_
  show gatherLane.start (ix3 b f d) idx ax + gatherLane.batchCoord (ix3 b f d) ax + gatherLane.offCoord (ix3 b f d) ax = _
  match ax with
  | ⟨0, _⟩ => exact e0
  | ⟨1, _⟩ => exact e1
  | ⟨2, _⟩ => exact e2

/-! ## A reduction by `and` over a unit axis -/

/-- A left fold by `and` from 1 over words that are all 1 is 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_all_one f l (fun n hn => h n (List.mem_cons_of_mem _ hn))

/-- Reducing by `and` over the trailing unit axis of a [64, 6, 65536, 1] array of bits, from 1: the result at
    `(b, f, d)` is 1 when the array's one element there is. -/
theorem all_unit3 (p : IVec S64x6x65536x1 1) (b : Fin 64) (f : Fin 6) (d : Fin 65536)
    (hp : p (ix4 b f d (0 : Fin 1)) = 1#1) :
    Host.reduce IntOp.andi p (constantI S_ 1 1#1) reducesTo_unit3 h_S_ (ix3 b f d) = 1#1 := by
  rw [Host.reduce_eq_foldl]
  show List.foldl (fun r n => IntOp.andi r (p n)) 1#1 _ = 1#1
  apply foldl_andi_all_one
  intro i hi
  rw [List.mem_filter] at hi
  have hdrop : reducesTo_unit3.drop i = ix3 b f d := by simpa using hi.2
  have h0 : (i 0).val = b.val := by
    have := congrArg (fun g : S64x6x65536.Idx => (g 0).val) hdrop
    rwa [Shape.ReducesTo.drop_apply_val_of_eq reducesTo_unit3 i 0 0] at this
  have h1 : (i 1).val = f.val := by
    have := congrArg (fun g : S64x6x65536.Idx => (g 1).val) hdrop
    rwa [Shape.ReducesTo.drop_apply_val_of_eq reducesTo_unit3 i 1 1] at this
  have h2 : (i 2).val = d.val := by
    have := congrArg (fun g : S64x6x65536.Idx => (g 2).val) hdrop
    rwa [Shape.ReducesTo.drop_apply_val_of_eq reducesTo_unit3 i 2 2] at this
  have h3 : (i 3).val = 0 := by have : (i 3).val < 1 := (i 3).isLt; omega
  have hi' : i = ix4 b f d (0 : Fin 1) := by
    funext a; refine Fin.ext ?_
    match a with
    | ⟨0, _⟩ => exact h0
    | ⟨1, _⟩ => exact h1
    | ⟨2, _⟩ => exact h2
    | ⟨3, _⟩ => exact h3
  rw [hi']; exact hp

/-! ## The gathered array at a slot whose table entry is a position -/

/-- A matrix `[A, C]` given a middle unit axis, `[A, 1, C]`, reads, at `(a, z, c)`, the matrix at `(a, c)`. -/
theorem bcast_ac_a1c {A C : Nat} (h : (⟨2, ![A, C]⟩ : Shape).BroadcastsInDim ⟨3, ![A, 1, C]⟩ ![0, 2])
    (x : (⟨2, ![A, C]⟩ : Shape).Idx → α) (a : Fin A) (z : Fin 1) (c : Fin C) :
    broadcastInDim ⟨3, ![A, 1, C]⟩ ![0, 2] h x (ix3 a z c) = x (ix2 a c) :=
  broadcastInDim_apply _ h x _ _ (fun ax => by
    match ax with
    | ⟨0, _⟩ =>
      show a.val = if A = 1 then 0 else a.val
      split
      · have := a.isLt; omega
      · rfl
    | ⟨1, _⟩ =>
      show c.val = if C = 1 then 0 else c.val
      split
      · have := c.isLt; omega
      · rfl)

/-- An array `[A, 1, C]` repeated along its middle unit axis to `[A, B, C]` reads, at `(a, b, c)`, the array at
    `(a, 0, c)`. -/
theorem bcast_a1c_abc {A B C : Nat} (h : (⟨3, ![A, 1, C]⟩ : Shape).BroadcastsInDim ⟨3, ![A, B, C]⟩ ![0, 1, 2])
    (x : (⟨3, ![A, 1, C]⟩ : Shape).Idx → α) (a : Fin A) (b : Fin B) (c : Fin C) :
    broadcastInDim ⟨3, ![A, B, C]⟩ ![0, 1, 2] h x (ix3 a b c) = x (ix3 a (0 : Fin 1) c) :=
  broadcastInDim_apply _ h x _ _ (fun ax => by
    match ax with
    | ⟨0, _⟩ =>
      show a.val = if A = 1 then 0 else a.val
      split
      · have := a.isLt; omega
      · rfl
    | ⟨1, _⟩ => rfl
    | ⟨2, _⟩ =>
      show c.val = if C = 1 then 0 else c.val
      split
      · have := c.isLt; omega
      · rfl)

variable {F : FTy → Type} [FloatOps F]

/-- Where the table's entry at slot `(b, d)` is the word of a position `s` of the row, the gathered array at
    `(b, f, d)` is the source at `(b, s, f)`: the entry is non-negative and inside the axis, so it is neither wrapped
    nor replaced, and the clamp leaves it. -/
theorem gatheredOf_of_inv (src : FVec F S64x65536x6 .f32) (inv : IVec S64x65536 32) (b : Fin 64) (f : Fin 6)
    (d s : Fin 65536) (hinv : inv (ix2 b d) = BitVec.ofNat 32 s.val) :
    gatheredOf src inv (ix3 b f d) = src (ix3 b s f) := by
  unfold gatheredOf
  dsimp only
  set V : IVec S64x6x65536 32 := broadcastInDim S64x6x65536 ![0, 1, 2] _ (broadcastInDim S64x1x65536 ![0, 2] _ inv) with hV
  set W4 : IVec S64x6x65536 32 := select (cmpi CmpIPredicate.slt V _) (addi V _) V with hW4
  set W5 : IVec S64x6x65536x1 32 := fun i => shapeCast S64x6x65536x1 W4 _ i with hW5
  have hs := s.isLt
  have eV : V (ix3 b f d) = BitVec.ofNat 32 s.val := by
    rw [hV, bcast_a1c_abc, bcast_ac_a1c, hinv]
  have eW4 : W4 (ix3 b f d) = BitVec.ofNat 32 s.val := by
    rw [hW4]
    show Scalar.select (IntOp.cmpi .slt (V (ix3 b f d)) _) _ (V (ix3 b f d)) = _
    rw [eV, Cert.LibLayout.bcast_scalar]
    show Scalar.select (IntOp.cmpi .slt (BitVec.ofNat 32 s.val) (BitVec.ofNat 32 0)) _ _ = _
    rw [slt_ofNat _ _ (by omega) (by omega), if_neg (Nat.not_lt_zero _)]
    rfl
  have eW5 : W5 (ix4 b f d (0 : Fin 1)) = BitVec.ofNat 32 s.val := by
    rw [hW5]
    show shapeCast S64x6x65536x1 W4 _ (ix4 b f d (0 : Fin 1)) = _
    rw [shapeCast_apply W4 _ (ix4 b f d (0 : Fin 1)) (ix3 b f d) (by
      rw [Shape.rowMajor_val_three, Shape.rowMajor_val_four]
      show (b.val * 6 + f.val) * 65536 + d.val = ((b.val * 6 + f.val) * 65536 + d.val) * 1 + 0
      omega)]
    exact eW4
  have hp : (andi (cmpi CmpIPredicate.sge W5 (broadcastInDim S64x6x65536x1 ![] (by decide) (constantI S_ 32 0#32)))
      (cmpi CmpIPredicate.sle W5 (broadcastInDim S64x6x65536x1 ![0, 1, 2, 3] (by decide)
        (broadcastInDim S1x1x1x1 ![3] (by decide) (constantI S1 32 65535#32))))) (ix4 b f d (0 : Fin 1)) = 1#1 := by
    show IntOp.andi (IntOp.cmpi .sge (W5 (ix4 b f d (0 : Fin 1))) (BitVec.ofNat 32 0))
      (IntOp.cmpi .sle (W5 (ix4 b f d (0 : Fin 1))) (BitVec.ofNat 32 65535)) = 1#1
    rw [eW5]
    unfold IntOp.cmpi IntOp.andi
    simp only [BitVec.sle, toInt_ofNat_small s.val (by omega), toInt_ofNat_small 0 (by omega),
      toInt_ofNat_small 65535 (by omega)]
    have h1 : ((0 : ℕ) : Int) ≤ (s.val : Int) := by omega
    have h2 : (s.val : Int) ≤ ((65535 : ℕ) : Int) := by omega
    have h3 : s.val ≤ 65535 := by omega
    simp [h1, h2, h3]
  show Scalar.select (Host.reduce IntOp.andi _ (constantI S_ 1 1#1) reducesTo_unit3 h_S_ (ix3 b f d))
    (Host.gather gatherLane (transpose S64x6x65536 [0, 2, 1] src _) W5 (ix3 b f d)) _ = _
  rw [all_unit3 _ b f d hp, gatherLane_apply]
  unfold Scalar.select
  rw [if_pos (show (1#1 : BitVec 1) = 1 from rfl)]
  have hmin : min (W5 (ix4 b f d (0 : Fin 1))).toInt.toNat 65535 = s.val := by
    rw [eW5, toInt_ofNat_small _ (by omega)]; omega
  rw [transpose_apply _ src _ _ (ix3 b s f) (fun c => by
    match c with
    | ⟨0, _⟩ => rfl
    | ⟨1, _⟩ => rfl
    | ⟨2, _⟩ => exact hmin.symm)]

end Cert.Skyline

end
-- ==== Proof.LibScatterSet.lean ====
/-
  A SCATTER THAT WRITES THE UPDATE ITSELF, READ AT AN INDEX.

  `Host.scatter d (fun _ b => b) x idx upd` folds over the update indices in row-major order, each update replacing the
  element at the operand index it lands on (`ScatterDims.resultIdx?`), an update landing outside being dropped.  Read at
  an operand index `i`: if no update lands on `i` the result is the operand's element; if the updates landing on `i` all
  carry one value, the result is that value, whatever the order of the fold.  Nothing here depends on the shapes or on
  the dimension numbers.
-/
import Idealize.ShloMosaic.PureOps

noncomputable section

namespace Cert.LibScatterSet

open Idealize.ShloMosaic

variable {α : Type} {s si u : Shape} {w : Nat}

/-- One step of the fold: update number `n` written where it lands. -/
def step (d : ScatterDims s si u) (idx : IVec si w) (upd : u.Idx → α) (r : s.Idx → α) (n : Fin u.numel) : s.Idx → α :=
  match d.resultIdx? (u.rowMajor.symm n) idx with
  | some i => fun i' => if i' = i then (fun (_ : α) (b : α) => b) (r i) (upd (u.rowMajor.symm n)) else r i'
  | none => r

/-- The scatter is the fold of that step over the update numbers in order. -/
theorem scatter_eq_foldl (d : ScatterDims s si u) (x : s.Idx → α) (idx : IVec si w) (upd : u.Idx → α) :
    Host.scatter d (fun _ b => b) x idx upd = (List.finRange u.numel).foldl (step d idx upd) x := rfl

/-- A step whose update lands on `i` leaves the update's value there. -/
theorem step_hit (d : ScatterDims s si u) (idx : IVec si w) (upd : u.Idx → α) (r : s.Idx → α) (n : Fin u.numel)
    (i : s.Idx) (h : d.resultIdx? (u.rowMajor.symm n) idx = some i) : step d idx upd r n i = upd (u.rowMajor.symm n) := by
  unfold step; rw [h]; exact if_pos rfl

/-- A step whose update does not land on `i` leaves `i` as it was. -/
theorem step_miss (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hr : d.resultIdx? (u.rowMajor.symm n) idx with
  | none => rfl
  | some i0 =>
    have hne : i ≠ i0 := fun e => h (by rw [hr, e])
    exact if_neg hne

/-- The fold over any list of update numbers, read at `i`, when the updates landing on `i` all carry one value: every
    listed update that lands on `i` gives the result, and with none listed landing there `i` is as it was. -/
theorem foldl_step_read (d : ScatterDims s si u) (idx : IVec si w) (upd : u.Idx → α) (i : s.Idx)
    (huniq : ∀ k k', d.resultIdx? k idx = some i → d.resultIdx? k' idx = some i → upd k = upd k') :
    ∀ (l : List (Fin u.numel)) (r0 : s.Idx → α),
      (∀ n ∈ l, d.resultIdx? (u.rowMajor.symm n) idx = some i →
        (l.foldl (step d idx upd) r0) i = upd (u.rowMajor.symm n))
      ∧ ((∀ n ∈ l, d.resultIdx? (u.rowMajor.symm n) idx ≠ some i) → (l.foldl (step d idx upd) r0) i = r0 i)
  | [], r0 => ⟨fun n hn => absurd hn List.not_mem_nil, fun _ => rfl⟩
  | n :: l, r0 => by
    obtain ⟨ihHit, ihMiss⟩ := foldl_step_read d idx upd i huniq l (step d idx upd r0 n)
    rw [List.foldl_cons]
    constructor
    · intro n0 hn0 hhit
      rcases List.mem_cons.mp hn0 with rfl | hn0
      · by_cases hex : ∃ n1 ∈ l, d.resultIdx? (u.rowMajor.symm n1) idx = some i
        · obtain ⟨n1, hn1, hhit1⟩ := hex
          rw [ihHit n1 hn1 hhit1]
          exact huniq _ _ hhit1 hhit
        · have hnone : ∀ n1 ∈ l, d.resultIdx? (u.rowMajor.symm n1) idx ≠ some i :=
            fun n1 hn1 h1 => hex ⟨n1, hn1, h1⟩
          rw [ihMiss hnone]
          exact step_hit d idx upd r0 n0 i hhit
      · exact ihHit n0 hn0 hhit
    · intro hnone
      rw [ihMiss (fun n1 hn1 => hnone n1 (List.mem_cons_of_mem _ hn1))]
      exact step_miss d idx upd r0 n i (hnone n List.mem_cons_self)

/-- THE SCATTER READ AT AN INDEX AN UPDATE LANDS ON: when the updates landing on `i` all carry one value, the result at
    `i` is the value of any of them. -/
theorem scatter_of_hit (d : ScatterDims s si u) (x : s.Idx → α) (idx : IVec si w) (upd : u.Idx → α) (i : s.Idx)
    (huniq : ∀ k k', d.resultIdx? k idx = some i → d.resultIdx? k' idx = some i → upd k = upd k')
    (k : u.Idx) (hk : d.resultIdx? k idx = some i) : Host.scatter d (fun _ b => b) x idx upd i = upd k := by
  rw [scatter_eq_foldl]
  have h := (foldl_step_read d idx upd i huniq (List.finRange u.numel) x).1 (u.rowMajor k) (List.mem_finRange _)
  rw [Equiv.symm_apply_apply] at h
  exact h hk

/-- THE SCATTER READ AT AN INDEX NO UPDATE LANDS ON: the operand's element. -/
theorem scatter_of_no_hit (d : ScatterDims s si u) (x : s.Idx → α) (idx : IVec si w) (upd : u.Idx → α) (i : s.Idx)
    (hnone : ∀ k, d.resultIdx? k idx ≠ some i) : Host.scatter d (fun _ b => b) x idx upd i = x i := by
  rw [scatter_eq_foldl]
  exact (foldl_step_read d idx upd i (fun k _ hk _ => absurd hk (hnone k)) (List.finRange u.numel) x).2
    (fun n _ => hnone _)

end Cert.LibScatterSet

end
-- ==== Proof.Bridge.lean ====
/-
  THE TWO WAYS TO THE COMPACTED ROWS AGREE.

  Fix a row `b` and a slot `d` below 65536.  A position `s` of the row is sent to slot `d` exactly when it is kept and
  the count of kept positions up to and including `s` is `d + 1`; the count is injective on kept positions, so at most
  one position is sent there, and a value `d` below the row's total count is taken (the count climbs by single steps),
  while no position is sent to a slot at or beyond the total.  So: where some position `s` is sent to `d`, the scatter of
  rows leaves the source row `s` there, the scatter of position numbers leaves `s` in the table, `d` is below the row's
  count, and the gather through the table reads the same source row; where none is, the scatter of rows leaves its
  zero, `d` is at or beyond the row's count, and the padding writes zero.
-/
import proofs.«175822_j4002909520703_2_alg».proof.Proof.Spec
import proofs.«175822_j4002909520703_2_alg».proof.Proof.Counting
import proofs.«175822_j4002909520703_2_alg».proof.Proof.CountWords
import proofs.«175822_j4002909520703_2_alg».proof.Proof.Slots
import proofs.«175822_j4002909520703_2_alg».proof.Proof.Gather
import proofs.«175822_j4002909520703_2_alg».proof.Proof.LibScatterSet
import proofs.«175822_j4002909520703_2_alg».proof.Proof.LibLayout
import Idealize.ShloMosaic.Lib.ValueIdx
import Idealize.ShloMosaic.Lib.Pipeline.Value

noncomputable section

namespace Cert.Skyline

open Idealize.ShloMosaic Idealize.ShloMosaic.ValueIdx

variable {F : FTy → Type} [FloatOps F]

variable (keep : IVec S64x65536 1)

/-- The pair's first component, read signed, is the row's number. -/
theorem pair_row_toInt (b0 : Fin 64) (s : Fin 65536) :
    (pairOf (posOf keep) (ix3 b0 s (0 : Fin 2))).toInt = (b0.val : Int) := by
  rw [pairOf_row, toInt_ofNat_small _ (by omega)]

/-- The pair's second component, read signed, is the position's slot number. -/
theorem pair_slot_toInt' (b0 : Fin 64) (s : Fin 65536) :
    (pairOf (posOf keep) (ix3 b0 s (1 : Fin 2))).toInt = (slotNat keep b0 s.val : Int) :=
  pair_slot_toInt keep b0 s (runCount_apply keep b0 s)

/-- A position's slot is a real slot `d` exactly when the position is kept and its count is `d + 1`. -/
theorem slotNat_eq_iff (b : Fin 64) (s d : ℕ) (hd : d < 65536) :
    slotNat keep b s = d ↔ (Kept keep b s ∧ cnt keep b (s + 1) = d + 1) := by
  unfold slotNat
  by_cases hk : Kept keep b s
  · rw [if_pos hk]
    have := cnt_pos_of_kept keep b hk
    constructor
    · intro h; exact ⟨hk, by omega⟩
    · rintro ⟨_, h⟩; omega
  · rw [if_neg hk]
    constructor
    · intro h; omega
    · rintro ⟨h, _⟩; exact absurd h hk

/-- Slot `d` of a row as a slot of the array with the dummy slot. -/
abbrev wide (d : Fin 65536) : Fin 65537 := ⟨d.val, by omega⟩

/-- An update of the row scatter lands on `(b, d, f)` exactly when it is of row `b` and feature `f` and of a kept
    position whose count is `d + 1`. -/
theorem rows_hit_iff (b0 : Fin 64) (s : Fin 65536) (f0 : Fin 6) (b : Fin 64) (d : Fin 65536) (f : Fin 6) :
    scatterRows.resultIdx? (ix3 b0 s f0) (pairOf (posOf keep)) = some (ix3 b (wide d) f)
      ↔ (b0 = b ∧ Kept keep b s.val ∧ cnt keep b (s.val + 1) = d.val + 1 ∧ f0 = f) := by
  rw [rows_lands, pair_row_toInt, pair_slot_toInt']
  show ((b0.val : Int) = (b.val : Int) ∧ (slotNat keep b0 s.val : Int) = (d.val : Int) ∧ f0.val = f.val) ↔ _
  constructor
  · rintro ⟨h0, h1, h2⟩
    have hb : b0 = b := Fin.ext (by omega)
    subst hb
    have := (slotNat_eq_iff keep b0 s.val d.val d.isLt).mp (by omega)
    exact ⟨rfl, this.1, this.2, Fin.ext h2⟩
  · rintro ⟨rfl, hk, hc, rfl⟩
    have := (slotNat_eq_iff keep b0 s.val d.val d.isLt).mpr ⟨hk, hc⟩
    exact ⟨rfl, by omega, rfl⟩

/-- An update of the slot scatter lands on `(b, d)` exactly when it is of row `b` and of a kept position whose count
    is `d + 1`. -/
theorem slots_hit_iff (b0 : Fin 64) (s : Fin 65536) (b : Fin 64) (d : Fin 65536) :
    scatterSlots.resultIdx? (ix2 b0 s) (pairOf (posOf keep)) = some (ix2 b (wide d))
      ↔ (b0 = b ∧ Kept keep b s.val ∧ cnt keep b (s.val + 1) = d.val + 1) := by
  rw [slots_lands, pair_row_toInt, pair_slot_toInt']
  show ((b0.val : Int) = (b.val : Int) ∧ (slotNat keep b0 s.val : Int) = (d.val : Int)) ↔ _
  constructor
  · rintro ⟨h0, h1⟩
    have hb : b0 = b := Fin.ext (by omega)
    subst hb
    have := (slotNat_eq_iff keep b0 s.val d.val d.isLt).mp (by omega)
    exact ⟨rfl, this.1, this.2⟩
  · rintro ⟨rfl, hk, hc⟩
    have := (slotNat_eq_iff keep b0 s.val d.val d.isLt).mpr ⟨hk, hc⟩
    exact ⟨rfl, by omega⟩

/-! ## The scatter of rows, read at a slot -/

/-- The scatter of rows with its dummy slot dropped, at `(b, d, f)`, is the scatter at the same coordinates. -/
theorem scatterOut_apply (src : FVec F S64x65536x6 .f32) (pair : IVec S64x65536x2 32) (b : Fin 64) (d : Fin 65536)
    (f : Fin 6) :
    scatterOut src pair (ix3 b d f)
      = Host.scatter scatterRows (fun _ b => b)
          (broadcastInDim S64x65537x6 ![] (by decide) (constant (F := F) S_ .f32 0x00000000#32)) pair src (ix3 b (wide d) f) := by
  unfold scatterOut
  dsimp only
  exact extractStridedSlice_apply _ _ _ _ (ix3 b (wide d) f) (fun a => by
    match a with
    | ⟨0, _⟩ => exact (Nat.zero_add _).symm
    | ⟨1, _⟩ => exact (Nat.zero_add _).symm
    | ⟨2, _⟩ => exact (Nat.zero_add _).symm)

/-- Where a kept position `s` of row `b` has count `d + 1`, the scatter of rows leaves the source row `s` at slot `d`. -/
theorem scatterOut_of_kept (src : FVec F S64x65536x6 .f32) (b : Fin 64) (d : Fin 65536) (f : Fin 6) (s : Fin 65536)
    (hk : Kept keep b s.val) (hc : cnt keep b (s.val + 1) = d.val + 1) :
    scatterOut src (pairOf (posOf keep)) (ix3 b d f) = src (ix3 b s f) := by
  rw [scatterOut_apply]
  refine Cert.LibScatterSet.scatter_of_hit scatterRows _ _ src _ ?_ (ix3 b s f)
    ((rows_hit_iff keep b s f b d f).mpr ⟨rfl, hk, hc, rfl⟩)
  intro k k' hk1 hk2
  rw [eq_ix3 k] at hk1 ⊢
  rw [eq_ix3 k'] at hk2 ⊢
  obtain ⟨e0, ek, ec, e2⟩ := (rows_hit_iff keep _ _ _ b d f).mp hk1
  obtain ⟨e0', ek', ec', e2'⟩ := (rows_hit_iff keep _ _ _ b d f).mp hk2
  have e1 : k 1 = k' 1 := Fin.ext (cnt_inj keep b ek ek' (ec.trans ec'.symm))
  rw [e0, e0', e1, e2, e2']

/-- Where no kept position of row `b` has count `d + 1`, the scatter of rows leaves its zero at slot `d`. -/
theorem scatterOut_of_none (src : FVec F S64x65536x6 .f32) (b : Fin 64) (d : Fin 65536) (f : Fin 6)
    (hnone : ∀ s : Fin 65536, ¬ (Kept keep b s.val ∧ cnt keep b (s.val + 1) = d.val + 1)) :
    scatterOut src (pairOf (posOf keep)) (ix3 b d f) = FloatOps.ofBits .f32 0x00000000#32 := by
  rw [scatterOut_apply]
  refine (Cert.LibScatterSet.scatter_of_no_hit scatterRows _ _ src _ ?_).trans rfl
  intro k hk1
  rw [eq_ix3 k] at hk1
  obtain ⟨_, ek, ec, _⟩ := (rows_hit_iff keep _ _ _ b d f).mp hk1
  exact hnone (k 1) ⟨ek, ec⟩

/-! ## The table of positions, read at a slot -/

/-- Where a kept position `s` of row `b` has count `d + 1`, the table's entry at slot `d` is `s`'s word. -/
theorem invOf_of_kept (b : Fin 64) (d : Fin 65536) (s : Fin 65536)
    (hk : Kept keep b s.val) (hc : cnt keep b (s.val + 1) = d.val + 1) :
    invOf (pairOf (posOf keep)) (ix2 b d) = BitVec.ofNat 32 s.val := by
  unfold invOf
  dsimp only
  rw [extractStridedSlice_apply _ _ _ _ (ix2 b (wide d)) (fun a => by
    match a with
    | ⟨0, _⟩ => exact (Nat.zero_add _).symm
    | ⟨1, _⟩ => exact (Nat.zero_add _).symm)]
  refine (Cert.LibScatterSet.scatter_of_hit scatterSlots _ _ _ _ ?_ (ix2 b s)
    ((slots_hit_iff keep b s b d).mpr ⟨rfl, hk, hc⟩)).trans ?_
  · intro k k' hk1 hk2
    rw [eq_ix2 k] at hk1 ⊢
    rw [eq_ix2 k'] at hk2 ⊢
    obtain ⟨e0, ek, ec⟩ := (slots_hit_iff keep _ _ b d).mp hk1
    obtain ⟨e0', ek', ec'⟩ := (slots_hit_iff keep _ _ b d).mp hk2
    have e1 : k 1 = k' 1 := Fin.ext (cnt_inj keep b ek ek' (ec.trans ec'.symm))
    rw [e0, e0', e1]
  · rw [Cert.LibLayout.bcast_1n_mn, Cert.LibLayout.bcast_n_1n]
    rfl

/-! ## The gather, padded and transposed back, read at a slot -/

/-- The gathered, padded and transposed array at `(b, d, f)`: the gathered value at `(b, f, d)` where `d`, as a word, is
    below the row's count read signed, else zero. -/
theorem gatherOut_apply (src : FVec F S64x65536x6 .f32) (len : IVec S64 32) (pair : IVec S64x65536x2 32) (b : Fin 64)
    (d : Fin 65536) (f : Fin 6) :
    gatherOut src len pair (ix3 b d f)
      = Scalar.select (IntOp.cmpi .slt (BitVec.ofNat 32 d.val) (len (ix1 b))) (gatheredOf src (invOf pair) (ix3 b f d))
          (FloatOps.ofBits .f32 0x00000000#32) := by
  unfold gatherOut
  rw [transpose_apply _ _ _ _ (ix3 b f d) (fun c => by
    match c with
    | ⟨0, _⟩ => rfl
    | ⟨1, _⟩ => rfl
    | ⟨2, _⟩ => rfl)]
  rfl

/-- THE TWO ARRAYS ARE ONE: gathering the source rows through the table of positions and padding with zeros beyond the
    row's count gives, slot by slot, what scattering the source rows gives. -/
theorem gatherOut_eq_scatterOut (src : FVec F S64x65536x6 .f32) :
    gatherOut src (lenOf keep) (pairOf (posOf keep)) = scatterOut src (pairOf (posOf keep)) := by
  funext j
  obtain ⟨b, d, f, rfl⟩ : ∃ (b : Fin 64) (d : Fin 65536) (f : Fin 6), j = ix3 b d f := ⟨j 0, j 1, j 2, eq_ix3 j⟩
  have hd := d.isLt
  have hle := cnt_le keep b 65536
  rw [gatherOut_apply, lenOf_apply, slt_ofNat _ _ (by omega) (by omega)]
  by_cases h : ∃ s : Fin 65536, Kept keep b s.val ∧ cnt keep b (s.val + 1) = d.val + 1
  · obtain ⟨s, hk, hc⟩ := h
    have hlt : d.val < cnt keep b 65536 := by
      have := cnt_mono keep b (show s.val + 1 ≤ 65536 from s.isLt)
      omega
    rw [if_pos hlt, scatterOut_of_kept keep src b d f s hk hc,
      gatheredOf_of_inv src _ b f d s (invOf_of_kept keep b d s hk hc)]
    rfl
  · have hnone : ∀ s : Fin 65536, ¬ (Kept keep b s.val ∧ cnt keep b (s.val + 1) = d.val + 1) :=
      fun s hs => h ⟨s, hs⟩
    have hge : ¬ d.val < cnt keep b 65536 := by
      intro hlt
      obtain ⟨s, hs, hk, hc⟩ := exists_kept_of_lt_cnt keep b 65536 d.val hlt
      exact hnone ⟨s, hs⟩ ⟨hk, hc⟩
    rw [if_neg hge, scatterOut_of_none keep src b d f hnone]
    rfl

end Cert.Skyline

end
-- ==== Proof.lean ====
/-
  The certificate of the skyline compaction: per row, the kept tokens moved to the front in order, the rest of the
  row zero, with the mask of the filled slots and a zero count per row.

  Both programs compute the same keep flags, slots and (row, slot) pairs from the two integer inputs.  The reference
  scatters the source rows at the pairs into a zero array with one dummy slot per row and drops the dummy slot.  The
  kernel's program scatters the position numbers instead, gathers the source rows through that table, and a
  pallas_call over the rows keeps a gathered value where its slot is below the row's count of kept positions and
  writes zero elsewhere; a transpose on each side of the call puts positions on the last axis and back.  The two
  arrays agree slot by slot (Proof/Bridge.lean): a slot below the row's count is the slot of exactly one kept
  position, whose source row both programs put there; a slot at or beyond the count receives nothing in the scatter
  and zero in the padding.  The mask and the zero counts are the same operations of the same flags on both sides.
  No float is computed with: every value is moved or replaced by zero, so the precondition is never opened.

  The three frames: the kernel's two programs by the frame run of the pipeline (the index maps read no prefetched
  word, so the side condition on the prefetched row counts is `True`), the reference's by its run with the results
  dropped.  The idealization rewrote nothing, so `preserves` is `True`.
-/
import proofs.«175822_j4002909520703_2_alg».proof.Defs
import proofs.«175822_j4002909520703_2_alg».proof.Proof.Gen.Kernel
import proofs.«175822_j4002909520703_2_alg».proof.Proof.Gen.KernelIdeal
import proofs.«175822_j4002909520703_2_alg».proof.Proof.Gen.ReferenceIdeal
import proofs.«175822_j4002909520703_2_alg».proof.Proof.Gen.Pre_finite_inputs
import proofs.«175822_j4002909520703_2_alg».proof.Proof.KernelFrameP
import proofs.«175822_j4002909520703_2_alg».proof.Proof.KernelIdealFrameP
import proofs.«175822_j4002909520703_2_alg».proof.Proof.RefRun
import proofs.«175822_j4002909520703_2_alg».proof.Proof.KerRun
import proofs.«175822_j4002909520703_2_alg».proof.Proof.Bridge
import Idealize.ShloMosaic.Adequacy
import Idealize.ShloMosaic.Init

noncomputable section

namespace Cert.Proof

open Idealize.ShloMosaic Idealize.SL.Sem

/-- The word-level kernel runs and leaves its arguments: the pipeline's frame run, its side condition trivial. -/
theorem frame_k : Cert.frame_Kernel (hKernel := Cert.Kernel.Gen.facts) (hPre_finite_inputs := Cert.Pre_finite_inputs.Gen.facts) :=
  fun m ρ _ => Cert.Kernel.GenP.frame m ρ trivial

/-- The idealized kernel likewise. -/
theorem frame_ki : Cert.frame_KernelIdeal (hKernelIdeal := Cert.KernelIdeal.Gen.facts)
    (hPre_finite_inputs := Cert.Pre_finite_inputs.Gen.facts) :=
  fun m ρ _ => Cert.KernelIdeal.GenP.frame m ρ trivial

/-- The reference runs and leaves its arguments: its run with the results dropped. -/
theorem frame_ri : Cert.frame_ReferenceIdeal (hReferenceIdeal := Cert.ReferenceIdeal.Gen.facts)
    (hPre_finite_inputs := Cert.Pre_finite_inputs.Gen.facts) :=
  fun m ρ _ => Cert.ReferenceIdeal.RefValue.frame m ρ

/-- The idealization rewrote no operation. -/
theorem preserves : Cert.preserves_Kernel_KernelIdeal := trivial

/-- From memories agreeing on the arguments both programs end with the scattered rows, the mask of the filled slots and
    the zero counts: the reference by its run, the kernel by its run and the agreement of the gathered-and-padded array
    with the scattered one. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.KerValue.run m ρ, ?_⟩
  refine (θ_run (Cert.ReferenceIdeal.defs (F := Ideal)) _ _).mono (fun _ h c => ?_)
    (Cert.ReferenceIdeal.RefValue.run m' ρ')
  obtain ⟨h0, h1, h2, h3⟩ := h c
  refine ⟨?_, ?_, h2, h3⟩
  · rw [h0, (hagree c).1, (hagree c).2.1, (hagree c).2.2]
    exact (Cert.Skyline.gatherOut_eq_scatterOut _ _).symm
  · rw [h1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
